-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x1024 : Shape := ⟨2, ![2048, 1024]⟩
abbrev S2048 : Shape := ⟨1, ![2048]⟩
abbrev S2048x2048 : Shape := ⟨2, ![2048, 2048]⟩
abbrev S1000x2048 : Shape := ⟨2, ![1000, 2048]⟩
abbrev S1000 : Shape := ⟨1, ![1000]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S1000x2048 : S_.BroadcastsInDim S1000x2048 (![] : Fin 0 → Fin S1000x2048.rank)
  reducesTo_S1000x2048_S_d0_1 : S1000x2048.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg4 : FVec F S2048 .f32) (main_arg5 : FVec F S1000x2048 .f32) (main_arg6 : FVec F S1000 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S1000x2048 .f32 := Host.absf main_arg5
  let main_cst_8 : FVec F S_ .f32 := constant S_ .f32 0x7F800000#32
  let main_v25 : FVec F S1000x2048 .f32 := broadcastInDim S1000x2048 ![] bcast_S_S1000x2048 main_cst_8
  let main_v26 : IVec S1000x2048 1 := cmpf .olt main_v24 main_v25
  let main_c_9 : IVec S_ 1 := constantI S_ 1 1#1
  let main_v27 : IVec S_ 1 := (fun x v => Host.reduce IntOp.andi x v reducesTo_S1000x2048_S_d0_1 h_S_) main_v26 main_c_9
  let main_v28 : IVec S_ 1 := andi main_v23 main_v27
  let main_v29 : FVec F S1000 .f32 := Host.absf main_arg6
  let main_cst_10 : FVec F S_ .f32 := constant S_ .f32 0x7F800000#32
  let main_v30 : FVec F S1000 .f32 := broadcastInDim S1000 ![] bcast_S_S1000 main_cst_10
  let main_v31 : IVec S1000 1 := cmpf .olt main_v29 main_v30
  let main_c_11 : IVec S_ 1 := constantI S_ 1 1#1
  let main_v32 : IVec S_ 1 := (fun x v => Host.reduce IntOp.andi x v reducesTo_S1000_S_d0 h_S_) main_v31 main_c_11
  let main_v33 : IVec S_ 1 := andi main_v28 main_v32
  main_v33

def fn {F : FTy → Type} [FloatOps F] (main_arg0 : FVec F S8192x1024 .f32) (main_arg1 : FVec F S2048x1024 .f32) (main_arg2 : FVec F S2048 .f32) (main_arg3 : FVec F S2048x2048 .f32) (main_arg4 : FVec F S2048 .f32) (main_arg5 : FVec F S1000x2048 .f32) (main_arg6 : FVec F S1000 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_v13 main_v16
-- ==== Kernel.lean ====
abbrev S8192x1024 : Shape := ⟨2, ![8192, 1024]⟩
abbrev S2048x1024 : Shape := ⟨2, ![2048, 1024]⟩
abbrev S2048 : Shape := ⟨1, ![2048]⟩
abbrev S2048x2048 : Shape := ⟨2, ![2048, 2048]⟩
abbrev S1000x2048 : Shape := ⟨2, ![1000, 2048]⟩
abbrev S1000 : Shape := ⟨1, ![1000]⟩
abbrev S_ : Shape := ⟨0, ![]⟩
abbrev S1024x2048 : Shape := ⟨2, ![1024, 2048]⟩
abbrev S1024 : Shape := ⟨1, ![1024]⟩
abbrev S8192x2048 : Shape := ⟨2, ![8192, 2048]⟩
abbrev S64x1024 : Shape := ⟨2, ![64, 1024]⟩
abbrev S64x2048 : Shape := ⟨2, ![64, 2048]⟩
abbrev S1x2048 : Shape := ⟨2, ![1, 2048]⟩
abbrev S1x1024 : Shape := ⟨2, ![1, 1024]⟩
abbrev S1024x1024 : Shape := ⟨2, ![1024, 1024]⟩
abbrev S8192x1000 : Shape := ⟨2, ![8192, 1000]⟩
abbrev S2048x1000 : Shape := ⟨2, ![2048, 1000]⟩

abbrev nBuf : Space → Nat
  | .hbm => 23
  | .vmem => 39
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S1000x2048, .f32⟩
  | .hbm, ⟨6, _⟩ => ⟨S1000, .f32⟩
  | .hbm, ⟨7, _⟩ => ⟨S_, .i32⟩
  | .hbm, ⟨8, _⟩ => ⟨S_, .f32⟩
  | .hbm, ⟨9, _⟩ => ⟨S1024x2048, .f32⟩
  | .hbm, ⟨10, _⟩ => ⟨S_, .i32⟩
  | .hbm, ⟨11, _⟩ => ⟨S_, .f32⟩
  | .hbm, ⟨12, _⟩ => ⟨S1024, .f32⟩
  | .hbm, ⟨13, _⟩ => ⟨S8192x1024, .f32⟩
  | .hbm, ⟨14, _⟩ => ⟨S8192x1024, .bf16⟩
  | .hbm, ⟨15, _⟩ => ⟨S8192x2048, .bf16⟩
  | .hbm, ⟨16, _⟩ => ⟨S8192x2048, .bf16⟩
  | .hbm, ⟨17, _⟩ => ⟨S8192x1024, .bf16⟩
  | .hbm, ⟨18, _⟩ => ⟨S1024x2048, .f32⟩
  | .hbm, ⟨19, _⟩ => ⟨S2048x2048, .f32⟩
  | .hbm, ⟨20, _⟩ => ⟨S2048x1024, .f32⟩
  | .hbm, ⟨21, _⟩ => ⟨S8192x1000, .f32⟩
  | .hbm, ⟨22, _⟩ => ⟨S2048x1000, .f32⟩
  | .local _ .vmem, ⟨0, _⟩ => ⟨S64x1024, .f32⟩
  | .local _ .vmem, ⟨1, _⟩ => ⟨S64x1024, .f32⟩
  | .local _ .vmem, ⟨2, _⟩ => ⟨S2048x1024, .f32⟩
  | .local _ .vmem, ⟨3, _⟩ => ⟨S2048, .f32⟩
  | .local _ .vmem, ⟨4, _⟩ => ⟨S2048x2048, .f32⟩
  | .local _ .vmem, ⟨5, _⟩ => ⟨S2048, .f32⟩
  | .local _ .vmem, ⟨6, _⟩ => ⟨S1024x2048, .f32⟩
  | .local _ .vmem, ⟨7, _⟩ => ⟨S1024, .f32⟩
  | .local _ .vmem, ⟨8, _⟩ => ⟨S64x1024, .f32⟩
  | .local _ .vmem, ⟨9, _⟩ => ⟨S64x1024, .f32⟩
  | .local _ .vmem, ⟨10, _⟩ => ⟨S64x1024, .bf16⟩
  | .local _ .vmem, ⟨11, _⟩ => ⟨S64x1024, .bf16⟩
  | .local _ .vmem, ⟨12, _⟩ => ⟨S64x2048, .bf16⟩
  | .local _ .vmem, ⟨13, _⟩ => ⟨S64x2048, .bf16⟩
  | .local _ .vmem, ⟨14, _⟩ => ⟨S64x2048, .bf16⟩
  | .local _ .vmem, ⟨15, _⟩ => ⟨S64x2048, .bf16⟩
  | .local _ .vmem, ⟨16, _⟩ => ⟨S64x1024, .bf16⟩
  | .local _ .vmem, ⟨17, _⟩ => ⟨S64x1024, .bf16⟩
  | .local _ .vmem, ⟨18, _⟩ => ⟨S2048x1024, .bf16⟩
  | .local _ .vmem, ⟨19, _⟩ => ⟨S2048x1024, .bf16⟩
  | .local _ .vmem, ⟨20, _⟩ => ⟨S2048x1024, .bf16⟩
  | .local _ .vmem, ⟨21, _⟩ => ⟨S2048x1024, .bf16⟩
  | .local _ .vmem, ⟨22, _⟩ => ⟨S1024x1024, .f32⟩
  | .local _ .vmem, ⟨23, _⟩ => ⟨S1024x1024, .f32⟩
  | .local _ .vmem, ⟨24, _⟩ => ⟨S1024x1024, .f32⟩
  | .local _ .vmem, ⟨25, _⟩ => ⟨S2048x1024, .bf16⟩
  | .local _ .vmem, ⟨26, _⟩ => ⟨S2048x1024, .bf16⟩
  | .local _ .vmem, ⟨27, _⟩ => ⟨S2048x1024, .bf16⟩
  | .local _ .vmem, ⟨28, _⟩ => ⟨S2048x1024, .bf16⟩
  | .local _ .vmem, ⟨29, _⟩ => ⟨S1024x1024, .f32⟩
  | .local _ .vmem, ⟨30, _⟩ => ⟨S1024x1024, .f32⟩
  | .local _ .vmem, ⟨31, _⟩ => ⟨S1024x1024, .f32⟩
  | .local _ .vmem, ⟨32, _⟩ => ⟨S2048x1024, .bf16⟩
  | .local _ .vmem, ⟨33, _⟩ => ⟨S2048x1024, .bf16⟩
  | .local _ .vmem, ⟨34, _⟩ => ⟨S2048x1024, .bf16⟩
  | .local _ .vmem, ⟨35, _⟩ => ⟨S2048x1024, .bf16⟩
  | .local _ .vmem, ⟨36, _⟩ => ⟨S1024x1024, .f32⟩
  | .local _ .vmem, ⟨37, _⟩ => ⟨S1024x1024, .f32⟩
  | .local _ .vmem, ⟨38, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v2_3 : Ref sig .tc := ⟨.hbm, 16, rfl⟩
abbrev main_v2_4 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_scratch0 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg2_1 : Ref sig .tc := ⟨.vmem, 30, rfl⟩
abbrev cc2_scratch0 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_scratch0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨3, ![1, 2, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 2, 4], ![false, false, false]⟩

def k2_cond2 (i : grid2.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 1, 4], ![false, false, false]⟩

def k3_cond2 (i : grid3.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

class Facts₀ : Prop where
  pads_S1000x2048_S1024x2048_0240_000 : S1000x2048.Pads (![0, 0] : Fin 2 → Nat) ![24, 0] ![0, 0] S1024x2048
  h_S_ : 0 < S_.numel
  pads_S1000_S1024_0240 : S1000.Pads (![0] : Fin 1 → Nat) ![24] ![0] S1024
  inb_S64x1024_S64x1024_0_0 : ∀ a, (![0, 0] : Fin 2 → Nat) a + S64x1024.size a ≤ S64x1024.size a
  h_S64x1024 : 0 < S64x1024.numel
  natLt_1_32 : 1 < 32
  bitsLt_bf16_f32 : FTy.bits .bf16 < FTy.bits .f32
  packedbf16_S64x1024_S64x1024_0_0 : (Rect.unit (s := S64x1024) ![0, 0] S64x1024.size inb_S64x1024_S64x1024_0_0).PackedRows (EltTy.packing .bf16)
  inb_S2048x1024_S2048x1024_0_0 : ∀ a, (![0, 0] : Fin 2 → Nat) a + S2048x1024.size a ≤ S2048x1024.size a
  h_S2048x1024 : 0 < S2048x1024.numel
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S64x2048 : S1x2048.Broadcasts S64x2048
  inb_S64x2048_S64x2048_0_0 : ∀ a, (![0, 0] : Fin 2 → Nat) a + S64x2048.size a ≤ S64x2048.size a
  h_S64x2048 : 0 < S64x2048.numel
  packedbf16_S64x2048_S64x2048_0_0 : (Rect.unit (s := S64x2048) ![0, 0] S64x2048.size inb_S64x2048_S64x2048_0_0).PackedRows (EltTy.packing .bf16)
  inb_S2048x2048_S2048x2048_0_0 : ∀ a, (![0, 0] : Fin 2 → Nat) a + S2048x2048.size a ≤ S2048x2048.size a
  h_S2048x2048 : 0 < S2048x2048.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S64x1024 : S1x1024.Broadcasts S64x1024
  iota_S64x1024_d1_w32 : S64x1024.Iotas .tc 32 [1]
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S2048x1024_S2048x1024 : S2048x1024.ShapeCasts S2048x1024
  slices_S8192x1024_S8192x1000_0_0 : S8192x1024.Slices ![0, 0] S8192x1000
  slices_S2048x1024_S2048x1000_0_0 : S2048x1024.Slices ![0, 0] S2048x1000
  dot_S64x1024_S2048x1024_S64x2048_1_1_0_0_n_n_wf : DotDims.WF S64x1024 S2048x1024 S64x2048 [1] [1] [0] [0] [] []
  dot_S64x2048_S2048x2048_S64x2048_1_1_0_0_n_n_wf : DotDims.WF S64x2048 S2048x2048 S64x2048 [1] [1] [0] [0] [] []
  dot_S64x2048_S1024x2048_S64x1024_1_1_0_0_n_n_wf : DotDims.WF S64x2048 S1024x2048 S64x1024 [1] [1] [0] [0] [] []
  dot_S2048x1024_S2048x1024_S1024x1024_0_0_1_1_n_n_wf : DotDims.WF S2048x1024 S2048x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S8192x1024.size a
  hwx0_0 : ∀ i : grid0.Coords, EltTy.bits .f32 = 32 ∨ (Rect.block (s := S8192x1024) S64x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .f32 = 32 ∨ (Rect.block (s := S2048x1024) S2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .f32 = 32 ∨ (Rect.block (s := S2048x2048) S2048x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S2048.size a
  hwx0_4 : ∀ i : grid0.Coords, EltTy.bits .f32 = 32 ∨ (Rect.block (s := S2048) S2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .f32 = 32 ∨ (Rect.block (s := S1024x2048) S1024x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x1024.size a ≤ S8192x1024.size a
  hwx0_7 : ∀ i : grid0.Coords, EltTy.bits .f32 = 32 ∨ (Rect.block (s := S8192x1024) S64x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x1024.size a ≤ S8192x1024.size a
  hwx0_8 : ∀ i : grid0.Coords, EltTy.bits .bf16 = 32 ∨ (Rect.block (s := S8192x1024) S64x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x2048.size a ≤ S8192x2048.size a
  hwx0_9 : ∀ i : grid0.Coords, EltTy.bits .bf16 = 32 ∨ (Rect.block (s := S8192x2048) S64x2048.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S64x2048.size a ≤ S8192x2048.size a
  hwx0_10 : ∀ i : grid0.Coords, EltTy.bits .bf16 = 32 ∨ (Rect.block (s := S8192x2048) S64x2048.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S64x1024.size a ≤ S8192x1024.size a
  hwx0_11 : ∀ i : grid0.Coords, EltTy.bits .bf16 = 32 ∨ (Rect.block (s := S8192x1024) S64x1024.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x1024.size a
  hwx1_0 : ∀ i : grid1.Coords, EltTy.bits .bf16 = 32 ∨ (Rect.block (s := S8192x1024) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S8192x2048.size a
  hwx1_1 : ∀ i : grid1.Coords, EltTy.bits .bf16 = 32 ∨ (Rect.block (s := S8192x2048) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x2048.size a
  hwx1_2 : ∀ i : grid1.Coords, EltTy.bits .f32 = 32 ∨ (Rect.block (s := S1024x2048) S1024x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x2048.size a
  hwx2_0 : ∀ i : grid2.Coords, EltTy.bits .bf16 = 32 ∨ (Rect.block (s := S8192x2048) S2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1024.size a ≤ S8192x2048.size a
  hwx2_1 : ∀ i : grid2.Coords, EltTy.bits .bf16 = 32 ∨ (Rect.block (s := S8192x2048) S2048x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S2048x2048.size a
  hwx2_2 : ∀ i : grid2.Coords, EltTy.bits .f32 = 32 ∨ (Rect.block (s := S2048x2048) S1024x1024.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x1024.size a ≤ S8192x2048.size a
  hwx3_0 : ∀ i : grid3.Coords, EltTy.bits .bf16 = 32 ∨ (Rect.block (s := S8192x2048) S2048x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x1024.size a ≤ S8192x1024.size a
  hwx3_1 : ∀ i : grid3.Coords, EltTy.bits .bf16 = 32 ∨ (Rect.block (s := S8192x1024) S2048x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S2048x1024.size a
  hwx3_2 : ∀ i : grid3.Coords, EltTy.bits .f32 = 32 ∨ (Rect.block (s := S2048x1024) S1024x1024.size (cc3_transform_2 i) (hinb3_2 i)).WholeWords (EltTy.packing .f32)

variable [Facts₀]

def dot_S64x1024_S2048x1024_S64x2048_1_1_0_0_n_n : DotDims S64x1024 S2048x1024 S64x2048 where
  lhsContracting := [1]
  rhsContracting := [1]
  lhsNonContracting := [0]
  rhsNonContracting := [0]
  lhsBatch := []
  rhsBatch := []
  wf := dot_S64x1024_S2048x1024_S64x2048_1_1_0_0_n_n_wf
def dot_S64x2048_S2048x2048_S64x2048_1_1_0_0_n_n : DotDims S64x2048 S2048x2048 S64x2048 where
  lhsContracting := [1]
  rhsContracting := [1]
  lhsNonContracting := [0]
  rhsNonContracting := [0]
  lhsBatch := []
  rhsBatch := []
  wf := dot_S64x2048_S2048x2048_S64x2048_1_1_0_0_n_n_wf
def dot_S64x2048_S1024x2048_S64x1024_1_1_0_0_n_n : DotDims S64x2048 S1024x2048 S64x1024 where
  lhsContracting := [1]
  rhsContracting := [1]
  lhsNonContracting := [0]
  rhsNonContracting := [0]
  lhsBatch := []
  rhsBatch := []
  wf := dot_S64x2048_S1024x2048_S64x1024_1_1_0_0_n_n_wf
def dot_S2048x1024_S2048x1024_S1024x1024_0_0_1_1_n_n : DotDims S2048x1024 S2048x1024 S1024x1024 where
  lhsContracting := [0]
  rhsContracting := [0]
  lhsNonContracting := [1]
  rhsNonContracting := [1]
  lhsBatch := []
  rhsBatch := []
  wf := dot_S2048x1024_S2048x1024_S1024x1024_0_0_1_1_n_n_wf

abbrev win0_0 : Pipeline.Window sig grid0 :=
  Pipeline.Window.ofSpec (Memref.whole main_arg0) S64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_0) S64x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_1) S64x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v2_2) S64x2048.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v2_3) S64x2048.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v2_4) S64x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v2_1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_2) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v2_2) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_3) S2048x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v2_3) S2048x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2_4) S2048x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S1024x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S8192x1024 : Shape := ⟨2, ![8192, 1024]⟩
abbrev S2048x1024 : Shape := ⟨2, ![2048, 1024]⟩
abbrev S2048 : Shape := ⟨1, ![2048]⟩
abbrev S2048x2048 : Shape := ⟨2, ![2048, 2048]⟩
abbrev S1000x2048 : Shape := ⟨2, ![1000, 2048]⟩
abbrev S1000 : Shape := ⟨1, ![1000]⟩
abbrev S_ : Shape := ⟨0, ![]⟩
abbrev S1024x2048 : Shape := ⟨2, ![1024, 2048]⟩
abbrev S8192x2048 : Shape := ⟨2, ![8192, 2048]⟩
abbrev S1x2048 : Shape := ⟨2, ![1, 2048]⟩
abbrev S2048x1000 : Shape := ⟨2, ![2048, 1000]⟩
abbrev S8192x1000 : Shape := ⟨2, ![8192, 1000]⟩
abbrev S1x1000 : Shape := ⟨2, ![1, 1000]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S1000x2048, .f32⟩
  | .hbm, ⟨6, _⟩ => ⟨S1000, .f32⟩
  | .hbm, ⟨7, _⟩ => ⟨S_, .f32⟩
  | .hbm, ⟨8, _⟩ => ⟨S8192x1024, .f32⟩
  | .hbm, ⟨9, _⟩ => ⟨S8192x1024, .i1⟩
  | .hbm, ⟨10, _⟩ => ⟨S8192x1024, .f32⟩
  | .hbm, ⟨11, _⟩ => ⟨S1024x2048, .f32⟩
  | .hbm, ⟨12, _⟩ => ⟨S8192x2048, .f32⟩
  | .hbm, ⟨13, _⟩ => ⟨S1x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .i1⟩
  | .hbm, ⟨22, _⟩ => ⟨S8192x2048, .f32⟩
  | .hbm, ⟨23, _⟩ => ⟨S1024x2048, .f32⟩
  | .hbm, ⟨24, _⟩ => ⟨S2048x2048, .f32⟩
  | .hbm, ⟨25, _⟩ => ⟨S8192x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .i1⟩
  | .hbm, ⟨35, _⟩ => ⟨S8192x2048, .f32⟩
  | .hbm, ⟨36, _⟩ => ⟨S2048x2048, .f32⟩
  | .hbm, ⟨37, _⟩ => ⟨S2048x1000, .f32⟩
  | .hbm, ⟨38, _⟩ => ⟨S8192x1000, .f32⟩
  | .hbm, ⟨39, _⟩ => ⟨S1x1000, .f32⟩
  | .hbm, ⟨40, _⟩ => ⟨S8192x1000, .f32⟩
  | .hbm, ⟨41, _⟩ => ⟨S8192x1000, .f32⟩
  | .hbm, ⟨42, _⟩ => ⟨S_, .f32⟩
  | .hbm, ⟨43, _⟩ => ⟨S8192x1000, .f32⟩
  | .hbm, ⟨44, _⟩ => ⟨S8192x1000, .i1⟩
  | .hbm, ⟨45, _⟩ => ⟨S8192x1000, .f32⟩
  | .hbm, ⟨46, _⟩ => ⟨S2048x1000, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_cst : Ref sig .tc := ⟨.hbm, 16, rfl⟩
abbrev main_call0_v0 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call1_cst : Ref sig .tc := ⟨.hbm, 29, rfl⟩
abbrev main_call1_v0 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]

class Facts₀ : Prop where
  bcast_S_S8192x1024 : S_.BroadcastsInDim S8192x1024 (![] : Fin 0 → Fin S8192x1024.rank)
  transposes_S2048x1024_S1024x2048_1_0 : S2048x1024.Transposes [1, 0] S1024x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  transposes_S2048x2048_S2048x2048_1_0 : S2048x2048.Transposes [1, 0] S2048x2048
  transposes_S1000x2048_S2048x1000_1_0 : S1000x2048.Transposes [1, 0] S2048x1000
  bcast_S1000_S1x1000_1 : S1000.BroadcastsInDim S1x1000 (![1] : Fin 1 → Fin S1x1000.rank)
  bcast_S1x1000_S8192x1000_0_1 : S1x1000.BroadcastsInDim S8192x1000 (![0, 1] : Fin 2 → Fin S8192x1000.rank)
  bcast_S_S8192x1000 : S_.BroadcastsInDim S8192x1000 (![] : Fin 0 → Fin S8192x1000.rank)
  dot_S8192x1024_S1024x2048_S8192x2048_1_0_0_1_n_n_wf : DotDims.WF S8192x1024 S1024x2048 S8192x2048 [1] [0] [0] [1] [] []
  dot_S8192x1024_S8192x2048_S1024x2048_0_0_1_1_n_n_wf : DotDims.WF S8192x1024 S8192x2048 S1024x2048 [0] [0] [1] [1] [] []
  dot_S8192x2048_S2048x2048_S8192x2048_1_0_0_1_n_n_wf : DotDims.WF S8192x2048 S2048x2048 S8192x2048 [1] [0] [0] [1] [] []
  dot_S8192x2048_S8192x2048_S2048x2048_0_0_1_1_n_n_wf : DotDims.WF S8192x2048 S8192x2048 S2048x2048 [0] [0] [1] [1] [] []
  dot_S8192x2048_S2048x1000_S8192x1000_1_0_0_1_n_n_wf : DotDims.WF S8192x2048 S2048x1000 S8192x1000 [1] [0] [0] [1] [] []
  dot_S8192x2048_S8192x1000_S2048x1000_0_0_1_1_n_n_wf : DotDims.WF S8192x2048 S8192x1000 S2048x1000 [0] [0] [1] [1] [] []

variable [Facts₀]

def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def dot_S8192x1024_S8192x2048_S1024x2048_0_0_1_1_n_n : DotDims S8192x1024 S8192x2048 S1024x2048 where
  lhsContracting := [0]
  rhsContracting := [0]
  lhsNonContracting := [1]
  rhsNonContracting := [1]
  lhsBatch := []
  rhsBatch := []
  wf := dot_S8192x1024_S8192x2048_S1024x2048_0_0_1_1_n_n_wf
def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf
def dot_S8192x2048_S8192x2048_S2048x2048_0_0_1_1_n_n : DotDims S8192x2048 S8192x2048 S2048x2048 where
  lhsContracting := [0]
  rhsContracting := [0]
  lhsNonContracting := [1]
  rhsNonContracting := [1]
  lhsBatch := []
  rhsBatch := []
  wf := dot_S8192x2048_S8192x2048_S2048x2048_0_0_1_1_n_n_wf
def dot_S8192x2048_S2048x1000_S8192x1000_1_0_0_1_n_n : DotDims S8192x2048 S2048x1000 S8192x1000 where
  lhsContracting := [1]
  rhsContracting := [0]
  lhsNonContracting := [0]
  rhsNonContracting := [1]
  lhsBatch := []
  rhsBatch := []
  wf := dot_S8192x2048_S2048x1000_S8192x1000_1_0_0_1_n_n_wf
def dot_S8192x2048_S8192x1000_S2048x1000_0_0_1_1_n_n : DotDims S8192x2048 S8192x1000 S2048x1000 where
  lhsContracting := [0]
  rhsContracting := [0]
  lhsNonContracting := [1]
  rhsNonContracting := [1]
  lhsBatch := []
  rhsBatch := []
  wf := dot_S8192x2048_S8192x1000_S2048x1000_0_0_1_1_n_n_wf

class Facts : Prop extends Facts₀ where

variable [Facts]
-- ==== Proof.KRegion0.lean ====
/-
  Region 0 of the program: the forward pass on one block of 64 batch rows, at the buffer contents `V` the region is
  entered with.  A grid point `t` sees rows 64·t … 64·t+63 of the input, the three weight matrices and bias vectors whole,
  and leaves in its five output blocks the padded logits of those rows and the four 0/1 indicator blocks (of the input,
  of the two hidden pre-activations, of the logits below class 1000).  Each output block is one store of a pure function
  of the loaded blocks, so what the body leaves is that function of the point's input blocks; nothing is carried from
  one point to the next.
-/
import proofs.«114003_j36704790511729_2_alg».proof.Proof.Gen.Kernel.Launch
import proofs.«114003_j36704790511729_2_alg».proof.Proof.Gen.Kernel.Skeleton
import proofs.«114003_j36704790511729_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (an unfetched window's index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not (an unfetched window's index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not (an unfetched window's index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not (an unfetched window's index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not (an unfetched window's index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not (an unfetched window's index has not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, fetched there or not (an unfetched window's index has not moved). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX : Rect S64x1024 := Rect.unit (s := S64x1024) ![0, 0] S64x1024.size inb_S64x1024_S64x1024_0_0
abbrev rW1 : Rect S2048x1024 := Rect.unit (s := S2048x1024) ![0, 0] S2048x1024.size inb_S2048x1024_S2048x1024_0_0
abbrev rB : Rect S2048 := Rect.unit (s := S2048) ![0] S2048.size inb_S2048_S2048_0
abbrev rW2 : Rect S2048x2048 := Rect.unit (s := S2048x2048) ![0, 0] S2048x2048.size inb_S2048x2048_S2048x2048_0_0
abbrev rW3 : Rect S1024x2048 := Rect.unit (s := S1024x2048) ![0, 0] S1024x2048.size inb_S1024x2048_S1024x2048_0_0
abbrev rB3 : Rect S1024 := Rect.unit (s := S1024) ![0] S1024.size inb_S1024_S1024_0
abbrev rH : Rect S64x2048 := Rect.unit (s := S64x2048) ![0, 0] S64x2048.size inb_S64x2048_S64x2048_0_0

/-! ## What the body leaves in each output block, from the input blocks -/

/-- The second hidden layer's activations of the block's rows (the value the body passes from its first part to its second). -/
def hid0 (x0 : Vec F S64x1024 .f32) (x1 : Vec F S2048x1024 .f32) (x2 : Vec F S2048 .f32) (x3 : Vec F S2048x2048 .f32) (x4 : Vec F S2048 .f32) : FVec F S64x2048 .f32 :=
  k0_pay8 (View.ld x0 rX) (View.ld x1 rW1) (View.ld x2 rB) (View.ld x3 rW2) (View.ld x4 rB)
/-- The padded logits of the block's rows. -/
def out0_7 (x0 : Vec F S64x1024 .f32) (x1 : Vec F S2048x1024 .f32) (x2 : Vec F S2048 .f32) (x3 : Vec F S2048x2048 .f32) (x4 : Vec F S2048 .f32) (x5 : Vec F S1024x2048 .f32) (x6 : Vec F S1024 .f32) : Vec F S64x1024 .f32 :=
  View.canon [⟨rX, k0_pay1 (hid0 x0 x1 x2 x3 x4) (View.ld x5 rW3) (View.ld x6 rB3)⟩]
/-- The indicator of the input block. -/
def out0_8 (x0 : Vec F S64x1024 .f32) : Vec F S64x1024 .bf16 :=
  View.canon [⟨rX, k0_pay3 (View.ld x0 rX)⟩]
/-- The indicator of the first hidden pre-activation. -/
def out0_9 (x0 : Vec F S64x1024 .f32) (x1 : Vec F S2048x1024 .f32) (x2 : Vec F S2048 .f32) : Vec F S64x2048 .bf16 :=
  View.canon [⟨rH, k0_pay5 (View.ld x0 rX) (View.ld x1 rW1) (View.ld x2 rB)⟩]
/-- The indicator of the second hidden pre-activation. -/
def out0_10 (x0 : Vec F S64x1024 .f32) (x1 : Vec F S2048x1024 .f32) (x2 : Vec F S2048 .f32) (x3 : Vec F S2048x2048 .f32) (x4 : Vec F S2048 .f32) : Vec F S64x2048 .bf16 :=
  View.canon [⟨rH, k0_pay7 (View.ld x0 rX) (View.ld x1 rW1) (View.ld x2 rB) (View.ld x3 rW2) (View.ld x4 rB)⟩]
/-- The indicator of the logits, masked to the real classes. -/
def out0_11 (x0 : Vec F S64x1024 .f32) (x1 : Vec F S2048x1024 .f32) (x2 : Vec F S2048 .f32) (x3 : Vec F S2048x2048 .f32) (x4 : Vec F S2048 .f32) (x5 : Vec F S1024x2048 .f32) (x6 : Vec F S1024 .f32) : Vec F S64x1024 .bf16 :=
  View.canon [⟨rX, k0_pay2 (hid0 x0 x1 x2 x3 x4) (View.ld x5 rW3) (View.ld x6 rB3)⟩]

/-- One whole-buffer store covers the buffer. -/
theorem coverX {φ : EltTy} (p0 : Vec F S64x1024 φ) (y : S64x1024.Idx) :
    ∃ pc ∈ ([⟨rX, p0⟩] : List (View.Piece (Elt F) S64x1024 φ)), y ∈ pc.1.set :=
  View.cover_of_tiled [⟨rX, p0⟩] S64x1024.size (by rfl) y
theorem coverH {φ : EltTy} (p0 : Vec F S64x2048 φ) (y : S64x2048.Idx) :
    ∃ pc ∈ ([⟨rH, p0⟩] : List (View.Piece (Elt F) S64x2048 φ)), y ∈ pc.1.set :=
  View.cover_of_tiled [⟨rH, p0⟩] S64x2048.size (by rfl) y

/-! ## The body's triple -/

set_option maxHeartbeats 4000000 in
/-- On whole staging buffers, the inputs' at contents `x·` and the outputs' at anything, the body runs to a state
    holding the inputs' as they were and each output's at its function of the inputs'. -/
theorem sound_kernel0 (c : Dev nD) (E : Set ℕ) (i : grid0.Coords) (arg1 : Memref sig .tc .vmem S64x1024 .f32) (harg1 : arg1.IsWhole) (arg2 : Memref sig .tc .vmem S2048x1024 .f32) (harg2 : arg2.IsWhole) (arg3 : Memref sig .tc .vmem S2048 .f32) (harg3 : arg3.IsWhole) (arg4 : Memref sig .tc .vmem S2048x2048 .f32) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024 .f32) (harg7 : arg7.IsWhole) (arg8 : Memref sig .tc .vmem S64x1024 .f32) (harg8 : arg8.IsWhole) (arg9 : Memref sig .tc .vmem S64x1024 .bf16) (harg9 : arg9.IsWhole) (arg10 : Memref sig .tc .vmem S64x2048 .bf16) (harg10 : arg10.IsWhole) (arg11 : Memref sig .tc .vmem S64x2048 .bf16) (harg11 : arg11.IsWhole) (arg12 : Memref sig .tc .vmem S64x1024 .bf16) (harg12 : arg12.IsWhole)
    (x0 : Vec F S64x1024 .f32) (x1 : Vec F S2048x1024 .f32) (x2 : Vec F S2048 .f32) (x3 : Vec F S2048x2048 .f32) (x4 : Vec F S2048 .f32) (x5 : Vec F S1024x2048 .f32) (x6 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x2 x3 x4 x5 x6) ∗ owns (c : Thread nD τ) arg9 fullShare (out0_8 x0) ∗ owns (c : Thread nD τ) arg10 fullShare (out0_9 x0 x1 x2) ∗ owns (c : Thread nD τ) arg11 fullShare (out0_10 x0 x1 x2 x3 x4) ∗ owns (c : Thread nD τ) arg12 fullShare (out0_11 x0 x1 x2 x3 x4 x5 x6)) -∗ K ⟨⟩))
      ⊢ wp frame (wpE (defs₀ (F := F)) Variants.none c none) E (cc0__forward_kernel i arg1 harg1 arg2 harg2 arg3 harg3 arg4 harg4 arg5 harg5 arg6 harg6 arg7 harg7 arg8 harg8 arg9 harg9 arg10 harg10 arg11 harg11 arg12 harg12) K := by
  simp only [cc0__forward_kernel_eq_skeleton]; unfold cc0__forward_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro; exact View.read_writes_eq_canon _ _ _ (coverX _)
  isplitl [H8]
  · iexists _; isplitr
    swap; · iexact H8
    ipureintro; exact View.read_writes_eq_canon _ _ _ (coverX _)
  isplitl [H9]
  · iexists _; isplitr
    swap; · iexact H9
    ipureintro; exact View.read_writes_eq_canon _ _ _ (coverH _)
  isplitl [H10]
  · iexists _; isplitr
    swap; · iexact H10
    ipureintro; exact View.read_writes_eq_canon _ _ _ (coverH _)
  iexists _; isplitr
  swap; · iexact H11
  ipureintro; exact View.read_writes_eq_canon _ _ _ (coverX _)

/-! ## The pipeline's proof data -/

/-- Pipeline 0's proof data on core `c`: the arrays as the region finds them; after the body at point `t` each
    input's buffer at its block and each output's at its function of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t)
    | ⟨9, _⟩ => out0_9 (iblk0 V c 0 t) (iblk0 V c 1 t) (iblk0 V c 2 t)
    | ⟨10, _⟩ => out0_10 (iblk0 V c 0 t) (iblk0 V c 1 t) (iblk0 V c 2 t) (iblk0 V c 3 t) (iblk0 V c 4 t)
    | ⟨11, _⟩ => out0_11 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) := by dsimp only [dat0]
theorem after0_9 (c : Dev nD) (t : Fin cfg0.N) : (dat0 V c).after 9 t = out0_9 (iblk0 V c 0 t) (iblk0 V c 1 t) (iblk0 V c 2 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 4000000 in
/-- The body at any point: the inputs' buffers hold their blocks, so the triple applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.KRun1.lean ====
/-
  Region 1 of the program: one co-activation product, at the buffer contents `V` the region is entered with.  The grid
  is (row blocks of the result) × (column blocks of the result) × (4 blocks of 2048 batch rows), the batch axis innermost.
  A scratch tile of 1024×1024 is carried between grid points: at a batch block 0 it is reset to zero and the block's
  product AᵀB added; at blocks 1, 2 the product is added to what the point before left; at block 3 the product is added
  and the tile copied into the output block, which is written back at those points only (elsewhere the output window is
  idle).  So the body has three control cases, and the invariant between points names the tile's contents.
-/
import proofs.«114003_j36704790511729_2_alg».proof.Proof.Gen.Kernel.Launch
import proofs.«114003_j36704790511729_2_alg».proof.Proof.Gen.Kernel.Skeleton
import proofs.«114003_j36704790511729_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- "This is the first batch block": the body's first `scf.if`, from the grid coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "This is the last batch block": the body's second `scf.if`. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
/-- Away from the last batch block the output window is idle and not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last batch block it is live. -/
theorem liveAt1_2 : ∀ t : Fin cfg1.N, cond1_1 (grid1.coords t) → cfg1.idle 2 (grid1.coords t) = false := by decide +kernel

/-! ## The staging and scratch memrefs -/

abbrev VO1 : View sig .tc .vmem S1024x1024 .f32 := (Memref.whole cc1_stg2_0 : Memref sig .tc .vmem S1024x1024 .f32).view
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
/-- The accumulator tile: a whole scoped buffer of the kernel's own. -/
abbrev scM1 : Memref sig .tc .vmem S1024x1024 .f32 := Memref.whole cc1_scratch0
abbrev VS1 : View sig .tc .vmem S1024x1024 .f32 := (scM1).view

/-- The class invariant with the accumulator tile as a memref owned at some contents, the other scoped buffers unopened. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The body's triple, case by case; the pieces each buffer ends with are found by the run -/

set_option maxHeartbeats 4000000 in
/-- First batch block: the tile at anything is reset and the block's product added; the idle output is handed back. -/
noncomputable def kernelRun1_A (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S2048x1024 .bf16) (x1 : Vec F S2048x1024 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__coact_kernel i arg3 harg3 arg4 harg4 arg5 harg5 arg6 harg6) K } := by
  refine ⟨[], ?_, fun xi2 E K => ?run⟩
  case run =>
    simp only [cc1__coact_kernel_eq_skeleton]; unfold cc1__coact_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 4000000 in
/-- A middle batch block: the block's product is added to the tile as the point before left it. -/
noncomputable def kernelRun1_B (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S2048x1024 .bf16) (x1 : Vec F S2048x1024 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__coact_kernel i arg3 harg3 arg4 harg4 arg5 harg5 arg6 harg6) K } := by
  refine ⟨[], ?_, fun xi2 E K => ?run⟩
  case run =>
    simp only [cc1__coact_kernel_eq_skeleton]; unfold cc1__coact_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 4000000 in
/-- The last batch block: the product is added and the tile copied into the output block. -/
noncomputable def kernelRun1_C (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S2048x1024 .bf16) (x1 : Vec F S2048x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__coact_kernel i arg3 harg3 arg4 harg4 arg5 harg5 arg6 harg6) K } := by
  refine ⟨?_, ?_, fun E K => ?run⟩
  case run =>
    simp only [cc1__coact_kernel_eq_skeleton]; unfold cc1__coact_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Gen

end
-- ==== Proof.KFrame1.lean ====
/-
  Region 1, continued: what each control case leaves in the output block and in the accumulator tile (read off the
  pieces the case's run ends with), the tile's contents after every grid point by recursion on the point, the invariant
  between points (the tile at those contents, the other scoped buffers and the generator register untouched), the proof
  data of the pipeline and the body obligation at every point.
-/
import proofs.«114003_j36704790511729_2_alg».proof.Proof.KRun1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- First batch block: nothing is stored into the output block (a placeholder nothing consults). -/
def out1_A_2 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S2048x1024 .bf16) (x1 : Vec F S2048x1024 .bf16) : Vec F S1024x1024 .f32 :=
  VO1.read (Elt F) (VO1.writes (Elt F) VO1.junk (kernelRun1_A c i arg3 harg3 arg4 harg4 arg5 harg5 arg6 harg6 hc0 hc1 x0 x1).1)
theorem scover1_A (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S2048x1024 .bf16) (x1 : Vec F S2048x1024 .bf16) (y : S1024x1024.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1024x1024.size (by sl_kernel_rfl) y
/-- The tile after a first batch block. -/
def sout1_A (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S2048x1024 .bf16) (x1 : Vec F S2048x1024 .bf16) : Vec F S1024x1024 .f32 :=
  VS1.read (Elt F) (VS1.writes (Elt F) VS1.junk (kernelRun1_A c i arg3 harg3 arg4 harg4 arg5 harg5 arg6 harg6 hc0 hc1 x0 x1).2.1)

def out1_B_2 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S2048x1024 .bf16) (x1 : Vec F S2048x1024 .bf16) (xs0 : Vec F S1024x1024 .f32) : Vec F S1024x1024 .f32 :=
  VO1.read (Elt F) (VO1.writes (Elt F) VO1.junk (kernelRun1_B c i arg3 harg3 arg4 harg4 arg5 harg5 arg6 harg6 hc0 hc1 x0 x1 xs0).1)
theorem scover1_B (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S2048x1024 .bf16) (x1 : Vec F S2048x1024 .bf16) (xs0 : Vec F S1024x1024 .f32) (y : S1024x1024.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1024x1024.size (by sl_kernel_rfl) y
/-- The tile after a middle batch block, from the tile before it. -/
def sout1_B (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S2048x1024 .bf16) (x1 : Vec F S2048x1024 .bf16) (xs0 : Vec F S1024x1024 .f32) : Vec F S1024x1024 .f32 :=
  VS1.read (Elt F) (VS1.writes (Elt F) VS1.junk (kernelRun1_B c i arg3 harg3 arg4 harg4 arg5 harg5 arg6 harg6 hc0 hc1 x0 x1 xs0).2.1)

theorem cover1_C_2 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S2048x1024 .bf16) (x1 : Vec F S2048x1024 .bf16) (xs0 : Vec F S1024x1024 .f32) (y : S1024x1024.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1024x1024.size (by sl_kernel_rfl) y
/-- The output block after the last batch block. -/
def out1_C_2 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S2048x1024 .bf16) (x1 : Vec F S2048x1024 .bf16) (xs0 : Vec F S1024x1024 .f32) : Vec F S1024x1024 .f32 :=
  VO1.read (Elt F) (VO1.writes (Elt F) VO1.junk (kernelRun1_C c i arg3 harg3 arg4 harg4 arg5 harg5 arg6 harg6 hc0 hc1 x0 x1 xs0).1)
theorem scover1_C (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S2048x1024 .bf16) (x1 : Vec F S2048x1024 .bf16) (xs0 : Vec F S1024x1024 .f32) (y : S1024x1024.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S1024x1024.size (by sl_kernel_rfl) y
/-- The tile after the last batch block. -/
def sout1_C (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S2048x1024 .bf16) (x1 : Vec F S2048x1024 .bf16) (xs0 : Vec F S1024x1024 .f32) : Vec F S1024x1024 .f32 :=
  VS1.read (Elt F) (VS1.writes (Elt F) VS1.junk (kernelRun1_C c i arg3 harg3 arg4 harg4 arg5 harg5 arg6 harg6 hc0 hc1 x0 x1 xs0).2.1)

/-! ## The accumulation over the grid points -/

/-- What the output block and the tile hold after the body at position `n`: the case the position's batch block selects,
    run on the point's input blocks, the tile taken from what the position before left. -/
def outsAt1 (c : Dev nD) : (n : ℕ) → n < cfg1.N → Vec F S1024x1024 .f32 × Vec F S1024x1024 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t), sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point every scoped buffer at anything; afterwards the tile at what
    the point before left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the position's batch block selects the case; the invariant hands the body the tile at what the
    point before left (at anything at the first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 8 := lt_of_lt_of_eq t.isLt (show cfg1.N = 8 from N_1)
  by_cases h0 : t.val % 4 = 0
  · by_cases h1 : t.val % 4 = 3
    · exfalso; omega
    · rw [Dat.leavesExact_idle (dat1 V c) 2 t (idleAt1_2 t (fun h => h1 ((hcond1_1 t).mp h))) (noFlush1_2 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A c _ _ _ _ _ _ _ _ _ _ _ _ _)
            iexact HR
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A c _ _ _ _ _ _ _ _ _ _ _ _ _)
            iexact HR
          iexact Hg
        isplitl [Ho]; · iexact Ho
        isplitl [H0]; · iexact H0
        isplitl [H1]; · iexact H1
        iexists _; iexact H2
  · have hz : t.val ≠ 0 := fun e => h0 (by rw [e])
    by_cases h1 : t.val % 4 = 3
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C; (try dsimp only)
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the tile's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 8 := N_1; omega), PhiA1_eq]
  iintro ⟨⟨HS0, HR⟩, Hg⟩
  isplitl [HS0 HR]
  · isplitl [HS0]
    · iexists _; iexact HS0
    iexact HR
  iexact Hg

end Cert.Kernel.Gen

end
-- ==== Proof.KRun2.lean ====
/-
  Region 2 of the program: one co-activation product, at the buffer contents `V` the region is entered with.  The grid
  is (row blocks of the result) × (column blocks of the result) × (4 blocks of 2048 batch rows), the batch axis innermost.
  A scratch tile of 1024×1024 is carried between grid points: at a batch block 0 it is reset to zero and the block's
  product AᵀB added; at blocks 1, 2 the product is added to what the point before left; at block 3 the product is added
  and the tile copied into the output block, which is written back at those points only (elsewhere the output window is
  idle).  So the body has three control cases, and the invariant between points names the tile's contents.
-/
import proofs.«114003_j36704790511729_2_alg».proof.Proof.Gen.Kernel.Launch
import proofs.«114003_j36704790511729_2_alg».proof.Proof.Gen.Kernel.Skeleton
import proofs.«114003_j36704790511729_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, decided over the grid -/

/-- "This is the first batch block": the body's first `scf.if`, from the grid coordinates. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- "This is the last batch block": the body's second `scf.if`. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
/-- Away from the last batch block the output window is idle and not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- At the last batch block it is live. -/
theorem liveAt2_2 : ∀ t : Fin cfg2.N, cond2_1 (grid2.coords t) → cfg2.idle 2 (grid2.coords t) = false := by decide +kernel

/-! ## The staging and scratch memrefs -/

abbrev VO2 : View sig .tc .vmem S1024x1024 .f32 := (Memref.whole cc2_stg2_0 : Memref sig .tc .vmem S1024x1024 .f32).view
abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1024 .f32 := win2_2.stage (cfg2.slots t 2)
abbrev hs2_2 (t : Fin cfg2.N) : (ms2_2 t).IsWhole := hstage2_2 ((cfg2.slots t 2).cast nbuf2_2)
/-- The accumulator tile: a whole scoped buffer of the kernel's own. -/
abbrev scM2 : Memref sig .tc .vmem S1024x1024 .f32 := Memref.whole cc2_scratch0
abbrev VS2 : View sig .tc .vmem S1024x1024 .f32 := (scM2).view

/-- The class invariant with the accumulator tile as a memref owned at some contents, the other scoped buffers unopened. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-! ## The body's triple, case by case; the pieces each buffer ends with are found by the run -/

set_option maxHeartbeats 4000000 in
/-- First batch block: the tile at anything is reset and the block's product added; the idle output is handed back. -/
noncomputable def kernelRun2_A (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond2_0 i) (hc1 : ¬cond2_1 i)
    (x0 : Vec F S2048x1024 .bf16) (x1 : Vec F S2048x1024 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__coact_kernel i arg3 harg3 arg4 harg4 arg5 harg5 arg6 harg6) K } := by
  refine ⟨[], ?_, fun xi2 E K => ?run⟩
  case run =>
    simp only [cc2__coact_kernel_eq_skeleton]; unfold cc2__coact_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 4000000 in
/-- A middle batch block: the block's product is added to the tile as the point before left it. -/
noncomputable def kernelRun2_B (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : ¬cond2_1 i)
    (x0 : Vec F S2048x1024 .bf16) (x1 : Vec F S2048x1024 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__coact_kernel i arg3 harg3 arg4 harg4 arg5 harg5 arg6 harg6) K } := by
  refine ⟨[], ?_, fun xi2 E K => ?run⟩
  case run =>
    simp only [cc2__coact_kernel_eq_skeleton]; unfold cc2__coact_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 4000000 in
/-- The last batch block: the product is added and the tile copied into the output block. -/
noncomputable def kernelRun2_C (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 : Vec F S2048x1024 .bf16) (x1 : Vec F S2048x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc2__coact_kernel i arg3 harg3 arg4 harg4 arg5 harg5 arg6 harg6) K } := by
  refine ⟨?_, ?_, fun E K => ?run⟩
  case run =>
    simp only [cc2__coact_kernel_eq_skeleton]; unfold cc2__coact_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Gen

end
-- ==== Proof.KFrame2.lean ====
/-
  Region 2, continued: what each control case leaves in the output block and in the accumulator tile (read off the
  pieces the case's run ends with), the tile's contents after every grid point by recursion on the point, the invariant
  between points (the tile at those contents, the other scoped buffers and the generator register untouched), the proof
  data of the pipeline and the body obligation at every point.
-/
import proofs.«114003_j36704790511729_2_alg».proof.Proof.KRun2

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- First batch block: nothing is stored into the output block (a placeholder nothing consults). -/
def out2_A_2 (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond2_0 i) (hc1 : ¬cond2_1 i)
    (x0 : Vec F S2048x1024 .bf16) (x1 : Vec F S2048x1024 .bf16) : Vec F S1024x1024 .f32 :=
  VO2.read (Elt F) (VO2.writes (Elt F) VO2.junk (kernelRun2_A c i arg3 harg3 arg4 harg4 arg5 harg5 arg6 harg6 hc0 hc1 x0 x1).1)
theorem scover2_A (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond2_0 i) (hc1 : ¬cond2_1 i)
    (x0 : Vec F S2048x1024 .bf16) (x1 : Vec F S2048x1024 .bf16) (y : S1024x1024.Idx) :
    ∃ pc ∈ (kernelRun2_A c i arg3 harg3 arg4 harg4 arg5 harg5 arg6 harg6 hc0 hc1 x0 x1).2.1, y ∈ pc.1.set :=
  View.cover_of_tiledL (kernelRun2_A c i arg3 harg3 arg4 harg4 arg5 harg5 arg6 harg6 hc0 hc1 x0 x1).2.1 S1024x1024.size (by sl_kernel_rfl) y
/-- The tile after a first batch block. -/
def sout2_A (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond2_0 i) (hc1 : ¬cond2_1 i)
    (x0 : Vec F S2048x1024 .bf16) (x1 : Vec F S2048x1024 .bf16) : Vec F S1024x1024 .f32 :=
  VS2.read (Elt F) (VS2.writes (Elt F) VS2.junk (kernelRun2_A c i arg3 harg3 arg4 harg4 arg5 harg5 arg6 harg6 hc0 hc1 x0 x1).2.1)

def out2_B_2 (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : ¬cond2_1 i)
    (x0 : Vec F S2048x1024 .bf16) (x1 : Vec F S2048x1024 .bf16) (xs0 : Vec F S1024x1024 .f32) : Vec F S1024x1024 .f32 :=
  VO2.read (Elt F) (VO2.writes (Elt F) VO2.junk (kernelRun2_B c i arg3 harg3 arg4 harg4 arg5 harg5 arg6 harg6 hc0 hc1 x0 x1 xs0).1)
theorem scover2_B (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : ¬cond2_1 i)
    (x0 : Vec F S2048x1024 .bf16) (x1 : Vec F S2048x1024 .bf16) (xs0 : Vec F S1024x1024 .f32) (y : S1024x1024.Idx) :
    ∃ pc ∈ (kernelRun2_B c i arg3 harg3 arg4 harg4 arg5 harg5 arg6 harg6 hc0 hc1 x0 x1 xs0).2.1, y ∈ pc.1.set :=
  View.cover_of_tiledL (kernelRun2_B c i arg3 harg3 arg4 harg4 arg5 harg5 arg6 harg6 hc0 hc1 x0 x1 xs0).2.1 S1024x1024.size (by sl_kernel_rfl) y
/-- The tile after a middle batch block, from the tile before it. -/
def sout2_B (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : ¬cond2_1 i)
    (x0 : Vec F S2048x1024 .bf16) (x1 : Vec F S2048x1024 .bf16) (xs0 : Vec F S1024x1024 .f32) : Vec F S1024x1024 .f32 :=
  VS2.read (Elt F) (VS2.writes (Elt F) VS2.junk (kernelRun2_B c i arg3 harg3 arg4 harg4 arg5 harg5 arg6 harg6 hc0 hc1 x0 x1 xs0).2.1)

theorem cover2_C_2 (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 : Vec F S2048x1024 .bf16) (x1 : Vec F S2048x1024 .bf16) (xs0 : Vec F S1024x1024 .f32) (y : S1024x1024.Idx) :
    ∃ pc ∈ (kernelRun2_C c i arg3 harg3 arg4 harg4 arg5 harg5 arg6 harg6 hc0 hc1 x0 x1 xs0).1, y ∈ pc.1.set :=
  View.cover_of_tiledL (kernelRun2_C c i arg3 harg3 arg4 harg4 arg5 harg5 arg6 harg6 hc0 hc1 x0 x1 xs0).1 S1024x1024.size (by sl_kernel_rfl) y
/-- The output block after the last batch block. -/
def out2_C_2 (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 : Vec F S2048x1024 .bf16) (x1 : Vec F S2048x1024 .bf16) (xs0 : Vec F S1024x1024 .f32) : Vec F S1024x1024 .f32 :=
  VO2.read (Elt F) (VO2.writes (Elt F) VO2.junk (kernelRun2_C c i arg3 harg3 arg4 harg4 arg5 harg5 arg6 harg6 hc0 hc1 x0 x1 xs0).1)
theorem scover2_C (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 : Vec F S2048x1024 .bf16) (x1 : Vec F S2048x1024 .bf16) (xs0 : Vec F S1024x1024 .f32) (y : S1024x1024.Idx) :
    ∃ pc ∈ (kernelRun2_C c i arg3 harg3 arg4 harg4 arg5 harg5 arg6 harg6 hc0 hc1 x0 x1 xs0).2.1, y ∈ pc.1.set :=
  View.cover_of_tiledL (kernelRun2_C c i arg3 harg3 arg4 harg4 arg5 harg5 arg6 harg6 hc0 hc1 x0 x1 xs0).2.1 S1024x1024.size (by sl_kernel_rfl) y
/-- The tile after the last batch block. -/
def sout2_C (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 : Vec F S2048x1024 .bf16) (x1 : Vec F S2048x1024 .bf16) (xs0 : Vec F S1024x1024 .f32) : Vec F S1024x1024 .f32 :=
  VS2.read (Elt F) (VS2.writes (Elt F) VS2.junk (kernelRun2_C c i arg3 harg3 arg4 harg4 arg5 harg5 arg6 harg6 hc0 hc1 x0 x1 xs0).2.1)

/-! ## The accumulation over the grid points -/

/-- What the output block and the tile hold after the body at position `n`: the case the position's batch block selects,
    run on the point's input blocks, the tile taken from what the position before left. -/
def outsAt2 (c : Dev nD) : (n : ℕ) → n < cfg2.N → Vec F S1024x1024 .f32 × Vec F S1024x1024 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 4 = 0 then
      if h1 : (n + 1) % 4 = 3 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 4 = 3 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (out2_A_2 c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t), sout2_A c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_B_2 c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_2 c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point every scoped buffer at anything; afterwards the tile at what
    the point before left, the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the position's batch block selects the case; the invariant hands the body the tile at what the
    point before left (at anything at the first point) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 16 := lt_of_lt_of_eq t.isLt (show cfg2.N = 16 from N_2)
  by_cases h0 : t.val % 4 = 0
  · by_cases h1 : t.val % 4 = 3
    · exfalso; omega
    · rw [Dat.leavesExact_idle (dat2 V c) 2 t (idleAt2_2 t (fun h => h1 ((hcond2_1 t).mp h))) (noFlush2_2 t (fun h => h1 ((hcond2_1 t).mp h)))]
      rw [outsAt2_A V c t h0 h1]
      unfold sout2_A; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A c _ _ _ _ _ _ _ _ _ _ _ _ _)
            iexact HR
          iexact Hg
        isplitl [Ho]; · iexact Ho
        isplitl [H0]; · iexact H0
        isplitl [H1]; · iexact H1
        iexists _; iexact H2
      · rw [PhiS2_castSucc V c t, PhiS2_pos V c _ _ hz]
        iintro ⟨⟨⟨HS0, HR⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A c _ _ _ _ _ _ _ _ _ _ _ _ _)
            iexact HR
          iexact Hg
        isplitl [Ho]; · iexact Ho
        isplitl [H0]; · iexact H0
        isplitl [H1]; · iexact H1
        iexists _; iexact H2
  · have hz : t.val ≠ 0 := fun e => h0 (by rw [e])
    by_cases h1 : t.val % 4 = 3
    · rw [show (dat2 V c).leavesExact 2 t = owns (c : Thread nD τ) (ms2_2 t) fullShare ((dat2 V c).after 2 t) from by
        unfold Dat.leavesExact; rw [liveAt2_2 t ((hcond2_1 t).mpr h1)], after2_2]
      rw [outsAt2_C V c t h0 h1]
      unfold out2_C_2 sout2_C; (try dsimp only)
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _)
    · rw [Dat.leavesExact_idle (dat2 V c) 2 t (idleAt2_2 t (fun h => h1 ((hcond2_1 t).mp h))) (noFlush2_2 t (fun h => h1 ((hcond2_1 t).mp h)))]
      rw [outsAt2_B V c t h0 h1]
      unfold sout2_B; (try dsimp only)
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the tile's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 16 := N_2; omega), PhiA2_eq]
  iintro ⟨⟨HS0, HR⟩, Hg⟩
  isplitl [HS0 HR]
  · isplitl [HS0]
    · iexists _; iexact HS0
    iexact HR
  iexact Hg

end Cert.Kernel.Gen

end
-- ==== Proof.KRun3.lean ====
/-
  Region 3 of the program: one co-activation product, at the buffer contents `V` the region is entered with.  The grid
  is (row blocks of the result) × (column blocks of the result) × (4 blocks of 2048 batch rows), the batch axis innermost.
  A scratch tile of 1024×1024 is carried between grid points: at a batch block 0 it is reset to zero and the block's
  product AᵀB added; at blocks 1, 2 the product is added to what the point before left; at block 3 the product is added
  and the tile copied into the output block, which is written back at those points only (elsewhere the output window is
  idle).  So the body has three control cases, and the invariant between points names the tile's contents.
-/
import proofs.«114003_j36704790511729_2_alg».proof.Proof.Gen.Kernel.Launch
import proofs.«114003_j36704790511729_2_alg».proof.Proof.Gen.Kernel.Skeleton
import proofs.«114003_j36704790511729_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branch conditions, decided over the grid -/

/-- "This is the first batch block": the body's first `scf.if`, from the grid coordinates. -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)
/-- "This is the last batch block": the body's second `scf.if`. -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

theorem liveAt3_0 : ∀ t : Fin cfg3.N, cfg3.idle 0 (grid3.coords t) = false := fun _ => rfl
theorem liveAt3_1 : ∀ t : Fin cfg3.N, cfg3.idle 1 (grid3.coords t) = false := fun _ => rfl
/-- Away from the last batch block the output window is idle and not written back. -/
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
/-- At the last batch block it is live. -/
theorem liveAt3_2 : ∀ t : Fin cfg3.N, cond3_1 (grid3.coords t) → cfg3.idle 2 (grid3.coords t) = false := by decide +kernel

/-! ## The staging and scratch memrefs -/

abbrev VO3 : View sig .tc .vmem S1024x1024 .f32 := (Memref.whole cc3_stg2_0 : Memref sig .tc .vmem S1024x1024 .f32).view
abbrev ms3_0 (t : Fin cfg3.N) : Memref sig .tc .vmem S2048x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x1024 .f32 := win3_2.stage (cfg3.slots t 2)
abbrev hs3_2 (t : Fin cfg3.N) : (ms3_2 t).IsWhole := hstage3_2 ((cfg3.slots t 2).cast nbuf3_2)
/-- The accumulator tile: a whole scoped buffer of the kernel's own. -/
abbrev scM3 : Memref sig .tc .vmem S1024x1024 .f32 := Memref.whole cc3_scratch0
abbrev VS3 : View sig .tc .vmem S1024x1024 .f32 := (scM3).view

/-- The class invariant with the accumulator tile as a memref owned at some contents, the other scoped buffers unopened. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-! ## The body's triple, case by case; the pieces each buffer ends with are found by the run -/

set_option maxHeartbeats 4000000 in
/-- First batch block: the tile at anything is reset and the block's product added; the idle output is handed back. -/
noncomputable def kernelRun3_A (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (hc1 : ¬cond3_1 i)
    (x0 : Vec F S2048x1024 .bf16) (x1 : Vec F S2048x1024 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc3__coact_kernel i arg3 harg3 arg4 harg4 arg5 harg5 arg6 harg6) K } := by
  refine ⟨[], ?_, fun xi2 E K => ?run⟩
  case run =>
    simp only [cc3__coact_kernel_eq_skeleton]; unfold cc3__coact_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 4000000 in
/-- A middle batch block: the block's product is added to the tile as the point before left it. -/
noncomputable def kernelRun3_B (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : ¬cond3_1 i)
    (x0 : Vec F S2048x1024 .bf16) (x1 : Vec F S2048x1024 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc3__coact_kernel i arg3 harg3 arg4 harg4 arg5 harg5 arg6 harg6) K } := by
  refine ⟨[], ?_, fun xi2 E K => ?run⟩
  case run =>
    simp only [cc3__coact_kernel_eq_skeleton]; unfold cc3__coact_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 4000000 in
/-- The last batch block: the product is added and the tile copied into the output block. -/
noncomputable def kernelRun3_C (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S2048x1024 .bf16) (x1 : Vec F S2048x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc3__coact_kernel i arg3 harg3 arg4 harg4 arg5 harg5 arg6 harg6) K } := by
  refine ⟨?_, ?_, fun E K => ?run⟩
  case run =>
    simp only [cc3__coact_kernel_eq_skeleton]; unfold cc3__coact_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Gen

end
-- ==== Proof.KFrame3.lean ====
/-
  Region 3, continued: what each control case leaves in the output block and in the accumulator tile (read off the
  pieces the case's run ends with), the tile's contents after every grid point by recursion on the point, the invariant
  between points (the tile at those contents, the other scoped buffers and the generator register untouched), the proof
  data of the pipeline and the body obligation at every point.
-/
import proofs.«114003_j36704790511729_2_alg».proof.Proof.KRun3

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- First batch block: nothing is stored into the output block (a placeholder nothing consults). -/
def out3_A_2 (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (hc1 : ¬cond3_1 i)
    (x0 : Vec F S2048x1024 .bf16) (x1 : Vec F S2048x1024 .bf16) : Vec F S1024x1024 .f32 :=
  VO3.read (Elt F) (VO3.writes (Elt F) VO3.junk (kernelRun3_A c i arg3 harg3 arg4 harg4 arg5 harg5 arg6 harg6 hc0 hc1 x0 x1).1)
theorem scover3_A (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (hc1 : ¬cond3_1 i)
    (x0 : Vec F S2048x1024 .bf16) (x1 : Vec F S2048x1024 .bf16) (y : S1024x1024.Idx) :
    ∃ pc ∈ (kernelRun3_A c i arg3 harg3 arg4 harg4 arg5 harg5 arg6 harg6 hc0 hc1 x0 x1).2.1, y ∈ pc.1.set :=
  View.cover_of_tiledL (kernelRun3_A c i arg3 harg3 arg4 harg4 arg5 harg5 arg6 harg6 hc0 hc1 x0 x1).2.1 S1024x1024.size (by sl_kernel_rfl) y
/-- The tile after a first batch block. -/
def sout3_A (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (hc1 : ¬cond3_1 i)
    (x0 : Vec F S2048x1024 .bf16) (x1 : Vec F S2048x1024 .bf16) : Vec F S1024x1024 .f32 :=
  VS3.read (Elt F) (VS3.writes (Elt F) VS3.junk (kernelRun3_A c i arg3 harg3 arg4 harg4 arg5 harg5 arg6 harg6 hc0 hc1 x0 x1).2.1)

def out3_B_2 (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : ¬cond3_1 i)
    (x0 : Vec F S2048x1024 .bf16) (x1 : Vec F S2048x1024 .bf16) (xs0 : Vec F S1024x1024 .f32) : Vec F S1024x1024 .f32 :=
  VO3.read (Elt F) (VO3.writes (Elt F) VO3.junk (kernelRun3_B c i arg3 harg3 arg4 harg4 arg5 harg5 arg6 harg6 hc0 hc1 x0 x1 xs0).1)
theorem scover3_B (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : ¬cond3_1 i)
    (x0 : Vec F S2048x1024 .bf16) (x1 : Vec F S2048x1024 .bf16) (xs0 : Vec F S1024x1024 .f32) (y : S1024x1024.Idx) :
    ∃ pc ∈ (kernelRun3_B c i arg3 harg3 arg4 harg4 arg5 harg5 arg6 harg6 hc0 hc1 x0 x1 xs0).2.1, y ∈ pc.1.set :=
  View.cover_of_tiledL (kernelRun3_B c i arg3 harg3 arg4 harg4 arg5 harg5 arg6 harg6 hc0 hc1 x0 x1 xs0).2.1 S1024x1024.size (by sl_kernel_rfl) y
/-- The tile after a middle batch block, from the tile before it. -/
def sout3_B (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : ¬cond3_1 i)
    (x0 : Vec F S2048x1024 .bf16) (x1 : Vec F S2048x1024 .bf16) (xs0 : Vec F S1024x1024 .f32) : Vec F S1024x1024 .f32 :=
  VS3.read (Elt F) (VS3.writes (Elt F) VS3.junk (kernelRun3_B c i arg3 harg3 arg4 harg4 arg5 harg5 arg6 harg6 hc0 hc1 x0 x1 xs0).2.1)

theorem cover3_C_2 (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S2048x1024 .bf16) (x1 : Vec F S2048x1024 .bf16) (xs0 : Vec F S1024x1024 .f32) (y : S1024x1024.Idx) :
    ∃ pc ∈ (kernelRun3_C c i arg3 harg3 arg4 harg4 arg5 harg5 arg6 harg6 hc0 hc1 x0 x1 xs0).1, y ∈ pc.1.set :=
  View.cover_of_tiledL (kernelRun3_C c i arg3 harg3 arg4 harg4 arg5 harg5 arg6 harg6 hc0 hc1 x0 x1 xs0).1 S1024x1024.size (by sl_kernel_rfl) y
/-- The output block after the last batch block. -/
def out3_C_2 (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S2048x1024 .bf16) (x1 : Vec F S2048x1024 .bf16) (xs0 : Vec F S1024x1024 .f32) : Vec F S1024x1024 .f32 :=
  VO3.read (Elt F) (VO3.writes (Elt F) VO3.junk (kernelRun3_C c i arg3 harg3 arg4 harg4 arg5 harg5 arg6 harg6 hc0 hc1 x0 x1 xs0).1)
theorem scover3_C (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S2048x1024 .bf16) (x1 : Vec F S2048x1024 .bf16) (xs0 : Vec F S1024x1024 .f32) (y : S1024x1024.Idx) :
    ∃ pc ∈ (kernelRun3_C c i arg3 harg3 arg4 harg4 arg5 harg5 arg6 harg6 hc0 hc1 x0 x1 xs0).2.1, y ∈ pc.1.set :=
  View.cover_of_tiledL (kernelRun3_C c i arg3 harg3 arg4 harg4 arg5 harg5 arg6 harg6 hc0 hc1 x0 x1 xs0).2.1 S1024x1024.size (by sl_kernel_rfl) y
/-- The tile after the last batch block. -/
def sout3_C (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S2048x1024 .bf16) (x1 : Vec F S2048x1024 .bf16) (xs0 : Vec F S1024x1024 .f32) : Vec F S1024x1024 .f32 :=
  VS3.read (Elt F) (VS3.writes (Elt F) VS3.junk (kernelRun3_C c i arg3 harg3 arg4 harg4 arg5 harg5 arg6 harg6 hc0 hc1 x0 x1 xs0).2.1)

/-! ## The accumulation over the grid points -/

/-- What the output block and the tile hold after the body at position `n`: the case the position's batch block selects,
    run on the point's input blocks, the tile taken from what the position before left. -/
def outsAt3 (c : Dev nD) : (n : ℕ) → n < cfg3.N → Vec F S1024x1024 .f32 × Vec F S1024x1024 .f32
  | 0, hn => (out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩), sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩))
  | n + 1, hn =>
    if h0 : (n + 1) % 4 = 0 then
      if h1 : (n + 1) % 4 = 3 then
        False.elim (by omega)
      else
        (out3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩), sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩))
    else
      if h1 : (n + 1) % 4 = 3 then
        (out3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2, sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2)
      else
        (out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

theorem outsAt3_A (c : Dev nD) (t : Fin cfg3.N) (h0 : t.val % 4 = 0) (h1 : ¬t.val % 4 = 3) :
    outsAt3 V c t.val t.isLt = (out3_A_2 c (grid3.coords t) (ms3_0 t) (hs3_0 t) (ms3_1 t) (hs3_1 t) (ms3_2 t) (hs3_2 t) scM3 (Memref.isWhole_whole _) ((hcond3_0 t).mpr h0) (fun h => h1 ((hcond3_1 t).mp h)) (iblk3 V c 0 t) (iblk3 V c 1 t), sout3_A c (grid3.coords t) (ms3_0 t) (hs3_0 t) (ms3_1 t) (hs3_1 t) (ms3_2 t) (hs3_2 t) scM3 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (dif_pos h0).trans ((dif_neg h1).trans rfl)

theorem outsAt3_B (c : Dev nD) (t : Fin cfg3.N) (h0 : ¬t.val % 4 = 0) (h1 : ¬t.val % 4 = 3) :
    outsAt3 V c t.val t.isLt = (out3_B_2 c (grid3.coords t) (ms3_0 t) (hs3_0 t) (ms3_1 t) (hs3_1 t) (ms3_2 t) (hs3_2 t) scM3 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2, sout3_B c (grid3.coords t) (ms3_0 t) (hs3_0 t) (ms3_1 t) (hs3_1 t) (ms3_2 t) (hs3_2 t) scM3 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 4 = 0) (h1 : t.val % 4 = 3) :
    outsAt3 V c t.val t.isLt = (out3_C_2 c (grid3.coords t) (ms3_0 t) (hs3_0 t) (ms3_1 t) (hs3_1 t) (ms3_2 t) (hs3_2 t) scM3 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2, sout3_C c (grid3.coords t) (ms3_0 t) (hs3_0 t) (ms3_1 t) (hs3_1 t) (ms3_2 t) (hs3_2 t) scM3 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point every scoped buffer at anything; afterwards the tile at what
    the point before left, the other scoped buffers at anything, the generator register at some state. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) scM3 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the position's batch block selects the case; the invariant hands the body the tile at what the
    point before left (at anything at the first point) and takes it back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  have hN : t.val < 8 := lt_of_lt_of_eq t.isLt (show cfg3.N = 8 from N_3)
  by_cases h0 : t.val % 4 = 0
  · by_cases h1 : t.val % 4 = 3
    · exfalso; omega
    · rw [Dat.leavesExact_idle (dat3 V c) 2 t (idleAt3_2 t (fun h => h1 ((hcond3_1 t).mp h))) (noFlush3_2 t (fun h => h1 ((hcond3_1 t).mp h)))]
      rw [outsAt3_A V c t h0 h1]
      unfold sout3_A; (try dsimp only)
      by_cases hz : t.val = 0
      · rw [PhiS3_castSucc V c t, PhiS3_zero V c _ _ hz, PhiA3_eq]
        iintro ⟨⟨⟨HS0, HR⟩, Hg⟩, Ho, ⟨%d0, H0⟩, ⟨%d1, H1⟩, ⟨%d2, H2⟩⟩
        iapply ((kernelRun3_A c (grid3.coords t) _ _ _ _ _ _ _ _ ((hcond3_0 t).mpr h0) (fun h => h1 ((hcond3_1 t).mp h)) (iblk3 V c 0 t) (iblk3 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A c _ _ _ _ _ _ _ _ _ _ _ _ _)
            iexact HR
          iexact Hg
        isplitl [Ho]; · iexact Ho
        isplitl [H0]; · iexact H0
        isplitl [H1]; · iexact H1
        iexists _; iexact H2
      · rw [PhiS3_castSucc V c t, PhiS3_pos V c _ _ hz]
        iintro ⟨⟨⟨HS0, HR⟩, Hg⟩, Ho, ⟨%d0, H0⟩, ⟨%d1, H1⟩, ⟨%d2, H2⟩⟩
        iapply ((kernelRun3_A c (grid3.coords t) _ _ _ _ _ _ _ _ ((hcond3_0 t).mpr h0) (fun h => h1 ((hcond3_1 t).mp h)) (iblk3 V c 0 t) (iblk3 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A c _ _ _ _ _ _ _ _ _ _ _ _ _)
            iexact HR
          iexact Hg
        isplitl [Ho]; · iexact Ho
        isplitl [H0]; · iexact H0
        isplitl [H1]; · iexact H1
        iexists _; iexact H2
  · have hz : t.val ≠ 0 := fun e => h0 (by rw [e])
    by_cases h1 : t.val % 4 = 3
    · rw [show (dat3 V c).leavesExact 2 t = owns (c : Thread nD τ) (ms3_2 t) fullShare ((dat3 V c).after 2 t) from by
        unfold Dat.leavesExact; rw [liveAt3_2 t ((hcond3_1 t).mpr h1)], after3_2]
      rw [outsAt3_C V c t h0 h1]
      unfold out3_C_2 sout3_C; (try dsimp only)
      rw [PhiS3_castSucc V c t, PhiS3_pos V c _ _ hz]
      iintro ⟨⟨⟨HS0, HR⟩, Hg⟩, Ho, ⟨%d0, H0⟩, ⟨%d1, H1⟩, ⟨%d2, H2⟩⟩
      iapply ((kernelRun3_C c (grid3.coords t) _ _ _ _ _ _ _ _ (fun h => h0 ((hcond3_0 t).mp h)) ((hcond3_1 t).mpr h1) (iblk3 V c 0 t) (iblk3 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C_2 c _ _ _ _ _ _ _ _ _ _ _ _ _ _)
    · rw [Dat.leavesExact_idle (dat3 V c) 2 t (idleAt3_2 t (fun h => h1 ((hcond3_1 t).mp h))) (noFlush3_2 t (fun h => h1 ((hcond3_1 t).mp h)))]
      rw [outsAt3_B V c t h0 h1]
      unfold sout3_B; (try dsimp only)
      rw [PhiS3_castSucc V c t, PhiS3_pos V c _ _ hz]
      iintro ⟨⟨⟨HS0, HR⟩, Hg⟩, Ho, ⟨%d0, H0⟩, ⟨%d1, H1⟩, ⟨%d2, H2⟩⟩
      iapply ((kernelRun3_B c (grid3.coords t) _ _ _ _ _ _ _ _ (fun h => h0 ((hcond3_0 t).mp h)) (fun h => h1 ((hcond3_1 t).mp h)) (iblk3 V c 0 t) (iblk3 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class invariant back: the tile's contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 8 := N_3; omega), PhiA3_eq]
  iintro ⟨⟨HS0, HR⟩, Hg⟩
  isplitl [HS0 HR]
  · isplitl [HS0]
    · iexists _; iexact HS0
    iexact HR
  iexact Hg

end Cert.Kernel.Gen

end
-- ==== Proof.KRunAll.lean ====
/-
  The run of @main: four short stretches of host operations (two scalar constants, the zero-padding of the classifier's
  weights and bias to 1024 classes), the forward region, the three co-activation regions, and two slices back to 1000
  classes.  The buffer contents at each of the ten boundaries are named by a fold from the launch memory: a host stretch
  applies its operations, a region replaces its windows' arrays by what its pipeline leaves.  Every weakly fair execution
  terminates in a memory whose unscoped buffers hold the last boundary's contents.
-/
import proofs.«114003_j36704790511729_2_alg».proof.Proof.KRegion0
import proofs.«114003_j36704790511729_2_alg».proof.Proof.KFrame1
import proofs.«114003_j36704790511729_2_alg».proof.Proof.KFrame2
import proofs.«114003_j36704790511729_2_alg».proof.Proof.KFrame3

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)
abbrev B1 : Dev nD → Valuation τ sig (Elt F) := fun c => StableHlo.after hostOps0 (B0 m ρ c)
abbrev B2 : Dev nD → Valuation τ sig (Elt F) := fun c => StableHlo.after hostOps0_1 (B1 m ρ c)
abbrev B3 : Dev nD → Valuation τ sig (Elt F) := fun c => StableHlo.after hostOps0_2 (B2 m ρ c)
/-- After the four host stretches: the forward region's entry. -/
abbrev B4 : Dev nD → Valuation τ sig (Elt F) := fun c => StableHlo.after hostOps0_3 (B3 m ρ c)
abbrev BV4 : (c : Dev nD) → (b : Ref sig .tc) → Buf (Elt F) ((c : Thread nD τ).loc b) := fun c b => B4 m ρ c b

/-- At region 0's exit: its arrays at what the pipeline leaves, every other buffer as entered. -/
def B5 (c : Dev nD) : Valuation τ sig (Elt F) :=
  Pipeline.withArrays spec0 c (B4 m ρ c) fun w => (dat0 (BV4 m ρ) c).arrAt w cfg0.N
theorem B5_arr (c : Dev nD) (w : Fin cfg0.W) :
    B5 m ρ c (Proc.devRef .tc (Pipeline.arrRef spec0 w)) = (dat0 (BV4 m ρ) c).arrAt w cfg0.N := by
  unfold B5; exact Pipeline.withArrays_arr spec0 launch0.win.arr_inj c _ _ w
theorem B5_of_ne (c : Dev nD) (b : Ref sig .tc) (hb : ∀ w, Pipeline.arrRef spec0 w ≠ b) :
    B5 m ρ c (Proc.devRef .tc b) = B4 m ρ c (Proc.devRef .tc b) := by
  unfold B5; exact Pipeline.withArrays_of_ne spec0 c _ _ b hb
/-- The same read at the TensorCore's references. -/
abbrev BV5 : (c : Dev nD) → (b : Ref sig .tc) → Buf (Elt F) ((c : Thread nD τ).loc b) := fun c b => B5 m ρ c b
theorem hF0 (c : Dev nD) (w : Fin cfg0.W) : (dat0 (BV4 m ρ) c).arrAt w cfg0.N = BV5 m ρ c (Pipeline.arrRef spec0 w) :=
  (B5_arr m ρ c w).symm
theorem hrest0 (c : Dev nD) : ∀ b, b ∉ Finset.univ.image (Pipeline.arrRef spec0) → BV5 m ρ c b = BV4 m ρ c b :=
  fun b hb => B5_of_ne m ρ c b fun w e => hb (Finset.mem_image.mpr ⟨w, Finset.mem_univ _, e⟩)

/-- At region 1's exit: its arrays at what the pipeline leaves, every other buffer as entered. -/
def B6 (c : Dev nD) : Valuation τ sig (Elt F) :=
  Pipeline.withArrays spec1 c (B5 m ρ c) fun w => (dat1 (BV5 m ρ) c).arrAt w cfg1.N
theorem B6_arr (c : Dev nD) (w : Fin cfg1.W) :
    B6 m ρ c (Proc.devRef .tc (Pipeline.arrRef spec1 w)) = (dat1 (BV5 m ρ) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m ρ c (Proc.devRef .tc b) = B5 m ρ c (Proc.devRef .tc b) := by
  unfold B6; exact Pipeline.withArrays_of_ne spec1 c _ _ b hb
/-- The same read at the TensorCore's references. -/
abbrev BV6 : (c : Dev nD) → (b : Ref sig .tc) → Buf (Elt F) ((c : Thread nD τ).loc b) := fun c b => B6 m ρ c b
theorem hF1 (c : Dev nD) (w : Fin cfg1.W) : (dat1 (BV5 m ρ) c).arrAt w cfg1.N = BV6 m ρ c (Pipeline.arrRef spec1 w) :=
  (B6_arr m ρ c w).symm
theorem hrest1 (c : Dev nD) : ∀ b, b ∉ Finset.univ.image (Pipeline.arrRef spec1) → BV6 m ρ c b = BV5 m ρ c b :=
  fun b hb => B6_of_ne m ρ c b fun w e => hb (Finset.mem_image.mpr ⟨w, Finset.mem_univ _, e⟩)

/-- At region 2's exit: its arrays at what the pipeline leaves, every other buffer as entered. -/
def B7 (c : Dev nD) : Valuation τ sig (Elt F) :=
  Pipeline.withArrays spec2 c (B6 m ρ c) fun w => (dat2 (BV6 m ρ) c).arrAt w cfg2.N
theorem B7_arr (c : Dev nD) (w : Fin cfg2.W) :
    B7 m ρ c (Proc.devRef .tc (Pipeline.arrRef spec2 w)) = (dat2 (BV6 m ρ) c).arrAt w cfg2.N := by
  unfold B7; exact Pipeline.withArrays_arr spec2 launch2.win.arr_inj c _ _ w
theorem B7_of_ne (c : Dev nD) (b : Ref sig .tc) (hb : ∀ w, Pipeline.arrRef spec2 w ≠ b) :
    B7 m ρ c (Proc.devRef .tc b) = B6 m ρ c (Proc.devRef .tc b) := by
  unfold B7; exact Pipeline.withArrays_of_ne spec2 c _ _ b hb
/-- The same read at the TensorCore's references. -/
abbrev BV7 : (c : Dev nD) → (b : Ref sig .tc) → Buf (Elt F) ((c : Thread nD τ).loc b) := fun c b => B7 m ρ c b
theorem hF2 (c : Dev nD) (w : Fin cfg2.W) : (dat2 (BV6 m ρ) c).arrAt w cfg2.N = BV7 m ρ c (Pipeline.arrRef spec2 w) :=
  (B7_arr m ρ c w).symm
theorem hrest2 (c : Dev nD) : ∀ b, b ∉ Finset.univ.image (Pipeline.arrRef spec2) → BV7 m ρ c b = BV6 m ρ c b :=
  fun b hb => B7_of_ne m ρ c b fun w e => hb (Finset.mem_image.mpr ⟨w, Finset.mem_univ _, e⟩)

/-- At region 3's exit: its arrays at what the pipeline leaves, every other buffer as entered. -/
def B8 (c : Dev nD) : Valuation τ sig (Elt F) :=
  Pipeline.withArrays spec3 c (B7 m ρ c) fun w => (dat3 (BV7 m ρ) c).arrAt w cfg3.N
theorem B8_arr (c : Dev nD) (w : Fin cfg3.W) :
    B8 m ρ c (Proc.devRef .tc (Pipeline.arrRef spec3 w)) = (dat3 (BV7 m ρ) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m ρ c (Proc.devRef .tc b) = B7 m ρ c (Proc.devRef .tc b) := by
  unfold B8; exact Pipeline.withArrays_of_ne spec3 c _ _ b hb
/-- The same read at the TensorCore's references. -/
abbrev BV8 : (c : Dev nD) → (b : Ref sig .tc) → Buf (Elt F) ((c : Thread nD τ).loc b) := fun c b => B8 m ρ c b
theorem hF3 (c : Dev nD) (w : Fin cfg3.W) : (dat3 (BV7 m ρ) c).arrAt w cfg3.N = BV8 m ρ c (Pipeline.arrRef spec3 w) :=
  (B8_arr m ρ c w).symm
theorem hrest3 (c : Dev nD) : ∀ b, b ∉ Finset.univ.image (Pipeline.arrRef spec3) → BV8 m ρ c b = BV7 m ρ c b :=
  fun b hb => B8_of_ne m ρ c b fun w e => hb (Finset.mem_image.mpr ⟨w, Finset.mem_univ _, e⟩)

/-- After the two slices: what the program ends with. -/
abbrev B9 : Dev nD → Valuation τ sig (Elt F) := fun c => StableHlo.after hostOps4 (B8 m ρ c)

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (BV4 m ρ) c
  | ⟨1, _⟩ => fun c => dat1 (BV5 m ρ) c
  | ⟨2, _⟩ => fun c => dat2 (BV6 m ρ) c
  | ⟨3, _⟩ => fun c => dat3 (BV7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops1_fresh : (hostOps0_1 : List (HloOp τ sig (Elt F))).Forall fun op => op.fresh = ∅ := by
  simp only [List.Forall]; repeat' constructor
theorem ops2_fresh : (hostOps0_2 : List (HloOp τ sig (Elt F))).Forall fun op => op.fresh = ∅ := by
  simp only [List.Forall]; repeat' constructor
theorem ops3_fresh : (hostOps0_3 : List (HloOp τ sig (Elt F))).Forall fun op => op.fresh = ∅ := by
  simp only [List.Forall]; repeat' constructor
theorem ops4_fresh : (hostOps4 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (B9 m ρ c) ∗ ∃ r, prngReg c r)

/-! ## The regions as segments -/

set_option backward.isDefEq.respectTransparency.types false in
/-- Region 0 over the thread state: entered with every unscoped buffer at `B4`, left with them at `B5`.  Its
    arrays are split out of the unscoped buffers and put back at what the pipeline leaves; the generator register goes
    into the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (BV4 m ρ) c).loose
  hwaits := Pipeline.hwaits_of_owed_zero _ _ _ _ L lv 0 fun _ _ => rfl
  pre c := iprop(StableHlo.held (c : Thread nD τ) (Pipeline.ucRefs τ sig) (B4 m ρ c) ∗ R c)
  post c := iprop(StableHlo.held (c : Thread nD τ) (Pipeline.ucRefs τ sig) (B5 m ρ c) ∗ R c)
  X c := iprop(∃ r, prngReg c r)
  Y c := iprop(∃ r, prngReg c r)
  Z c := Pipeline.unscopedRest (Ix := Unit) (Name := ℕ) (U := UR sig nD τ) (Lvl := ℕ) spec0 c (BV4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (BV4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (BV4 m ρ c) (BV5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `B5`, left with them at `B6`.  Its
    arrays are split out of the unscoped buffers and put back at what the pipeline leaves; the generator register goes
    into the invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (BV5 m ρ) c).loose
  hwaits := Pipeline.hwaits_of_owed_zero _ _ _ _ L lv 1 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec1 c (BV5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (BV5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show iprop(iprop(∃ r, prngReg c r) ∗ Pipeline.prefHeld (pcfgs (F := F) 1).pre c (fun _ => fullShare) (adm (F := F) 1).1 ∗ Pipeline.scopedRest (Ix := Unit) (Name := ℕ) (U := UR sig nD τ) (Lvl := ℕ) (Val := Elt F) spec1 c) ⊢ (Pipeline.ΦA spec1 c : sProp 𝕄) from by
      unfold Pipeline.ΦA
      iintro ⟨Hp, -, Hr⟩
      isplitl [Hr]; · iexact Hr
      iexact Hp).trans (hin1 (BV5 m ρ) c)
  hout c := (hout1 (BV5 m ρ) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (BV5 m ρ c) (BV6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `B6`, left with them at `B7`.  Its
    arrays are split out of the unscoped buffers and put back at what the pipeline leaves; the generator register goes
    into the invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (BV6 m ρ) c).loose
  hwaits := Pipeline.hwaits_of_owed_zero _ _ _ _ L lv 2 fun _ _ => rfl
  pre c := iprop(StableHlo.held (c : Thread nD τ) (Pipeline.ucRefs τ sig) (B6 m ρ c) ∗ R c)
  post c := iprop(StableHlo.held (c : Thread nD τ) (Pipeline.ucRefs τ sig) (B7 m ρ c) ∗ R c)
  X c := iprop(∃ r, prngReg c r)
  Y c := iprop(∃ r, prngReg c r)
  Z c := Pipeline.unscopedRest (Ix := Unit) (Name := ℕ) (U := UR sig nD τ) (Lvl := ℕ) spec2 c (BV6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (BV6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show iprop(iprop(∃ r, prngReg c r) ∗ Pipeline.prefHeld (pcfgs (F := F) 2).pre c (fun _ => fullShare) (adm (F := F) 2).1 ∗ Pipeline.scopedRest (Ix := Unit) (Name := ℕ) (U := UR sig nD τ) (Lvl := ℕ) (Val := Elt F) spec2 c) ⊢ (Pipeline.ΦA spec2 c : sProp 𝕄) from by
      unfold Pipeline.ΦA
      iintro ⟨Hp, -, Hr⟩
      isplitl [Hr]; · iexact Hr
      iexact Hp).trans (hin2 (BV6 m ρ) c)
  hout c := (hout2 (BV6 m ρ) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (BV6 m ρ c) (BV7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `B7`, left with them at `B8`.  Its
    arrays are split out of the unscoped buffers and put back at what the pipeline leaves; the generator register goes
    into the invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (BV7 m ρ) c).loose
  hwaits := Pipeline.hwaits_of_owed_zero _ _ _ _ L lv 3 fun _ _ => rfl
  pre c := iprop(StableHlo.held (c : Thread nD τ) (Pipeline.ucRefs τ sig) (B7 m ρ c) ∗ R c)
  post c := iprop(StableHlo.held (c : Thread nD τ) (Pipeline.ucRefs τ sig) (B8 m ρ c) ∗ R c)
  X c := iprop(∃ r, prngReg c r)
  Y c := iprop(∃ r, prngReg c r)
  Z c := Pipeline.unscopedRest (Ix := Unit) (Name := ℕ) (U := UR sig nD τ) (Lvl := ℕ) spec3 c (BV7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (BV7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show iprop(iprop(∃ r, prngReg c r) ∗ Pipeline.prefHeld (pcfgs (F := F) 3).pre c (fun _ => fullShare) (adm (F := F) 3).1 ∗ Pipeline.scopedRest (Ix := Unit) (Name := ℕ) (U := UR sig nD τ) (Lvl := ℕ) (Val := Elt F) spec3 c) ⊢ (Pipeline.ΦA spec3 c : sProp 𝕄) from by
      unfold Pipeline.ΦA
      iintro ⟨Hp, -, Hr⟩
      isplitl [Hr]; · iexact Hr
      iexact Hp).trans (hin3 (BV7 m ρ) c)
  hout c := (hout3 (BV7 m ρ) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (BV7 m ρ c) (BV8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub ops0_fresh (B0 m ρ)),
    .host (hseg hostOps0_1 hostOps0_1_sub ops1_fresh (B1 m ρ)),
    .host (hseg hostOps0_2 hostOps0_2_sub ops2_fresh (B2 m ρ)),
    .host (hseg hostOps0_3 hostOps0_3_sub ops3_fresh (B3 m ρ)),
    .region (reg0 m ρ), .region (reg1 m ρ), .region (reg2 m ρ), .region (reg3 m ρ),
    .host (hseg hostOps4 hostOps4_sub ops4_fresh (B8 m ρ)) ]

set_option backward.isDefEq.respectTransparency.types false in
/-- THE RUN: from any memory with zero counters every weakly fair execution of @main on the TensorCores terminates,
    nothing faulting, and every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B9 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0, StableHlo.seq hostOps0_1, StableHlo.seq hostOps0_2, StableHlo.seq hostOps0_3,
          Prog.lift (.customCall (Pipeline.entry 0) ()), Prog.lift (.customCall (Pipeline.entry 1) ()),
          Prog.lift (.customCall (Pipeline.entry 2) ()), Prog.lift (.customCall (Pipeline.entry 3) ()),
          StableHlo.seq hostOps4 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (B9 m ρ c) ∗ R c)
            ⊢ (iprop(Tₙ m ρ c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B9 m ρ c b)
    (hfin := fun c s' => by
      iintro ⟨⟨Hh, -⟩, HSI⟩
      unfold StableHlo.held
      imodintro
      iapply (pointsTo_read_all (Pipeline.ucRefs τ sig) (fun b => (((c : Thread nD τ)).1, b)) (B9 m ρ c) s')
      isplitl [Hh] <;> iassumption)
    (hQ := fun s h c => h c)

end Cert.Kernel.Run

end
-- ==== Proof.KEnds.lean ====
/-
  The two ends of the run.  Reading the last boundary's contents back through the fold: every argument array is what the
  launch memory held (no host stretch writes an argument, and a region only reads one); each result is the slice or the
  array a region's pipeline left; and each region is entered with the arrays the regions before it left.
-/
import proofs.«114003_j36704790511729_2_alg».proof.Proof.KRunAll
import proofs.«114003_j36704790511729_2_alg».proof.Proof.Gen.Kernel.Regions

set_option maxRecDepth 16384

noncomputable section

namespace Cert.Kernel.Run

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-! ## A host stretch leaves alone what it does not write -/

theorem B1_of (c : Dev nD) (r : Ref sig .tc) (h : r ∉ hostOps0_W) : B1 m ρ c (Proc.devRef .tc r) = B0 m ρ c (Proc.devRef .tc r) :=
  StableHlo.after_of_writes_sub hostOps0 _ hostOps0_writes h
theorem B2_of (c : Dev nD) (r : Ref sig .tc) (h : r ∉ hostOps0_1_W) : B2 m ρ c (Proc.devRef .tc r) = B1 m ρ c (Proc.devRef .tc r) :=
  StableHlo.after_of_writes_sub hostOps0_1 _ hostOps0_1_writes h
theorem B3_of (c : Dev nD) (r : Ref sig .tc) (h : r ∉ hostOps0_2_W) : B3 m ρ c (Proc.devRef .tc r) = B2 m ρ c (Proc.devRef .tc r) :=
  StableHlo.after_of_writes_sub hostOps0_2 _ hostOps0_2_writes h
theorem B4_of (c : Dev nD) (r : Ref sig .tc) (h : r ∉ hostOps0_3_W) : B4 m ρ c (Proc.devRef .tc r) = B3 m ρ c (Proc.devRef .tc r) :=
  StableHlo.after_of_writes_sub hostOps0_3 _ hostOps0_3_writes h
theorem B9_of (c : Dev nD) (r : Ref sig .tc) (h : r ∉ hostOps4_W) : B9 m ρ c (Proc.devRef .tc r) = B8 m ρ c (Proc.devRef .tc r) :=
  StableHlo.after_of_writes_sub hostOps4 _ hostOps4_writes h
/-- A buffer none of the four leading host stretches writes enters the forward region as launched. -/
theorem B4_arg (c : Dev nD) (r : Ref sig .tc) (h0 : r ∉ hostOps0_W) (h1 : r ∉ hostOps0_1_W) (h2 : r ∉ hostOps0_2_W) (h3 : r ∉ hostOps0_3_W) :
    B4 m ρ c (Proc.devRef .tc r) = m ((c : Thread nD τ).loc r) :=
  (B4_of m ρ c r h3).trans <| (B3_of m ρ c r h2).trans <| (B2_of m ρ c r h1).trans <| (B1_of m ρ c r h0).trans rfl
/-- An input window's array leaves the forward region as it entered. -/
theorem B5_in (c : Dev nD) (w : Fin cfg0.W) (hin : (cfg0.win w).isOut = false) :
    B5 m ρ c (Proc.devRef .tc (Pipeline.arrRef spec0 w)) = B4 m ρ c (Proc.devRef .tc (Pipeline.arrRef spec0 w)) :=
  (B5_arr m ρ c w).trans (((dat0 (BV4 m ρ) c).arrAt_in w hin _).trans (A_eq0 (BV4 m ρ) c w))

/-! ## The arguments end as launched -/

/-- `main_arg0` ends as launched: no host stretch writes it, and a region reads it through an input window or bypasses it. -/
theorem B9_main_arg0 (c : Dev nD) : B9 m ρ c (Proc.devRef .tc main_arg0) = m ((c : Thread nD τ).loc main_arg0) :=
  (B9_of m ρ c main_arg0 (by decide)).trans <| (B8_of_ne m ρ c main_arg0 (by decide)).trans <| (B7_of_ne m ρ c main_arg0 (by decide)).trans <|
    (B6_of_ne m ρ c main_arg0 (by decide)).trans <| (B5_in m ρ c 0 rfl).trans <| B4_arg m ρ c main_arg0 (by decide) (by decide) (by decide) (by decide)
/-- `main_arg1` ends as launched: no host stretch writes it, and a region reads it through an input window or bypasses it. -/
theorem B9_main_arg1 (c : Dev nD) : B9 m ρ c (Proc.devRef .tc main_arg1) = m ((c : Thread nD τ).loc main_arg1) :=
  (B9_of m ρ c main_arg1 (by decide)).trans <| (B8_of_ne m ρ c main_arg1 (by decide)).trans <| (B7_of_ne m ρ c main_arg1 (by decide)).trans <|
    (B6_of_ne m ρ c main_arg1 (by decide)).trans <| (B5_in m ρ c 1 rfl).trans <| B4_arg m ρ c main_arg1 (by decide) (by decide) (by decide) (by decide)
/-- `main_arg2` ends as launched: no host stretch writes it, and a region reads it through an input window or bypasses it. -/
theorem B9_main_arg2 (c : Dev nD) : B9 m ρ c (Proc.devRef .tc main_arg2) = m ((c : Thread nD τ).loc main_arg2) :=
  (B9_of m ρ c main_arg2 (by decide)).trans <| (B8_of_ne m ρ c main_arg2 (by decide)).trans <| (B7_of_ne m ρ c main_arg2 (by decide)).trans <|
    (B6_of_ne m ρ c main_arg2 (by decide)).trans <| (B5_in m ρ c 2 rfl).trans <| B4_arg m ρ c main_arg2 (by decide) (by decide) (by decide) (by decide)
/-- `main_arg3` ends as launched: no host stretch writes it, and a region reads it through an input window or bypasses it. -/
theorem B9_main_arg3 (c : Dev nD) : B9 m ρ c (Proc.devRef .tc main_arg3) = m ((c : Thread nD τ).loc main_arg3) :=
  (B9_of m ρ c main_arg3 (by decide)).trans <| (B8_of_ne m ρ c main_arg3 (by decide)).trans <| (B7_of_ne m ρ c main_arg3 (by decide)).trans <|
    (B6_of_ne m ρ c main_arg3 (by decide)).trans <| (B5_in m ρ c 3 rfl).trans <| B4_arg m ρ c main_arg3 (by decide) (by decide) (by decide) (by decide)
/-- `main_arg4` ends as launched: no host stretch writes it, and a region reads it through an input window or bypasses it. -/
theorem B9_main_arg4 (c : Dev nD) : B9 m ρ c (Proc.devRef .tc main_arg4) = m ((c : Thread nD τ).loc main_arg4) :=
  (B9_of m ρ c main_arg4 (by decide)).trans <| (B8_of_ne m ρ c main_arg4 (by decide)).trans <| (B7_of_ne m ρ c main_arg4 (by decide)).trans <|
    (B6_of_ne m ρ c main_arg4 (by decide)).trans <| (B5_in m ρ c 4 rfl).trans <| B4_arg m ρ c main_arg4 (by decide) (by decide) (by decide) (by decide)
/-- `main_arg5` ends as launched: no host stretch writes it, and a region reads it through an input window or bypasses it. -/
theorem B9_main_arg5 (c : Dev nD) : B9 m ρ c (Proc.devRef .tc main_arg5) = m ((c : Thread nD τ).loc main_arg5) :=
  (B9_of m ρ c main_arg5 (by decide)).trans <| (B8_of_ne m ρ c main_arg5 (by decide)).trans <| (B7_of_ne m ρ c main_arg5 (by decide)).trans <|
    (B6_of_ne m ρ c main_arg5 (by decide)).trans <| (B5_of_ne m ρ c main_arg5 (by decide)).trans <| B4_arg m ρ c main_arg5 (by decide) (by decide) (by decide) (by decide)
/-- `main_arg6` ends as launched: no host stretch writes it, and a region reads it through an input window or bypasses it. -/
theorem B9_main_arg6 (c : Dev nD) : B9 m ρ c (Proc.devRef .tc main_arg6) = m ((c : Thread nD τ).loc main_arg6) :=
  (B9_of m ρ c main_arg6 (by decide)).trans <| (B8_of_ne m ρ c main_arg6 (by decide)).trans <| (B7_of_ne m ρ c main_arg6 (by decide)).trans <|
    (B6_of_ne m ρ c main_arg6 (by decide)).trans <| (B5_of_ne m ρ c main_arg6 (by decide)).trans <| B4_arg m ρ c main_arg6 (by decide) (by decide) (by decide) (by decide)

/-! ## The results, and what each region is entered with -/

theorem B9_v3 (c : Dev nD) : B9 m ρ c (Proc.devRef .tc main_v3) = (dat1 (BV5 m ρ) c).arrAt 2 cfg1.N :=
  (B9_of m ρ c main_v3 (by decide)).trans <| (B8_of_ne m ρ c main_v3 (by decide)).trans <| (B7_of_ne m ρ c main_v3 (by decide)).trans (B6_arr m ρ c 2)
theorem B9_v4 (c : Dev nD) : B9 m ρ c (Proc.devRef .tc main_v4) = (dat2 (BV6 m ρ) c).arrAt 2 cfg2.N :=
  (B9_of m ρ c main_v4 (by decide)).trans <| (B8_of_ne m ρ c main_v4 (by decide)).trans (B7_arr m ρ c 2)
theorem B8_v5 (c : Dev nD) : B8 m ρ c (Proc.devRef .tc main_v5) = (dat3 (BV7 m ρ) c).arrAt 2 cfg3.N := B8_arr m ρ c 2
theorem B8_v2_0 (c : Dev nD) : B8 m ρ c (Proc.devRef .tc main_v2_0) = (dat0 (BV4 m ρ) c).arrAt 7 cfg0.N :=
  (B8_of_ne m ρ c main_v2_0 (by decide)).trans <| (B7_of_ne m ρ c main_v2_0 (by decide)).trans <| (B6_of_ne m ρ c main_v2_0 (by decide)).trans (B5_arr m ρ c 7)
/-- The logits are the first 1000 columns of the forward region's padded logits. -/
theorem B9_v6 (c : Dev nD) : B9 m ρ c (Proc.devRef .tc main_v6)
    = extractStridedSlice S8192x1000 ![0, 0] (B8 m ρ c (Proc.devRef .tc main_v2_0)) slices_S8192x1024_S8192x1000_0_0 := by
  show StableHlo.after hostOps4 _ (Proc.devRef .tc main_v6) = _
  after_results
/-- The last co-activation matrix is the first 1000 columns of the padded one. -/
theorem B9_v7 (c : Dev nD) : B9 m ρ c (Proc.devRef .tc main_v7)
    = extractStridedSlice S2048x1000 ![0, 0] (B8 m ρ c (Proc.devRef .tc main_v5)) slices_S2048x1024_S2048x1000_0_0 := by
  show StableHlo.after hostOps4 _ (Proc.devRef .tc main_v7) = _
  after_results

theorem BV5_v2_1 (c : Dev nD) : BV5 m ρ c main_v2_1 = (dat0 (BV4 m ρ) c).arrAt 8 cfg0.N := B5_arr m ρ c 8
theorem BV5_v2_2 (c : Dev nD) : BV5 m ρ c main_v2_2 = (dat0 (BV4 m ρ) c).arrAt 9 cfg0.N := B5_arr m ρ c 9
theorem BV6_v2_2 (c : Dev nD) : BV6 m ρ c main_v2_2 = (dat0 (BV4 m ρ) c).arrAt 9 cfg0.N :=
  (B6_arr m ρ c 1).trans (((dat1 (BV5 m ρ) c).arrAt_in 1 rfl _).trans ((A_eq1 (BV5 m ρ) c 1).trans (B5_arr m ρ c 9)))
theorem BV6_v2_3 (c : Dev nD) : BV6 m ρ c main_v2_3 = (dat0 (BV4 m ρ) c).arrAt 10 cfg0.N :=
  (B6_of_ne m ρ c main_v2_3 (by decide)).trans (B5_arr m ρ c 10)
theorem BV7_v2_3 (c : Dev nD) : BV7 m ρ c main_v2_3 = (dat0 (BV4 m ρ) c).arrAt 10 cfg0.N :=
  (B7_arr m ρ c 1).trans (((dat2 (BV6 m ρ) c).arrAt_in 1 rfl _).trans ((A_eq2 (BV6 m ρ) c 1).trans (BV6_v2_3 m ρ c)))
theorem BV7_v2_4 (c : Dev nD) : BV7 m ρ c main_v2_4 = (dat0 (BV4 m ρ) c).arrAt 11 cfg0.N :=
  (B7_of_ne m ρ c main_v2_4 (by decide)).trans <| (B6_of_ne m ρ c main_v2_4 (by decide)).trans (B5_arr m ρ c 11)

/-- The forward region is entered with the first five arguments as launched, -/
theorem BV4_arg0 (c : Dev nD) : BV4 m ρ c main_arg0 = m ((c : Thread nD τ).loc main_arg0) := B4_arg m ρ c main_arg0 (by decide) (by decide) (by decide) (by decide)
theorem BV4_arg1 (c : Dev nD) : BV4 m ρ c main_arg1 = m ((c : Thread nD τ).loc main_arg1) := B4_arg m ρ c main_arg1 (by decide) (by decide) (by decide) (by decide)
theorem BV4_arg2 (c : Dev nD) : BV4 m ρ c main_arg2 = m ((c : Thread nD τ).loc main_arg2) := B4_arg m ρ c main_arg2 (by decide) (by decide) (by decide) (by decide)
theorem BV4_arg3 (c : Dev nD) : BV4 m ρ c main_arg3 = m ((c : Thread nD τ).loc main_arg3) := B4_arg m ρ c main_arg3 (by decide) (by decide) (by decide) (by decide)
theorem BV4_arg4 (c : Dev nD) : BV4 m ρ c main_arg4 = m ((c : Thread nD τ).loc main_arg4) := B4_arg m ρ c main_arg4 (by decide) (by decide) (by decide) (by decide)
/-- and with the classifier's weights and bias padded with some scalar to 1024 classes. -/
theorem BV4_v0 (c : Dev nD) : ∃ v, BV4 m ρ c main_v0
    = pad S1024x2048 ![0, 0] ![24, 0] ![0, 0] (m ((c : Thread nD τ).loc main_arg5)) v pads_S1000x2048_S1024x2048_0240_000 h_S_ := by
  refine ⟨sitofp .f32 (B1 m ρ c (Proc.devRef .tc main_c)), ?_⟩
  refine (B4_of m ρ c main_v0 (by decide)).trans <| (B3_of m ρ c main_v0 (by decide)).trans ?_
  show StableHlo.after hostOps0_1 _ (Proc.devRef .tc main_v0) = _
  after_results
  rfl
theorem BV4_v1 (c : Dev nD) : ∃ v, BV4 m ρ c main_v1
    = pad S1024 ![0] ![24] ![0] (m ((c : Thread nD τ).loc main_arg6)) v pads_S1000_S1024_0240 h_S_ := by
  refine ⟨sitofp .f32 (B3 m ρ c (Proc.devRef .tc main_c_0)), ?_⟩
  show StableHlo.after hostOps0_3 _ (Proc.devRef .tc main_v1) = _
  after_results
  rfl

end Cert.Kernel.Run

end
-- ==== Proof.KIRegion0.lean ====
/-
  Region 0 of the program: the forward pass on one block of 64 batch rows, at the buffer contents `V` the region is
  entered with.  A grid point `t` sees rows 64·t … 64·t+63 of the input, the three weight matrices and bias vectors whole,
  and leaves in its five output blocks the padded logits of those rows and the four 0/1 indicator blocks (of the input,
  of the two hidden pre-activations, of the logits below class 1000).  Each output block is one store of a pure function
  of the loaded blocks, so what the body leaves is that function of the point's input blocks; nothing is carried from
  one point to the next.
-/
import proofs.«114003_j36704790511729_2_alg».proof.Proof.Gen.KernelIdeal.Launch
import proofs.«114003_j36704790511729_2_alg».proof.Proof.Gen.KernelIdeal.Skeleton
import proofs.«114003_j36704790511729_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (an unfetched window's index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not (an unfetched window's index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not (an unfetched window's index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not (an unfetched window's index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not (an unfetched window's index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not (an unfetched window's index has not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, fetched there or not (an unfetched window's index has not moved). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX : Rect S64x1024 := Rect.unit (s := S64x1024) ![0, 0] S64x1024.size inb_S64x1024_S64x1024_0_0
abbrev rW1 : Rect S2048x1024 := Rect.unit (s := S2048x1024) ![0, 0] S2048x1024.size inb_S2048x1024_S2048x1024_0_0
abbrev rB : Rect S2048 := Rect.unit (s := S2048) ![0] S2048.size inb_S2048_S2048_0
abbrev rW2 : Rect S2048x2048 := Rect.unit (s := S2048x2048) ![0, 0] S2048x2048.size inb_S2048x2048_S2048x2048_0_0
abbrev rW3 : Rect S1024x2048 := Rect.unit (s := S1024x2048) ![0, 0] S1024x2048.size inb_S1024x2048_S1024x2048_0_0
abbrev rB3 : Rect S1024 := Rect.unit (s := S1024) ![0] S1024.size inb_S1024_S1024_0
abbrev rH : Rect S64x2048 := Rect.unit (s := S64x2048) ![0, 0] S64x2048.size inb_S64x2048_S64x2048_0_0

/-! ## What the body leaves in each output block, from the input blocks -/

/-- The second hidden layer's activations of the block's rows (the value the body passes from its first part to its second). -/
def hid0 (x0 : Vec F S64x1024 .f32) (x1 : Vec F S2048x1024 .f32) (x2 : Vec F S2048 .f32) (x3 : Vec F S2048x2048 .f32) (x4 : Vec F S2048 .f32) : FVec F S64x2048 .f32 :=
  k0_pay8 (View.ld x0 rX) (View.ld x1 rW1) (View.ld x2 rB) (View.ld x3 rW2) (View.ld x4 rB)
/-- The padded logits of the block's rows. -/
def out0_7 (x0 : Vec F S64x1024 .f32) (x1 : Vec F S2048x1024 .f32) (x2 : Vec F S2048 .f32) (x3 : Vec F S2048x2048 .f32) (x4 : Vec F S2048 .f32) (x5 : Vec F S1024x2048 .f32) (x6 : Vec F S1024 .f32) : Vec F S64x1024 .f32 :=
  View.canon [⟨rX, k0_pay1 (hid0 x0 x1 x2 x3 x4) (View.ld x5 rW3) (View.ld x6 rB3)⟩]
/-- The indicator of the input block. -/
def out0_8 (x0 : Vec F S64x1024 .f32) : Vec F S64x1024 .bf16 :=
  View.canon [⟨rX, k0_pay3 (View.ld x0 rX)⟩]
/-- The indicator of the first hidden pre-activation. -/
def out0_9 (x0 : Vec F S64x1024 .f32) (x1 : Vec F S2048x1024 .f32) (x2 : Vec F S2048 .f32) : Vec F S64x2048 .bf16 :=
  View.canon [⟨rH, k0_pay5 (View.ld x0 rX) (View.ld x1 rW1) (View.ld x2 rB)⟩]
/-- The indicator of the second hidden pre-activation. -/
def out0_10 (x0 : Vec F S64x1024 .f32) (x1 : Vec F S2048x1024 .f32) (x2 : Vec F S2048 .f32) (x3 : Vec F S2048x2048 .f32) (x4 : Vec F S2048 .f32) : Vec F S64x2048 .bf16 :=
  View.canon [⟨rH, k0_pay7 (View.ld x0 rX) (View.ld x1 rW1) (View.ld x2 rB) (View.ld x3 rW2) (View.ld x4 rB)⟩]
/-- The indicator of the logits, masked to the real classes. -/
def out0_11 (x0 : Vec F S64x1024 .f32) (x1 : Vec F S2048x1024 .f32) (x2 : Vec F S2048 .f32) (x3 : Vec F S2048x2048 .f32) (x4 : Vec F S2048 .f32) (x5 : Vec F S1024x2048 .f32) (x6 : Vec F S1024 .f32) : Vec F S64x1024 .bf16 :=
  View.canon [⟨rX, k0_pay2 (hid0 x0 x1 x2 x3 x4) (View.ld x5 rW3) (View.ld x6 rB3)⟩]

/-- One whole-buffer store covers the buffer. -/
theorem coverX {φ : EltTy} (p0 : Vec F S64x1024 φ) (y : S64x1024.Idx) :
    ∃ pc ∈ ([⟨rX, p0⟩] : List (View.Piece (Elt F) S64x1024 φ)), y ∈ pc.1.set :=
  View.cover_of_tiled [⟨rX, p0⟩] S64x1024.size (by rfl) y
theorem coverH {φ : EltTy} (p0 : Vec F S64x2048 φ) (y : S64x2048.Idx) :
    ∃ pc ∈ ([⟨rH, p0⟩] : List (View.Piece (Elt F) S64x2048 φ)), y ∈ pc.1.set :=
  View.cover_of_tiled [⟨rH, p0⟩] S64x2048.size (by rfl) y

/-! ## The body's triple -/

set_option maxHeartbeats 4000000 in
/-- On whole staging buffers, the inputs' at contents `x·` and the outputs' at anything, the body runs to a state
    holding the inputs' as they were and each output's at its function of the inputs'. -/
theorem sound_kernel0 (c : Dev nD) (E : Set ℕ) (i : grid0.Coords) (arg1 : Memref sig .tc .vmem S64x1024 .f32) (harg1 : arg1.IsWhole) (arg2 : Memref sig .tc .vmem S2048x1024 .f32) (harg2 : arg2.IsWhole) (arg3 : Memref sig .tc .vmem S2048 .f32) (harg3 : arg3.IsWhole) (arg4 : Memref sig .tc .vmem S2048x2048 .f32) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024 .f32) (harg7 : arg7.IsWhole) (arg8 : Memref sig .tc .vmem S64x1024 .f32) (harg8 : arg8.IsWhole) (arg9 : Memref sig .tc .vmem S64x1024 .bf16) (harg9 : arg9.IsWhole) (arg10 : Memref sig .tc .vmem S64x2048 .bf16) (harg10 : arg10.IsWhole) (arg11 : Memref sig .tc .vmem S64x2048 .bf16) (harg11 : arg11.IsWhole) (arg12 : Memref sig .tc .vmem S64x1024 .bf16) (harg12 : arg12.IsWhole)
    (x0 : Vec F S64x1024 .f32) (x1 : Vec F S2048x1024 .f32) (x2 : Vec F S2048 .f32) (x3 : Vec F S2048x2048 .f32) (x4 : Vec F S2048 .f32) (x5 : Vec F S1024x2048 .f32) (x6 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x2 x3 x4 x5 x6) ∗ owns (c : Thread nD τ) arg9 fullShare (out0_8 x0) ∗ owns (c : Thread nD τ) arg10 fullShare (out0_9 x0 x1 x2) ∗ owns (c : Thread nD τ) arg11 fullShare (out0_10 x0 x1 x2 x3 x4) ∗ owns (c : Thread nD τ) arg12 fullShare (out0_11 x0 x1 x2 x3 x4 x5 x6)) -∗ K ⟨⟩))
      ⊢ wp frame (wpE (defs₀ (F := F)) Variants.none c none) E (cc0__forward_kernel i arg1 harg1 arg2 harg2 arg3 harg3 arg4 harg4 arg5 harg5 arg6 harg6 arg7 harg7 arg8 harg8 arg9 harg9 arg10 harg10 arg11 harg11 arg12 harg12) K := by
  simp only [cc0__forward_kernel_eq_skeleton]; unfold cc0__forward_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro; exact View.read_writes_eq_canon _ _ _ (coverX _)
  isplitl [H8]
  · iexists _; isplitr
    swap; · iexact H8
    ipureintro; exact View.read_writes_eq_canon _ _ _ (coverX _)
  isplitl [H9]
  · iexists _; isplitr
    swap; · iexact H9
    ipureintro; exact View.read_writes_eq_canon _ _ _ (coverH _)
  isplitl [H10]
  · iexists _; isplitr
    swap; · iexact H10
    ipureintro; exact View.read_writes_eq_canon _ _ _ (coverH _)
  iexists _; isplitr
  swap; · iexact H11
  ipureintro; exact View.read_writes_eq_canon _ _ _ (coverX _)

/-! ## The pipeline's proof data -/

/-- Pipeline 0's proof data on core `c`: the arrays as the region finds them; after the body at point `t` each
    input's buffer at its block and each output's at its function of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t)
    | ⟨9, _⟩ => out0_9 (iblk0 V c 0 t) (iblk0 V c 1 t) (iblk0 V c 2 t)
    | ⟨10, _⟩ => out0_10 (iblk0 V c 0 t) (iblk0 V c 1 t) (iblk0 V c 2 t) (iblk0 V c 3 t) (iblk0 V c 4 t)
    | ⟨11, _⟩ => out0_11 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) := by dsimp only [dat0]
theorem after0_9 (c : Dev nD) (t : Fin cfg0.N) : (dat0 V c).after 9 t = out0_9 (iblk0 V c 0 t) (iblk0 V c 1 t) (iblk0 V c 2 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 4000000 in
/-- The body at any point: the inputs' buffers hold their blocks, so the triple applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.KIRun1.lean ====
/-
  Region 1 of the program: one co-activation product, at the buffer contents `V` the region is entered with.  The grid
  is (row blocks of the result) × (column blocks of the result) × (4 blocks of 2048 batch rows), the batch axis innermost.
  A scratch tile of 1024×1024 is carried between grid points: at a batch block 0 it is reset to zero and the block's
  product AᵀB added; at blocks 1, 2 the product is added to what the point before left; at block 3 the product is added
  and the tile copied into the output block, which is written back at those points only (elsewhere the output window is
  idle).  So the body has three control cases, and the invariant between points names the tile's contents.
-/
import proofs.«114003_j36704790511729_2_alg».proof.Proof.Gen.KernelIdeal.Launch
import proofs.«114003_j36704790511729_2_alg».proof.Proof.Gen.KernelIdeal.Skeleton
import proofs.«114003_j36704790511729_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- "This is the first batch block": the body's first `scf.if`, from the grid coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "This is the last batch block": the body's second `scf.if`. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
/-- Away from the last batch block the output window is idle and not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last batch block it is live. -/
theorem liveAt1_2 : ∀ t : Fin cfg1.N, cond1_1 (grid1.coords t) → cfg1.idle 2 (grid1.coords t) = false := by decide +kernel

/-! ## The staging and scratch memrefs -/

abbrev VO1 : View sig .tc .vmem S1024x1024 .f32 := (Memref.whole cc1_stg2_0 : Memref sig .tc .vmem S1024x1024 .f32).view
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
/-- The accumulator tile: a whole scoped buffer of the kernel's own. -/
abbrev scM1 : Memref sig .tc .vmem S1024x1024 .f32 := Memref.whole cc1_scratch0
abbrev VS1 : View sig .tc .vmem S1024x1024 .f32 := (scM1).view

/-- The class invariant with the accumulator tile as a memref owned at some contents, the other scoped buffers unopened. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The body's triple, case by case; the pieces each buffer ends with are found by the run -/

set_option maxHeartbeats 4000000 in
/-- First batch block: the tile at anything is reset and the block's product added; the idle output is handed back. -/
noncomputable def kernelRun1_A (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S2048x1024 .bf16) (x1 : Vec F S2048x1024 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__coact_kernel i arg3 harg3 arg4 harg4 arg5 harg5 arg6 harg6) K } := by
  refine ⟨[], ?_, fun xi2 E K => ?run⟩
  case run =>
    simp only [cc1__coact_kernel_eq_skeleton]; unfold cc1__coact_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 4000000 in
/-- A middle batch block: the block's product is added to the tile as the point before left it. -/
noncomputable def kernelRun1_B (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S2048x1024 .bf16) (x1 : Vec F S2048x1024 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__coact_kernel i arg3 harg3 arg4 harg4 arg5 harg5 arg6 harg6) K } := by
  refine ⟨[], ?_, fun xi2 E K => ?run⟩
  case run =>
    simp only [cc1__coact_kernel_eq_skeleton]; unfold cc1__coact_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 4000000 in
/-- The last batch block: the product is added and the tile copied into the output block. -/
noncomputable def kernelRun1_C (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S2048x1024 .bf16) (x1 : Vec F S2048x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__coact_kernel i arg3 harg3 arg4 harg4 arg5 harg5 arg6 harg6) K } := by
  refine ⟨?_, ?_, fun E K => ?run⟩
  case run =>
    simp only [cc1__coact_kernel_eq_skeleton]; unfold cc1__coact_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Gen

end
-- ==== Proof.KIFrame1.lean ====
/-
  Region 1, continued: what each control case leaves in the output block and in the accumulator tile (read off the
  pieces the case's run ends with), the tile's contents after every grid point by recursion on the point, the invariant
  between points (the tile at those contents, the other scoped buffers and the generator register untouched), the proof
  data of the pipeline and the body obligation at every point.
-/
import proofs.«114003_j36704790511729_2_alg».proof.Proof.KIRun1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- First batch block: nothing is stored into the output block (a placeholder nothing consults). -/
def out1_A_2 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S2048x1024 .bf16) (x1 : Vec F S2048x1024 .bf16) : Vec F S1024x1024 .f32 :=
  VO1.read (Elt F) (VO1.writes (Elt F) VO1.junk (kernelRun1_A c i arg3 harg3 arg4 harg4 arg5 harg5 arg6 harg6 hc0 hc1 x0 x1).1)
theorem scover1_A (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S2048x1024 .bf16) (x1 : Vec F S2048x1024 .bf16) (y : S1024x1024.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1024x1024.size (by sl_kernel_rfl) y
/-- The tile after a first batch block. -/
def sout1_A (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S2048x1024 .bf16) (x1 : Vec F S2048x1024 .bf16) : Vec F S1024x1024 .f32 :=
  VS1.read (Elt F) (VS1.writes (Elt F) VS1.junk (kernelRun1_A c i arg3 harg3 arg4 harg4 arg5 harg5 arg6 harg6 hc0 hc1 x0 x1).2.1)

def out1_B_2 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S2048x1024 .bf16) (x1 : Vec F S2048x1024 .bf16) (xs0 : Vec F S1024x1024 .f32) : Vec F S1024x1024 .f32 :=
  VO1.read (Elt F) (VO1.writes (Elt F) VO1.junk (kernelRun1_B c i arg3 harg3 arg4 harg4 arg5 harg5 arg6 harg6 hc0 hc1 x0 x1 xs0).1)
theorem scover1_B (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S2048x1024 .bf16) (x1 : Vec F S2048x1024 .bf16) (xs0 : Vec F S1024x1024 .f32) (y : S1024x1024.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1024x1024.size (by sl_kernel_rfl) y
/-- The tile after a middle batch block, from the tile before it. -/
def sout1_B (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S2048x1024 .bf16) (x1 : Vec F S2048x1024 .bf16) (xs0 : Vec F S1024x1024 .f32) : Vec F S1024x1024 .f32 :=
  VS1.read (Elt F) (VS1.writes (Elt F) VS1.junk (kernelRun1_B c i arg3 harg3 arg4 harg4 arg5 harg5 arg6 harg6 hc0 hc1 x0 x1 xs0).2.1)

theorem cover1_C_2 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S2048x1024 .bf16) (x1 : Vec F S2048x1024 .bf16) (xs0 : Vec F S1024x1024 .f32) (y : S1024x1024.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1024x1024.size (by sl_kernel_rfl) y
/-- The output block after the last batch block. -/
def out1_C_2 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S2048x1024 .bf16) (x1 : Vec F S2048x1024 .bf16) (xs0 : Vec F S1024x1024 .f32) : Vec F S1024x1024 .f32 :=
  VO1.read (Elt F) (VO1.writes (Elt F) VO1.junk (kernelRun1_C c i arg3 harg3 arg4 harg4 arg5 harg5 arg6 harg6 hc0 hc1 x0 x1 xs0).1)
theorem scover1_C (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S2048x1024 .bf16) (x1 : Vec F S2048x1024 .bf16) (xs0 : Vec F S1024x1024 .f32) (y : S1024x1024.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S1024x1024.size (by sl_kernel_rfl) y
/-- The tile after the last batch block. -/
def sout1_C (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S2048x1024 .bf16) (x1 : Vec F S2048x1024 .bf16) (xs0 : Vec F S1024x1024 .f32) : Vec F S1024x1024 .f32 :=
  VS1.read (Elt F) (VS1.writes (Elt F) VS1.junk (kernelRun1_C c i arg3 harg3 arg4 harg4 arg5 harg5 arg6 harg6 hc0 hc1 x0 x1 xs0).2.1)

/-! ## The accumulation over the grid points -/

/-- What the output block and the tile hold after the body at position `n`: the case the position's batch block selects,
    run on the point's input blocks, the tile taken from what the position before left. -/
def outsAt1 (c : Dev nD) : (n : ℕ) → n < cfg1.N → Vec F S1024x1024 .f32 × Vec F S1024x1024 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t), sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point every scoped buffer at anything; afterwards the tile at what
    the point before left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the position's batch block selects the case; the invariant hands the body the tile at what the
    point before left (at anything at the first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 8 := lt_of_lt_of_eq t.isLt (show cfg1.N = 8 from N_1)
  by_cases h0 : t.val % 4 = 0
  · by_cases h1 : t.val % 4 = 3
    · exfalso; omega
    · rw [Dat.leavesExact_idle (dat1 V c) 2 t (idleAt1_2 t (fun h => h1 ((hcond1_1 t).mp h))) (noFlush1_2 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A c _ _ _ _ _ _ _ _ _ _ _ _ _)
            iexact HR
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A c _ _ _ _ _ _ _ _ _ _ _ _ _)
            iexact HR
          iexact Hg
        isplitl [Ho]; · iexact Ho
        isplitl [H0]; · iexact H0
        isplitl [H1]; · iexact H1
        iexists _; iexact H2
  · have hz : t.val ≠ 0 := fun e => h0 (by rw [e])
    by_cases h1 : t.val % 4 = 3
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C; (try dsimp only)
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the tile's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 8 := N_1; omega), PhiA1_eq]
  iintro ⟨⟨HS0, HR⟩, Hg⟩
  isplitl [HS0 HR]
  · isplitl [HS0]
    · iexists _; iexact HS0
    iexact HR
  iexact Hg

end Cert.KernelIdeal.Gen

end
-- ==== Proof.KIRun2.lean ====
/-
  Region 2 of the program: one co-activation product, at the buffer contents `V` the region is entered with.  The grid
  is (row blocks of the result) × (column blocks of the result) × (4 blocks of 2048 batch rows), the batch axis innermost.
  A scratch tile of 1024×1024 is carried between grid points: at a batch block 0 it is reset to zero and the block's
  product AᵀB added; at blocks 1, 2 the product is added to what the point before left; at block 3 the product is added
  and the tile copied into the output block, which is written back at those points only (elsewhere the output window is
  idle).  So the body has three control cases, and the invariant between points names the tile's contents.
-/
import proofs.«114003_j36704790511729_2_alg».proof.Proof.Gen.KernelIdeal.Launch
import proofs.«114003_j36704790511729_2_alg».proof.Proof.Gen.KernelIdeal.Skeleton
import proofs.«114003_j36704790511729_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, decided over the grid -/

/-- "This is the first batch block": the body's first `scf.if`, from the grid coordinates. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- "This is the last batch block": the body's second `scf.if`. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
/-- Away from the last batch block the output window is idle and not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- At the last batch block it is live. -/
theorem liveAt2_2 : ∀ t : Fin cfg2.N, cond2_1 (grid2.coords t) → cfg2.idle 2 (grid2.coords t) = false := by decide +kernel

/-! ## The staging and scratch memrefs -/

abbrev VO2 : View sig .tc .vmem S1024x1024 .f32 := (Memref.whole cc2_stg2_0 : Memref sig .tc .vmem S1024x1024 .f32).view
abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1024 .f32 := win2_2.stage (cfg2.slots t 2)
abbrev hs2_2 (t : Fin cfg2.N) : (ms2_2 t).IsWhole := hstage2_2 ((cfg2.slots t 2).cast nbuf2_2)
/-- The accumulator tile: a whole scoped buffer of the kernel's own. -/
abbrev scM2 : Memref sig .tc .vmem S1024x1024 .f32 := Memref.whole cc2_scratch0
abbrev VS2 : View sig .tc .vmem S1024x1024 .f32 := (scM2).view

/-- The class invariant with the accumulator tile as a memref owned at some contents, the other scoped buffers unopened. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-! ## The body's triple, case by case; the pieces each buffer ends with are found by the run -/

set_option maxHeartbeats 4000000 in
/-- First batch block: the tile at anything is reset and the block's product added; the idle output is handed back. -/
noncomputable def kernelRun2_A (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond2_0 i) (hc1 : ¬cond2_1 i)
    (x0 : Vec F S2048x1024 .bf16) (x1 : Vec F S2048x1024 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__coact_kernel i arg3 harg3 arg4 harg4 arg5 harg5 arg6 harg6) K } := by
  refine ⟨[], ?_, fun xi2 E K => ?run⟩
  case run =>
    simp only [cc2__coact_kernel_eq_skeleton]; unfold cc2__coact_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 4000000 in
/-- A middle batch block: the block's product is added to the tile as the point before left it. -/
noncomputable def kernelRun2_B (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : ¬cond2_1 i)
    (x0 : Vec F S2048x1024 .bf16) (x1 : Vec F S2048x1024 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__coact_kernel i arg3 harg3 arg4 harg4 arg5 harg5 arg6 harg6) K } := by
  refine ⟨[], ?_, fun xi2 E K => ?run⟩
  case run =>
    simp only [cc2__coact_kernel_eq_skeleton]; unfold cc2__coact_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 4000000 in
/-- The last batch block: the product is added and the tile copied into the output block. -/
noncomputable def kernelRun2_C (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 : Vec F S2048x1024 .bf16) (x1 : Vec F S2048x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc2__coact_kernel i arg3 harg3 arg4 harg4 arg5 harg5 arg6 harg6) K } := by
  refine ⟨?_, ?_, fun E K => ?run⟩
  case run =>
    simp only [cc2__coact_kernel_eq_skeleton]; unfold cc2__coact_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Gen

end
-- ==== Proof.KIFrame2.lean ====
/-
  Region 2, continued: what each control case leaves in the output block and in the accumulator tile (read off the
  pieces the case's run ends with), the tile's contents after every grid point by recursion on the point, the invariant
  between points (the tile at those contents, the other scoped buffers and the generator register untouched), the proof
  data of the pipeline and the body obligation at every point.
-/
import proofs.«114003_j36704790511729_2_alg».proof.Proof.KIRun2

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- First batch block: nothing is stored into the output block (a placeholder nothing consults). -/
def out2_A_2 (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond2_0 i) (hc1 : ¬cond2_1 i)
    (x0 : Vec F S2048x1024 .bf16) (x1 : Vec F S2048x1024 .bf16) : Vec F S1024x1024 .f32 :=
  VO2.read (Elt F) (VO2.writes (Elt F) VO2.junk (kernelRun2_A c i arg3 harg3 arg4 harg4 arg5 harg5 arg6 harg6 hc0 hc1 x0 x1).1)
theorem scover2_A (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond2_0 i) (hc1 : ¬cond2_1 i)
    (x0 : Vec F S2048x1024 .bf16) (x1 : Vec F S2048x1024 .bf16) (y : S1024x1024.Idx) :
    ∃ pc ∈ (kernelRun2_A c i arg3 harg3 arg4 harg4 arg5 harg5 arg6 harg6 hc0 hc1 x0 x1).2.1, y ∈ pc.1.set :=
  View.cover_of_tiledL (kernelRun2_A c i arg3 harg3 arg4 harg4 arg5 harg5 arg6 harg6 hc0 hc1 x0 x1).2.1 S1024x1024.size (by sl_kernel_rfl) y
/-- The tile after a first batch block. -/
def sout2_A (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond2_0 i) (hc1 : ¬cond2_1 i)
    (x0 : Vec F S2048x1024 .bf16) (x1 : Vec F S2048x1024 .bf16) : Vec F S1024x1024 .f32 :=
  VS2.read (Elt F) (VS2.writes (Elt F) VS2.junk (kernelRun2_A c i arg3 harg3 arg4 harg4 arg5 harg5 arg6 harg6 hc0 hc1 x0 x1).2.1)

def out2_B_2 (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : ¬cond2_1 i)
    (x0 : Vec F S2048x1024 .bf16) (x1 : Vec F S2048x1024 .bf16) (xs0 : Vec F S1024x1024 .f32) : Vec F S1024x1024 .f32 :=
  VO2.read (Elt F) (VO2.writes (Elt F) VO2.junk (kernelRun2_B c i arg3 harg3 arg4 harg4 arg5 harg5 arg6 harg6 hc0 hc1 x0 x1 xs0).1)
theorem scover2_B (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : ¬cond2_1 i)
    (x0 : Vec F S2048x1024 .bf16) (x1 : Vec F S2048x1024 .bf16) (xs0 : Vec F S1024x1024 .f32) (y : S1024x1024.Idx) :
    ∃ pc ∈ (kernelRun2_B c i arg3 harg3 arg4 harg4 arg5 harg5 arg6 harg6 hc0 hc1 x0 x1 xs0).2.1, y ∈ pc.1.set :=
  View.cover_of_tiledL (kernelRun2_B c i arg3 harg3 arg4 harg4 arg5 harg5 arg6 harg6 hc0 hc1 x0 x1 xs0).2.1 S1024x1024.size (by sl_kernel_rfl) y
/-- The tile after a middle batch block, from the tile before it. -/
def sout2_B (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : ¬cond2_1 i)
    (x0 : Vec F S2048x1024 .bf16) (x1 : Vec F S2048x1024 .bf16) (xs0 : Vec F S1024x1024 .f32) : Vec F S1024x1024 .f32 :=
  VS2.read (Elt F) (VS2.writes (Elt F) VS2.junk (kernelRun2_B c i arg3 harg3 arg4 harg4 arg5 harg5 arg6 harg6 hc0 hc1 x0 x1 xs0).2.1)

theorem cover2_C_2 (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 : Vec F S2048x1024 .bf16) (x1 : Vec F S2048x1024 .bf16) (xs0 : Vec F S1024x1024 .f32) (y : S1024x1024.Idx) :
    ∃ pc ∈ (kernelRun2_C c i arg3 harg3 arg4 harg4 arg5 harg5 arg6 harg6 hc0 hc1 x0 x1 xs0).1, y ∈ pc.1.set :=
  View.cover_of_tiledL (kernelRun2_C c i arg3 harg3 arg4 harg4 arg5 harg5 arg6 harg6 hc0 hc1 x0 x1 xs0).1 S1024x1024.size (by sl_kernel_rfl) y
/-- The output block after the last batch block. -/
def out2_C_2 (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 : Vec F S2048x1024 .bf16) (x1 : Vec F S2048x1024 .bf16) (xs0 : Vec F S1024x1024 .f32) : Vec F S1024x1024 .f32 :=
  VO2.read (Elt F) (VO2.writes (Elt F) VO2.junk (kernelRun2_C c i arg3 harg3 arg4 harg4 arg5 harg5 arg6 harg6 hc0 hc1 x0 x1 xs0).1)
theorem scover2_C (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 : Vec F S2048x1024 .bf16) (x1 : Vec F S2048x1024 .bf16) (xs0 : Vec F S1024x1024 .f32) (y : S1024x1024.Idx) :
    ∃ pc ∈ (kernelRun2_C c i arg3 harg3 arg4 harg4 arg5 harg5 arg6 harg6 hc0 hc1 x0 x1 xs0).2.1, y ∈ pc.1.set :=
  View.cover_of_tiledL (kernelRun2_C c i arg3 harg3 arg4 harg4 arg5 harg5 arg6 harg6 hc0 hc1 x0 x1 xs0).2.1 S1024x1024.size (by sl_kernel_rfl) y
/-- The tile after the last batch block. -/
def sout2_C (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 : Vec F S2048x1024 .bf16) (x1 : Vec F S2048x1024 .bf16) (xs0 : Vec F S1024x1024 .f32) : Vec F S1024x1024 .f32 :=
  VS2.read (Elt F) (VS2.writes (Elt F) VS2.junk (kernelRun2_C c i arg3 harg3 arg4 harg4 arg5 harg5 arg6 harg6 hc0 hc1 x0 x1 xs0).2.1)

/-! ## The accumulation over the grid points -/

/-- What the output block and the tile hold after the body at position `n`: the case the position's batch block selects,
    run on the point's input blocks, the tile taken from what the position before left. -/
def outsAt2 (c : Dev nD) : (n : ℕ) → n < cfg2.N → Vec F S1024x1024 .f32 × Vec F S1024x1024 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 4 = 0 then
      if h1 : (n + 1) % 4 = 3 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 4 = 3 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (out2_A_2 c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t), sout2_A c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_B_2 c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_2 c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point every scoped buffer at anything; afterwards the tile at what
    the point before left, the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the position's batch block selects the case; the invariant hands the body the tile at what the
    point before left (at anything at the first point) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 16 := lt_of_lt_of_eq t.isLt (show cfg2.N = 16 from N_2)
  by_cases h0 : t.val % 4 = 0
  · by_cases h1 : t.val % 4 = 3
    · exfalso; omega
    · rw [Dat.leavesExact_idle (dat2 V c) 2 t (idleAt2_2 t (fun h => h1 ((hcond2_1 t).mp h))) (noFlush2_2 t (fun h => h1 ((hcond2_1 t).mp h)))]
      rw [outsAt2_A V c t h0 h1]
      unfold sout2_A; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A c _ _ _ _ _ _ _ _ _ _ _ _ _)
            iexact HR
          iexact Hg
        isplitl [Ho]; · iexact Ho
        isplitl [H0]; · iexact H0
        isplitl [H1]; · iexact H1
        iexists _; iexact H2
      · rw [PhiS2_castSucc V c t, PhiS2_pos V c _ _ hz]
        iintro ⟨⟨⟨HS0, HR⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A c _ _ _ _ _ _ _ _ _ _ _ _ _)
            iexact HR
          iexact Hg
        isplitl [Ho]; · iexact Ho
        isplitl [H0]; · iexact H0
        isplitl [H1]; · iexact H1
        iexists _; iexact H2
  · have hz : t.val ≠ 0 := fun e => h0 (by rw [e])
    by_cases h1 : t.val % 4 = 3
    · rw [show (dat2 V c).leavesExact 2 t = owns (c : Thread nD τ) (ms2_2 t) fullShare ((dat2 V c).after 2 t) from by
        unfold Dat.leavesExact; rw [liveAt2_2 t ((hcond2_1 t).mpr h1)], after2_2]
      rw [outsAt2_C V c t h0 h1]
      unfold out2_C_2 sout2_C; (try dsimp only)
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _)
    · rw [Dat.leavesExact_idle (dat2 V c) 2 t (idleAt2_2 t (fun h => h1 ((hcond2_1 t).mp h))) (noFlush2_2 t (fun h => h1 ((hcond2_1 t).mp h)))]
      rw [outsAt2_B V c t h0 h1]
      unfold sout2_B; (try dsimp only)
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the tile's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 16 := N_2; omega), PhiA2_eq]
  iintro ⟨⟨HS0, HR⟩, Hg⟩
  isplitl [HS0 HR]
  · isplitl [HS0]
    · iexists _; iexact HS0
    iexact HR
  iexact Hg

end Cert.KernelIdeal.Gen

end
-- ==== Proof.KIRun3.lean ====
/-
  Region 3 of the program: one co-activation product, at the buffer contents `V` the region is entered with.  The grid
  is (row blocks of the result) × (column blocks of the result) × (4 blocks of 2048 batch rows), the batch axis innermost.
  A scratch tile of 1024×1024 is carried between grid points: at a batch block 0 it is reset to zero and the block's
  product AᵀB added; at blocks 1, 2 the product is added to what the point before left; at block 3 the product is added
  and the tile copied into the output block, which is written back at those points only (elsewhere the output window is
  idle).  So the body has three control cases, and the invariant between points names the tile's contents.
-/
import proofs.«114003_j36704790511729_2_alg».proof.Proof.Gen.KernelIdeal.Launch
import proofs.«114003_j36704790511729_2_alg».proof.Proof.Gen.KernelIdeal.Skeleton
import proofs.«114003_j36704790511729_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branch conditions, decided over the grid -/

/-- "This is the first batch block": the body's first `scf.if`, from the grid coordinates. -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)
/-- "This is the last batch block": the body's second `scf.if`. -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

theorem liveAt3_0 : ∀ t : Fin cfg3.N, cfg3.idle 0 (grid3.coords t) = false := fun _ => rfl
theorem liveAt3_1 : ∀ t : Fin cfg3.N, cfg3.idle 1 (grid3.coords t) = false := fun _ => rfl
/-- Away from the last batch block the output window is idle and not written back. -/
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
/-- At the last batch block it is live. -/
theorem liveAt3_2 : ∀ t : Fin cfg3.N, cond3_1 (grid3.coords t) → cfg3.idle 2 (grid3.coords t) = false := by decide +kernel

/-! ## The staging and scratch memrefs -/

abbrev VO3 : View sig .tc .vmem S1024x1024 .f32 := (Memref.whole cc3_stg2_0 : Memref sig .tc .vmem S1024x1024 .f32).view
abbrev ms3_0 (t : Fin cfg3.N) : Memref sig .tc .vmem S2048x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x1024 .f32 := win3_2.stage (cfg3.slots t 2)
abbrev hs3_2 (t : Fin cfg3.N) : (ms3_2 t).IsWhole := hstage3_2 ((cfg3.slots t 2).cast nbuf3_2)
/-- The accumulator tile: a whole scoped buffer of the kernel's own. -/
abbrev scM3 : Memref sig .tc .vmem S1024x1024 .f32 := Memref.whole cc3_scratch0
abbrev VS3 : View sig .tc .vmem S1024x1024 .f32 := (scM3).view

/-- The class invariant with the accumulator tile as a memref owned at some contents, the other scoped buffers unopened. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-! ## The body's triple, case by case; the pieces each buffer ends with are found by the run -/

set_option maxHeartbeats 4000000 in
/-- First batch block: the tile at anything is reset and the block's product added; the idle output is handed back. -/
noncomputable def kernelRun3_A (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (hc1 : ¬cond3_1 i)
    (x0 : Vec F S2048x1024 .bf16) (x1 : Vec F S2048x1024 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc3__coact_kernel i arg3 harg3 arg4 harg4 arg5 harg5 arg6 harg6) K } := by
  refine ⟨[], ?_, fun xi2 E K => ?run⟩
  case run =>
    simp only [cc3__coact_kernel_eq_skeleton]; unfold cc3__coact_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 4000000 in
/-- A middle batch block: the block's product is added to the tile as the point before left it. -/
noncomputable def kernelRun3_B (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : ¬cond3_1 i)
    (x0 : Vec F S2048x1024 .bf16) (x1 : Vec F S2048x1024 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc3__coact_kernel i arg3 harg3 arg4 harg4 arg5 harg5 arg6 harg6) K } := by
  refine ⟨[], ?_, fun xi2 E K => ?run⟩
  case run =>
    simp only [cc3__coact_kernel_eq_skeleton]; unfold cc3__coact_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 4000000 in
/-- The last batch block: the product is added and the tile copied into the output block. -/
noncomputable def kernelRun3_C (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S2048x1024 .bf16) (x1 : Vec F S2048x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc3__coact_kernel i arg3 harg3 arg4 harg4 arg5 harg5 arg6 harg6) K } := by
  refine ⟨?_, ?_, fun E K => ?run⟩
  case run =>
    simp only [cc3__coact_kernel_eq_skeleton]; unfold cc3__coact_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Gen

end
-- ==== Proof.KIFrame3.lean ====
/-
  Region 3, continued: what each control case leaves in the output block and in the accumulator tile (read off the
  pieces the case's run ends with), the tile's contents after every grid point by recursion on the point, the invariant
  between points (the tile at those contents, the other scoped buffers and the generator register untouched), the proof
  data of the pipeline and the body obligation at every point.
-/
import proofs.«114003_j36704790511729_2_alg».proof.Proof.KIRun3

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- First batch block: nothing is stored into the output block (a placeholder nothing consults). -/
def out3_A_2 (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (hc1 : ¬cond3_1 i)
    (x0 : Vec F S2048x1024 .bf16) (x1 : Vec F S2048x1024 .bf16) : Vec F S1024x1024 .f32 :=
  VO3.read (Elt F) (VO3.writes (Elt F) VO3.junk (kernelRun3_A c i arg3 harg3 arg4 harg4 arg5 harg5 arg6 harg6 hc0 hc1 x0 x1).1)
theorem scover3_A (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (hc1 : ¬cond3_1 i)
    (x0 : Vec F S2048x1024 .bf16) (x1 : Vec F S2048x1024 .bf16) (y : S1024x1024.Idx) :
    ∃ pc ∈ (kernelRun3_A c i arg3 harg3 arg4 harg4 arg5 harg5 arg6 harg6 hc0 hc1 x0 x1).2.1, y ∈ pc.1.set :=
  View.cover_of_tiledL (kernelRun3_A c i arg3 harg3 arg4 harg4 arg5 harg5 arg6 harg6 hc0 hc1 x0 x1).2.1 S1024x1024.size (by sl_kernel_rfl) y
/-- The tile after a first batch block. -/
def sout3_A (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (hc1 : ¬cond3_1 i)
    (x0 : Vec F S2048x1024 .bf16) (x1 : Vec F S2048x1024 .bf16) : Vec F S1024x1024 .f32 :=
  VS3.read (Elt F) (VS3.writes (Elt F) VS3.junk (kernelRun3_A c i arg3 harg3 arg4 harg4 arg5 harg5 arg6 harg6 hc0 hc1 x0 x1).2.1)

def out3_B_2 (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : ¬cond3_1 i)
    (x0 : Vec F S2048x1024 .bf16) (x1 : Vec F S2048x1024 .bf16) (xs0 : Vec F S1024x1024 .f32) : Vec F S1024x1024 .f32 :=
  VO3.read (Elt F) (VO3.writes (Elt F) VO3.junk (kernelRun3_B c i arg3 harg3 arg4 harg4 arg5 harg5 arg6 harg6 hc0 hc1 x0 x1 xs0).1)
theorem scover3_B (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : ¬cond3_1 i)
    (x0 : Vec F S2048x1024 .bf16) (x1 : Vec F S2048x1024 .bf16) (xs0 : Vec F S1024x1024 .f32) (y : S1024x1024.Idx) :
    ∃ pc ∈ (kernelRun3_B c i arg3 harg3 arg4 harg4 arg5 harg5 arg6 harg6 hc0 hc1 x0 x1 xs0).2.1, y ∈ pc.1.set :=
  View.cover_of_tiledL (kernelRun3_B c i arg3 harg3 arg4 harg4 arg5 harg5 arg6 harg6 hc0 hc1 x0 x1 xs0).2.1 S1024x1024.size (by sl_kernel_rfl) y
/-- The tile after a middle batch block, from the tile before it. -/
def sout3_B (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : ¬cond3_1 i)
    (x0 : Vec F S2048x1024 .bf16) (x1 : Vec F S2048x1024 .bf16) (xs0 : Vec F S1024x1024 .f32) : Vec F S1024x1024 .f32 :=
  VS3.read (Elt F) (VS3.writes (Elt F) VS3.junk (kernelRun3_B c i arg3 harg3 arg4 harg4 arg5 harg5 arg6 harg6 hc0 hc1 x0 x1 xs0).2.1)

theorem cover3_C_2 (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S2048x1024 .bf16) (x1 : Vec F S2048x1024 .bf16) (xs0 : Vec F S1024x1024 .f32) (y : S1024x1024.Idx) :
    ∃ pc ∈ (kernelRun3_C c i arg3 harg3 arg4 harg4 arg5 harg5 arg6 harg6 hc0 hc1 x0 x1 xs0).1, y ∈ pc.1.set :=
  View.cover_of_tiledL (kernelRun3_C c i arg3 harg3 arg4 harg4 arg5 harg5 arg6 harg6 hc0 hc1 x0 x1 xs0).1 S1024x1024.size (by sl_kernel_rfl) y
/-- The output block after the last batch block. -/
def out3_C_2 (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S2048x1024 .bf16) (x1 : Vec F S2048x1024 .bf16) (xs0 : Vec F S1024x1024 .f32) : Vec F S1024x1024 .f32 :=
  VO3.read (Elt F) (VO3.writes (Elt F) VO3.junk (kernelRun3_C c i arg3 harg3 arg4 harg4 arg5 harg5 arg6 harg6 hc0 hc1 x0 x1 xs0).1)
theorem scover3_C (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S2048x1024 .bf16) (x1 : Vec F S2048x1024 .bf16) (xs0 : Vec F S1024x1024 .f32) (y : S1024x1024.Idx) :
    ∃ pc ∈ (kernelRun3_C c i arg3 harg3 arg4 harg4 arg5 harg5 arg6 harg6 hc0 hc1 x0 x1 xs0).2.1, y ∈ pc.1.set :=
  View.cover_of_tiledL (kernelRun3_C c i arg3 harg3 arg4 harg4 arg5 harg5 arg6 harg6 hc0 hc1 x0 x1 xs0).2.1 S1024x1024.size (by sl_kernel_rfl) y
/-- The tile after the last batch block. -/
def sout3_C (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S2048x1024 .bf16) (x1 : Vec F S2048x1024 .bf16) (xs0 : Vec F S1024x1024 .f32) : Vec F S1024x1024 .f32 :=
  VS3.read (Elt F) (VS3.writes (Elt F) VS3.junk (kernelRun3_C c i arg3 harg3 arg4 harg4 arg5 harg5 arg6 harg6 hc0 hc1 x0 x1 xs0).2.1)

/-! ## The accumulation over the grid points -/

/-- What the output block and the tile hold after the body at position `n`: the case the position's batch block selects,
    run on the point's input blocks, the tile taken from what the position before left. -/
def outsAt3 (c : Dev nD) : (n : ℕ) → n < cfg3.N → Vec F S1024x1024 .f32 × Vec F S1024x1024 .f32
  | 0, hn => (out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩), sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩))
  | n + 1, hn =>
    if h0 : (n + 1) % 4 = 0 then
      if h1 : (n + 1) % 4 = 3 then
        False.elim (by omega)
      else
        (out3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩), sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩))
    else
      if h1 : (n + 1) % 4 = 3 then
        (out3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2, sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2)
      else
        (out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

theorem outsAt3_A (c : Dev nD) (t : Fin cfg3.N) (h0 : t.val % 4 = 0) (h1 : ¬t.val % 4 = 3) :
    outsAt3 V c t.val t.isLt = (out3_A_2 c (grid3.coords t) (ms3_0 t) (hs3_0 t) (ms3_1 t) (hs3_1 t) (ms3_2 t) (hs3_2 t) scM3 (Memref.isWhole_whole _) ((hcond3_0 t).mpr h0) (fun h => h1 ((hcond3_1 t).mp h)) (iblk3 V c 0 t) (iblk3 V c 1 t), sout3_A c (grid3.coords t) (ms3_0 t) (hs3_0 t) (ms3_1 t) (hs3_1 t) (ms3_2 t) (hs3_2 t) scM3 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (dif_pos h0).trans ((dif_neg h1).trans rfl)

theorem outsAt3_B (c : Dev nD) (t : Fin cfg3.N) (h0 : ¬t.val % 4 = 0) (h1 : ¬t.val % 4 = 3) :
    outsAt3 V c t.val t.isLt = (out3_B_2 c (grid3.coords t) (ms3_0 t) (hs3_0 t) (ms3_1 t) (hs3_1 t) (ms3_2 t) (hs3_2 t) scM3 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2, sout3_B c (grid3.coords t) (ms3_0 t) (hs3_0 t) (ms3_1 t) (hs3_1 t) (ms3_2 t) (hs3_2 t) scM3 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 4 = 0) (h1 : t.val % 4 = 3) :
    outsAt3 V c t.val t.isLt = (out3_C_2 c (grid3.coords t) (ms3_0 t) (hs3_0 t) (ms3_1 t) (hs3_1 t) (ms3_2 t) (hs3_2 t) scM3 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2, sout3_C c (grid3.coords t) (ms3_0 t) (hs3_0 t) (ms3_1 t) (hs3_1 t) (ms3_2 t) (hs3_2 t) scM3 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point every scoped buffer at anything; afterwards the tile at what
    the point before left, the other scoped buffers at anything, the generator register at some state. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) scM3 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the position's batch block selects the case; the invariant hands the body the tile at what the
    point before left (at anything at the first point) and takes it back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  have hN : t.val < 8 := lt_of_lt_of_eq t.isLt (show cfg3.N = 8 from N_3)
  by_cases h0 : t.val % 4 = 0
  · by_cases h1 : t.val % 4 = 3
    · exfalso; omega
    · rw [Dat.leavesExact_idle (dat3 V c) 2 t (idleAt3_2 t (fun h => h1 ((hcond3_1 t).mp h))) (noFlush3_2 t (fun h => h1 ((hcond3_1 t).mp h)))]
      rw [outsAt3_A V c t h0 h1]
      unfold sout3_A; (try dsimp only)
      by_cases hz : t.val = 0
      · rw [PhiS3_castSucc V c t, PhiS3_zero V c _ _ hz, PhiA3_eq]
        iintro ⟨⟨⟨HS0, HR⟩, Hg⟩, Ho, ⟨%d0, H0⟩, ⟨%d1, H1⟩, ⟨%d2, H2⟩⟩
        iapply ((kernelRun3_A c (grid3.coords t) _ _ _ _ _ _ _ _ ((hcond3_0 t).mpr h0) (fun h => h1 ((hcond3_1 t).mp h)) (iblk3 V c 0 t) (iblk3 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A c _ _ _ _ _ _ _ _ _ _ _ _ _)
            iexact HR
          iexact Hg
        isplitl [Ho]; · iexact Ho
        isplitl [H0]; · iexact H0
        isplitl [H1]; · iexact H1
        iexists _; iexact H2
      · rw [PhiS3_castSucc V c t, PhiS3_pos V c _ _ hz]
        iintro ⟨⟨⟨HS0, HR⟩, Hg⟩, Ho, ⟨%d0, H0⟩, ⟨%d1, H1⟩, ⟨%d2, H2⟩⟩
        iapply ((kernelRun3_A c (grid3.coords t) _ _ _ _ _ _ _ _ ((hcond3_0 t).mpr h0) (fun h => h1 ((hcond3_1 t).mp h)) (iblk3 V c 0 t) (iblk3 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A c _ _ _ _ _ _ _ _ _ _ _ _ _)
            iexact HR
          iexact Hg
        isplitl [Ho]; · iexact Ho
        isplitl [H0]; · iexact H0
        isplitl [H1]; · iexact H1
        iexists _; iexact H2
  · have hz : t.val ≠ 0 := fun e => h0 (by rw [e])
    by_cases h1 : t.val % 4 = 3
    · rw [show (dat3 V c).leavesExact 2 t = owns (c : Thread nD τ) (ms3_2 t) fullShare ((dat3 V c).after 2 t) from by
        unfold Dat.leavesExact; rw [liveAt3_2 t ((hcond3_1 t).mpr h1)], after3_2]
      rw [outsAt3_C V c t h0 h1]
      unfold out3_C_2 sout3_C; (try dsimp only)
      rw [PhiS3_castSucc V c t, PhiS3_pos V c _ _ hz]
      iintro ⟨⟨⟨HS0, HR⟩, Hg⟩, Ho, ⟨%d0, H0⟩, ⟨%d1, H1⟩, ⟨%d2, H2⟩⟩
      iapply ((kernelRun3_C c (grid3.coords t) _ _ _ _ _ _ _ _ (fun h => h0 ((hcond3_0 t).mp h)) ((hcond3_1 t).mpr h1) (iblk3 V c 0 t) (iblk3 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C_2 c _ _ _ _ _ _ _ _ _ _ _ _ _ _)
    · rw [Dat.leavesExact_idle (dat3 V c) 2 t (idleAt3_2 t (fun h => h1 ((hcond3_1 t).mp h))) (noFlush3_2 t (fun h => h1 ((hcond3_1 t).mp h)))]
      rw [outsAt3_B V c t h0 h1]
      unfold sout3_B; (try dsimp only)
      rw [PhiS3_castSucc V c t, PhiS3_pos V c _ _ hz]
      iintro ⟨⟨⟨HS0, HR⟩, Hg⟩, Ho, ⟨%d0, H0⟩, ⟨%d1, H1⟩, ⟨%d2, H2⟩⟩
      iapply ((kernelRun3_B c (grid3.coords t) _ _ _ _ _ _ _ _ (fun h => h0 ((hcond3_0 t).mp h)) (fun h => h1 ((hcond3_1 t).mp h)) (iblk3 V c 0 t) (iblk3 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class invariant back: the tile's contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 8 := N_3; omega), PhiA3_eq]
  iintro ⟨⟨HS0, HR⟩, Hg⟩
  isplitl [HS0 HR]
  · isplitl [HS0]
    · iexists _; iexact HS0
    iexact HR
  iexact Hg

end Cert.KernelIdeal.Gen

end
-- ==== Proof.KIRunAll.lean ====
/-
  The run of @main: four short stretches of host operations (two scalar constants, the zero-padding of the classifier's
  weights and bias to 1024 classes), the forward region, the three co-activation regions, and two slices back to 1000
  classes.  The buffer contents at each of the ten boundaries are named by a fold from the launch memory: a host stretch
  applies its operations, a region replaces its windows' arrays by what its pipeline leaves.  Every weakly fair execution
  terminates in a memory whose unscoped buffers hold the last boundary's contents.
-/
import proofs.«114003_j36704790511729_2_alg».proof.Proof.KIRegion0
import proofs.«114003_j36704790511729_2_alg».proof.Proof.KIFrame1
import proofs.«114003_j36704790511729_2_alg».proof.Proof.KIFrame2
import proofs.«114003_j36704790511729_2_alg».proof.Proof.KIFrame3

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)
abbrev B1 : Dev nD → Valuation τ sig (Elt F) := fun c => StableHlo.after hostOps0 (B0 m ρ c)
abbrev B2 : Dev nD → Valuation τ sig (Elt F) := fun c => StableHlo.after hostOps0_1 (B1 m ρ c)
abbrev B3 : Dev nD → Valuation τ sig (Elt F) := fun c => StableHlo.after hostOps0_2 (B2 m ρ c)
/-- After the four host stretches: the forward region's entry. -/
abbrev B4 : Dev nD → Valuation τ sig (Elt F) := fun c => StableHlo.after hostOps0_3 (B3 m ρ c)
abbrev BV4 : (c : Dev nD) → (b : Ref sig .tc) → Buf (Elt F) ((c : Thread nD τ).loc b) := fun c b => B4 m ρ c b

/-- At region 0's exit: its arrays at what the pipeline leaves, every other buffer as entered. -/
def B5 (c : Dev nD) : Valuation τ sig (Elt F) :=
  Pipeline.withArrays spec0 c (B4 m ρ c) fun w => (dat0 (BV4 m ρ) c).arrAt w cfg0.N
theorem B5_arr (c : Dev nD) (w : Fin cfg0.W) :
    B5 m ρ c (Proc.devRef .tc (Pipeline.arrRef spec0 w)) = (dat0 (BV4 m ρ) c).arrAt w cfg0.N := by
  unfold B5; exact Pipeline.withArrays_arr spec0 launch0.win.arr_inj c _ _ w
theorem B5_of_ne (c : Dev nD) (b : Ref sig .tc) (hb : ∀ w, Pipeline.arrRef spec0 w ≠ b) :
    B5 m ρ c (Proc.devRef .tc b) = B4 m ρ c (Proc.devRef .tc b) := by
  unfold B5; exact Pipeline.withArrays_of_ne spec0 c _ _ b hb
/-- The same read at the TensorCore's references. -/
abbrev BV5 : (c : Dev nD) → (b : Ref sig .tc) → Buf (Elt F) ((c : Thread nD τ).loc b) := fun c b => B5 m ρ c b
theorem hF0 (c : Dev nD) (w : Fin cfg0.W) : (dat0 (BV4 m ρ) c).arrAt w cfg0.N = BV5 m ρ c (Pipeline.arrRef spec0 w) :=
  (B5_arr m ρ c w).symm
theorem hrest0 (c : Dev nD) : ∀ b, b ∉ Finset.univ.image (Pipeline.arrRef spec0) → BV5 m ρ c b = BV4 m ρ c b :=
  fun b hb => B5_of_ne m ρ c b fun w e => hb (Finset.mem_image.mpr ⟨w, Finset.mem_univ _, e⟩)

/-- At region 1's exit: its arrays at what the pipeline leaves, every other buffer as entered. -/
def B6 (c : Dev nD) : Valuation τ sig (Elt F) :=
  Pipeline.withArrays spec1 c (B5 m ρ c) fun w => (dat1 (BV5 m ρ) c).arrAt w cfg1.N
theorem B6_arr (c : Dev nD) (w : Fin cfg1.W) :
    B6 m ρ c (Proc.devRef .tc (Pipeline.arrRef spec1 w)) = (dat1 (BV5 m ρ) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m ρ c (Proc.devRef .tc b) = B5 m ρ c (Proc.devRef .tc b) := by
  unfold B6; exact Pipeline.withArrays_of_ne spec1 c _ _ b hb
/-- The same read at the TensorCore's references. -/
abbrev BV6 : (c : Dev nD) → (b : Ref sig .tc) → Buf (Elt F) ((c : Thread nD τ).loc b) := fun c b => B6 m ρ c b
theorem hF1 (c : Dev nD) (w : Fin cfg1.W) : (dat1 (BV5 m ρ) c).arrAt w cfg1.N = BV6 m ρ c (Pipeline.arrRef spec1 w) :=
  (B6_arr m ρ c w).symm
theorem hrest1 (c : Dev nD) : ∀ b, b ∉ Finset.univ.image (Pipeline.arrRef spec1) → BV6 m ρ c b = BV5 m ρ c b :=
  fun b hb => B6_of_ne m ρ c b fun w e => hb (Finset.mem_image.mpr ⟨w, Finset.mem_univ _, e⟩)

/-- At region 2's exit: its arrays at what the pipeline leaves, every other buffer as entered. -/
def B7 (c : Dev nD) : Valuation τ sig (Elt F) :=
  Pipeline.withArrays spec2 c (B6 m ρ c) fun w => (dat2 (BV6 m ρ) c).arrAt w cfg2.N
theorem B7_arr (c : Dev nD) (w : Fin cfg2.W) :
    B7 m ρ c (Proc.devRef .tc (Pipeline.arrRef spec2 w)) = (dat2 (BV6 m ρ) c).arrAt w cfg2.N := by
  unfold B7; exact Pipeline.withArrays_arr spec2 launch2.win.arr_inj c _ _ w
theorem B7_of_ne (c : Dev nD) (b : Ref sig .tc) (hb : ∀ w, Pipeline.arrRef spec2 w ≠ b) :
    B7 m ρ c (Proc.devRef .tc b) = B6 m ρ c (Proc.devRef .tc b) := by
  unfold B7; exact Pipeline.withArrays_of_ne spec2 c _ _ b hb
/-- The same read at the TensorCore's references. -/
abbrev BV7 : (c : Dev nD) → (b : Ref sig .tc) → Buf (Elt F) ((c : Thread nD τ).loc b) := fun c b => B7 m ρ c b
theorem hF2 (c : Dev nD) (w : Fin cfg2.W) : (dat2 (BV6 m ρ) c).arrAt w cfg2.N = BV7 m ρ c (Pipeline.arrRef spec2 w) :=
  (B7_arr m ρ c w).symm
theorem hrest2 (c : Dev nD) : ∀ b, b ∉ Finset.univ.image (Pipeline.arrRef spec2) → BV7 m ρ c b = BV6 m ρ c b :=
  fun b hb => B7_of_ne m ρ c b fun w e => hb (Finset.mem_image.mpr ⟨w, Finset.mem_univ _, e⟩)

/-- At region 3's exit: its arrays at what the pipeline leaves, every other buffer as entered. -/
def B8 (c : Dev nD) : Valuation τ sig (Elt F) :=
  Pipeline.withArrays spec3 c (B7 m ρ c) fun w => (dat3 (BV7 m ρ) c).arrAt w cfg3.N
theorem B8_arr (c : Dev nD) (w : Fin cfg3.W) :
    B8 m ρ c (Proc.devRef .tc (Pipeline.arrRef spec3 w)) = (dat3 (BV7 m ρ) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m ρ c (Proc.devRef .tc b) = B7 m ρ c (Proc.devRef .tc b) := by
  unfold B8; exact Pipeline.withArrays_of_ne spec3 c _ _ b hb
/-- The same read at the TensorCore's references. -/
abbrev BV8 : (c : Dev nD) → (b : Ref sig .tc) → Buf (Elt F) ((c : Thread nD τ).loc b) := fun c b => B8 m ρ c b
theorem hF3 (c : Dev nD) (w : Fin cfg3.W) : (dat3 (BV7 m ρ) c).arrAt w cfg3.N = BV8 m ρ c (Pipeline.arrRef spec3 w) :=
  (B8_arr m ρ c w).symm
theorem hrest3 (c : Dev nD) : ∀ b, b ∉ Finset.univ.image (Pipeline.arrRef spec3) → BV8 m ρ c b = BV7 m ρ c b :=
  fun b hb => B8_of_ne m ρ c b fun w e => hb (Finset.mem_image.mpr ⟨w, Finset.mem_univ _, e⟩)

/-- After the two slices: what the program ends with. -/
abbrev B9 : Dev nD → Valuation τ sig (Elt F) := fun c => StableHlo.after hostOps4 (B8 m ρ c)

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (BV4 m ρ) c
  | ⟨1, _⟩ => fun c => dat1 (BV5 m ρ) c
  | ⟨2, _⟩ => fun c => dat2 (BV6 m ρ) c
  | ⟨3, _⟩ => fun c => dat3 (BV7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops1_fresh : (hostOps0_1 : List (HloOp τ sig (Elt F))).Forall fun op => op.fresh = ∅ := by
  simp only [List.Forall]; repeat' constructor
theorem ops2_fresh : (hostOps0_2 : List (HloOp τ sig (Elt F))).Forall fun op => op.fresh = ∅ := by
  simp only [List.Forall]; repeat' constructor
theorem ops3_fresh : (hostOps0_3 : List (HloOp τ sig (Elt F))).Forall fun op => op.fresh = ∅ := by
  simp only [List.Forall]; repeat' constructor
theorem ops4_fresh : (hostOps4 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (B9 m ρ c) ∗ ∃ r, prngReg c r)

/-! ## The regions as segments -/

set_option backward.isDefEq.respectTransparency.types false in
/-- Region 0 over the thread state: entered with every unscoped buffer at `B4`, left with them at `B5`.  Its
    arrays are split out of the unscoped buffers and put back at what the pipeline leaves; the generator register goes
    into the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (BV4 m ρ) c).loose
  hwaits := Pipeline.hwaits_of_owed_zero _ _ _ _ L lv 0 fun _ _ => rfl
  pre c := iprop(StableHlo.held (c : Thread nD τ) (Pipeline.ucRefs τ sig) (B4 m ρ c) ∗ R c)
  post c := iprop(StableHlo.held (c : Thread nD τ) (Pipeline.ucRefs τ sig) (B5 m ρ c) ∗ R c)
  X c := iprop(∃ r, prngReg c r)
  Y c := iprop(∃ r, prngReg c r)
  Z c := Pipeline.unscopedRest (Ix := Unit) (Name := ℕ) (U := UR sig nD τ) (Lvl := ℕ) spec0 c (BV4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (BV4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (BV4 m ρ c) (BV5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `B5`, left with them at `B6`.  Its
    arrays are split out of the unscoped buffers and put back at what the pipeline leaves; the generator register goes
    into the invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (BV5 m ρ) c).loose
  hwaits := Pipeline.hwaits_of_owed_zero _ _ _ _ L lv 1 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec1 c (BV5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (BV5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show iprop(iprop(∃ r, prngReg c r) ∗ Pipeline.prefHeld (pcfgs (F := F) 1).pre c (fun _ => fullShare) (adm (F := F) 1).1 ∗ Pipeline.scopedRest (Ix := Unit) (Name := ℕ) (U := UR sig nD τ) (Lvl := ℕ) (Val := Elt F) spec1 c) ⊢ (Pipeline.ΦA spec1 c : sProp 𝕄) from by
      unfold Pipeline.ΦA
      iintro ⟨Hp, -, Hr⟩
      isplitl [Hr]; · iexact Hr
      iexact Hp).trans (hin1 (BV5 m ρ) c)
  hout c := (hout1 (BV5 m ρ) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (BV5 m ρ c) (BV6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `B6`, left with them at `B7`.  Its
    arrays are split out of the unscoped buffers and put back at what the pipeline leaves; the generator register goes
    into the invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (BV6 m ρ) c).loose
  hwaits := Pipeline.hwaits_of_owed_zero _ _ _ _ L lv 2 fun _ _ => rfl
  pre c := iprop(StableHlo.held (c : Thread nD τ) (Pipeline.ucRefs τ sig) (B6 m ρ c) ∗ R c)
  post c := iprop(StableHlo.held (c : Thread nD τ) (Pipeline.ucRefs τ sig) (B7 m ρ c) ∗ R c)
  X c := iprop(∃ r, prngReg c r)
  Y c := iprop(∃ r, prngReg c r)
  Z c := Pipeline.unscopedRest (Ix := Unit) (Name := ℕ) (U := UR sig nD τ) (Lvl := ℕ) spec2 c (BV6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (BV6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show iprop(iprop(∃ r, prngReg c r) ∗ Pipeline.prefHeld (pcfgs (F := F) 2).pre c (fun _ => fullShare) (adm (F := F) 2).1 ∗ Pipeline.scopedRest (Ix := Unit) (Name := ℕ) (U := UR sig nD τ) (Lvl := ℕ) (Val := Elt F) spec2 c) ⊢ (Pipeline.ΦA spec2 c : sProp 𝕄) from by
      unfold Pipeline.ΦA
      iintro ⟨Hp, -, Hr⟩
      isplitl [Hr]; · iexact Hr
      iexact Hp).trans (hin2 (BV6 m ρ) c)
  hout c := (hout2 (BV6 m ρ) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (BV6 m ρ c) (BV7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `B7`, left with them at `B8`.  Its
    arrays are split out of the unscoped buffers and put back at what the pipeline leaves; the generator register goes
    into the invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (BV7 m ρ) c).loose
  hwaits := Pipeline.hwaits_of_owed_zero _ _ _ _ L lv 3 fun _ _ => rfl
  pre c := iprop(StableHlo.held (c : Thread nD τ) (Pipeline.ucRefs τ sig) (B7 m ρ c) ∗ R c)
  post c := iprop(StableHlo.held (c : Thread nD τ) (Pipeline.ucRefs τ sig) (B8 m ρ c) ∗ R c)
  X c := iprop(∃ r, prngReg c r)
  Y c := iprop(∃ r, prngReg c r)
  Z c := Pipeline.unscopedRest (Ix := Unit) (Name := ℕ) (U := UR sig nD τ) (Lvl := ℕ) spec3 c (BV7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (BV7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show iprop(iprop(∃ r, prngReg c r) ∗ Pipeline.prefHeld (pcfgs (F := F) 3).pre c (fun _ => fullShare) (adm (F := F) 3).1 ∗ Pipeline.scopedRest (Ix := Unit) (Name := ℕ) (U := UR sig nD τ) (Lvl := ℕ) (Val := Elt F) spec3 c) ⊢ (Pipeline.ΦA spec3 c : sProp 𝕄) from by
      unfold Pipeline.ΦA
      iintro ⟨Hp, -, Hr⟩
      isplitl [Hr]; · iexact Hr
      iexact Hp).trans (hin3 (BV7 m ρ) c)
  hout c := (hout3 (BV7 m ρ) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (BV7 m ρ c) (BV8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub ops0_fresh (B0 m ρ)),
    .host (hseg hostOps0_1 hostOps0_1_sub ops1_fresh (B1 m ρ)),
    .host (hseg hostOps0_2 hostOps0_2_sub ops2_fresh (B2 m ρ)),
    .host (hseg hostOps0_3 hostOps0_3_sub ops3_fresh (B3 m ρ)),
    .region (reg0 m ρ), .region (reg1 m ρ), .region (reg2 m ρ), .region (reg3 m ρ),
    .host (hseg hostOps4 hostOps4_sub ops4_fresh (B8 m ρ)) ]

set_option backward.isDefEq.respectTransparency.types false in
/-- THE RUN: from any memory with zero counters every weakly fair execution of @main on the TensorCores terminates,
    nothing faulting, and every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B9 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0, StableHlo.seq hostOps0_1, StableHlo.seq hostOps0_2, StableHlo.seq hostOps0_3,
          Prog.lift (.customCall (Pipeline.entry 0) ()), Prog.lift (.customCall (Pipeline.entry 1) ()),
          Prog.lift (.customCall (Pipeline.entry 2) ()), Prog.lift (.customCall (Pipeline.entry 3) ()),
          StableHlo.seq hostOps4 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (B9 m ρ c) ∗ R c)
            ⊢ (iprop(Tₙ m ρ c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B9 m ρ c b)
    (hfin := fun c s' => by
      iintro ⟨⟨Hh, -⟩, HSI⟩
      unfold StableHlo.held
      imodintro
      iapply (pointsTo_read_all (Pipeline.ucRefs τ sig) (fun b => (((c : Thread nD τ)).1, b)) (B9 m ρ c) s')
      isplitl [Hh] <;> iassumption)
    (hQ := fun s h c => h c)

end Cert.KernelIdeal.Run

end
-- ==== Proof.KIEnds.lean ====
/-
  The two ends of the run.  Reading the last boundary's contents back through the fold: every argument array is what the
  launch memory held (no host stretch writes an argument, and a region only reads one); each result is the slice or the
  array a region's pipeline left; and each region is entered with the arrays the regions before it left.
-/
import proofs.«114003_j36704790511729_2_alg».proof.Proof.KIRunAll
import proofs.«114003_j36704790511729_2_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-! ## A host stretch leaves alone what it does not write -/

theorem B1_of (c : Dev nD) (r : Ref sig .tc) (h : r ∉ hostOps0_W) : B1 m ρ c (Proc.devRef .tc r) = B0 m ρ c (Proc.devRef .tc r) :=
  StableHlo.after_of_writes_sub hostOps0 _ hostOps0_writes h
theorem B2_of (c : Dev nD) (r : Ref sig .tc) (h : r ∉ hostOps0_1_W) : B2 m ρ c (Proc.devRef .tc r) = B1 m ρ c (Proc.devRef .tc r) :=
  StableHlo.after_of_writes_sub hostOps0_1 _ hostOps0_1_writes h
theorem B3_of (c : Dev nD) (r : Ref sig .tc) (h : r ∉ hostOps0_2_W) : B3 m ρ c (Proc.devRef .tc r) = B2 m ρ c (Proc.devRef .tc r) :=
  StableHlo.after_of_writes_sub hostOps0_2 _ hostOps0_2_writes h
theorem B4_of (c : Dev nD) (r : Ref sig .tc) (h : r ∉ hostOps0_3_W) : B4 m ρ c (Proc.devRef .tc r) = B3 m ρ c (Proc.devRef .tc r) :=
  StableHlo.after_of_writes_sub hostOps0_3 _ hostOps0_3_writes h
theorem B9_of (c : Dev nD) (r : Ref sig .tc) (h : r ∉ hostOps4_W) : B9 m ρ c (Proc.devRef .tc r) = B8 m ρ c (Proc.devRef .tc r) :=
  StableHlo.after_of_writes_sub hostOps4 _ hostOps4_writes h
/-- A buffer none of the four leading host stretches writes enters the forward region as launched. -/
theorem B4_arg (c : Dev nD) (r : Ref sig .tc) (h0 : r ∉ hostOps0_W) (h1 : r ∉ hostOps0_1_W) (h2 : r ∉ hostOps0_2_W) (h3 : r ∉ hostOps0_3_W) :
    B4 m ρ c (Proc.devRef .tc r) = m ((c : Thread nD τ).loc r) :=
  (B4_of m ρ c r h3).trans <| (B3_of m ρ c r h2).trans <| (B2_of m ρ c r h1).trans <| (B1_of m ρ c r h0).trans rfl
/-- An input window's array leaves the forward region as it entered. -/
theorem B5_in (c : Dev nD) (w : Fin cfg0.W) (hin : (cfg0.win w).isOut = false) :
    B5 m ρ c (Proc.devRef .tc (Pipeline.arrRef spec0 w)) = B4 m ρ c (Proc.devRef .tc (Pipeline.arrRef spec0 w)) :=
  (B5_arr m ρ c w).trans (((dat0 (BV4 m ρ) c).arrAt_in w hin _).trans (A_eq0 (BV4 m ρ) c w))

/-! ## The arguments end as launched -/

/-- `main_arg0` ends as launched: no host stretch writes it, and a region reads it through an input window or bypasses it. -/
theorem B9_main_arg0 (c : Dev nD) : B9 m ρ c (Proc.devRef .tc main_arg0) = m ((c : Thread nD τ).loc main_arg0) :=
  (B9_of m ρ c main_arg0 (by decide)).trans <| (B8_of_ne m ρ c main_arg0 (by decide)).trans <| (B7_of_ne m ρ c main_arg0 (by decide)).trans <|
    (B6_of_ne m ρ c main_arg0 (by decide)).trans <| (B5_in m ρ c 0 rfl).trans <| B4_arg m ρ c main_arg0 (by decide) (by decide) (by decide) (by decide)
/-- `main_arg1` ends as launched: no host stretch writes it, and a region reads it through an input window or bypasses it. -/
theorem B9_main_arg1 (c : Dev nD) : B9 m ρ c (Proc.devRef .tc main_arg1) = m ((c : Thread nD τ).loc main_arg1) :=
  (B9_of m ρ c main_arg1 (by decide)).trans <| (B8_of_ne m ρ c main_arg1 (by decide)).trans <| (B7_of_ne m ρ c main_arg1 (by decide)).trans <|
    (B6_of_ne m ρ c main_arg1 (by decide)).trans <| (B5_in m ρ c 1 rfl).trans <| B4_arg m ρ c main_arg1 (by decide) (by decide) (by decide) (by decide)
/-- `main_arg2` ends as launched: no host stretch writes it, and a region reads it through an input window or bypasses it. -/
theorem B9_main_arg2 (c : Dev nD) : B9 m ρ c (Proc.devRef .tc main_arg2) = m ((c : Thread nD τ).loc main_arg2) :=
  (B9_of m ρ c main_arg2 (by decide)).trans <| (B8_of_ne m ρ c main_arg2 (by decide)).trans <| (B7_of_ne m ρ c main_arg2 (by decide)).trans <|
    (B6_of_ne m ρ c main_arg2 (by decide)).trans <| (B5_in m ρ c 2 rfl).trans <| B4_arg m ρ c main_arg2 (by decide) (by decide) (by decide) (by decide)
/-- `main_arg3` ends as launched: no host stretch writes it, and a region reads it through an input window or bypasses it. -/
theorem B9_main_arg3 (c : Dev nD) : B9 m ρ c (Proc.devRef .tc main_arg3) = m ((c : Thread nD τ).loc main_arg3) :=
  (B9_of m ρ c main_arg3 (by decide)).trans <| (B8_of_ne m ρ c main_arg3 (by decide)).trans <| (B7_of_ne m ρ c main_arg3 (by decide)).trans <|
    (B6_of_ne m ρ c main_arg3 (by decide)).trans <| (B5_in m ρ c 3 rfl).trans <| B4_arg m ρ c main_arg3 (by decide) (by decide) (by decide) (by decide)
/-- `main_arg4` ends as launched: no host stretch writes it, and a region reads it through an input window or bypasses it. -/
theorem B9_main_arg4 (c : Dev nD) : B9 m ρ c (Proc.devRef .tc main_arg4) = m ((c : Thread nD τ).loc main_arg4) :=
  (B9_of m ρ c main_arg4 (by decide)).trans <| (B8_of_ne m ρ c main_arg4 (by decide)).trans <| (B7_of_ne m ρ c main_arg4 (by decide)).trans <|
    (B6_of_ne m ρ c main_arg4 (by decide)).trans <| (B5_in m ρ c 4 rfl).trans <| B4_arg m ρ c main_arg4 (by decide) (by decide) (by decide) (by decide)
/-- `main_arg5` ends as launched: no host stretch writes it, and a region reads it through an input window or bypasses it. -/
theorem B9_main_arg5 (c : Dev nD) : B9 m ρ c (Proc.devRef .tc main_arg5) = m ((c : Thread nD τ).loc main_arg5) :=
  (B9_of m ρ c main_arg5 (by decide)).trans <| (B8_of_ne m ρ c main_arg5 (by decide)).trans <| (B7_of_ne m ρ c main_arg5 (by decide)).trans <|
    (B6_of_ne m ρ c main_arg5 (by decide)).trans <| (B5_of_ne m ρ c main_arg5 (by decide)).trans <| B4_arg m ρ c main_arg5 (by decide) (by decide) (by decide) (by decide)
/-- `main_arg6` ends as launched: no host stretch writes it, and a region reads it through an input window or bypasses it. -/
theorem B9_main_arg6 (c : Dev nD) : B9 m ρ c (Proc.devRef .tc main_arg6) = m ((c : Thread nD τ).loc main_arg6) :=
  (B9_of m ρ c main_arg6 (by decide)).trans <| (B8_of_ne m ρ c main_arg6 (by decide)).trans <| (B7_of_ne m ρ c main_arg6 (by decide)).trans <|
    (B6_of_ne m ρ c main_arg6 (by decide)).trans <| (B5_of_ne m ρ c main_arg6 (by decide)).trans <| B4_arg m ρ c main_arg6 (by decide) (by decide) (by decide) (by decide)

/-! ## The results, and what each region is entered with -/

theorem B9_v3 (c : Dev nD) : B9 m ρ c (Proc.devRef .tc main_v3) = (dat1 (BV5 m ρ) c).arrAt 2 cfg1.N :=
  (B9_of m ρ c main_v3 (by decide)).trans <| (B8_of_ne m ρ c main_v3 (by decide)).trans <| (B7_of_ne m ρ c main_v3 (by decide)).trans (B6_arr m ρ c 2)
theorem B9_v4 (c : Dev nD) : B9 m ρ c (Proc.devRef .tc main_v4) = (dat2 (BV6 m ρ) c).arrAt 2 cfg2.N :=
  (B9_of m ρ c main_v4 (by decide)).trans <| (B8_of_ne m ρ c main_v4 (by decide)).trans (B7_arr m ρ c 2)
theorem B8_v5 (c : Dev nD) : B8 m ρ c (Proc.devRef .tc main_v5) = (dat3 (BV7 m ρ) c).arrAt 2 cfg3.N := B8_arr m ρ c 2
theorem B8_v2_0 (c : Dev nD) : B8 m ρ c (Proc.devRef .tc main_v2_0) = (dat0 (BV4 m ρ) c).arrAt 7 cfg0.N :=
  (B8_of_ne m ρ c main_v2_0 (by decide)).trans <| (B7_of_ne m ρ c main_v2_0 (by decide)).trans <| (B6_of_ne m ρ c main_v2_0 (by decide)).trans (B5_arr m ρ c 7)
/-- The logits are the first 1000 columns of the forward region's padded logits. -/
theorem B9_v6 (c : Dev nD) : B9 m ρ c (Proc.devRef .tc main_v6)
    = extractStridedSlice S8192x1000 ![0, 0] (B8 m ρ c (Proc.devRef .tc main_v2_0)) slices_S8192x1024_S8192x1000_0_0 := by
  show StableHlo.after hostOps4 _ (Proc.devRef .tc main_v6) = _
  after_results
/-- The last co-activation matrix is the first 1000 columns of the padded one. -/
theorem B9_v7 (c : Dev nD) : B9 m ρ c (Proc.devRef .tc main_v7)
    = extractStridedSlice S2048x1000 ![0, 0] (B8 m ρ c (Proc.devRef .tc main_v5)) slices_S2048x1024_S2048x1000_0_0 := by
  show StableHlo.after hostOps4 _ (Proc.devRef .tc main_v7) = _
  after_results

theorem BV5_v2_1 (c : Dev nD) : BV5 m ρ c main_v2_1 = (dat0 (BV4 m ρ) c).arrAt 8 cfg0.N := B5_arr m ρ c 8
theorem BV5_v2_2 (c : Dev nD) : BV5 m ρ c main_v2_2 = (dat0 (BV4 m ρ) c).arrAt 9 cfg0.N := B5_arr m ρ c 9
theorem BV6_v2_2 (c : Dev nD) : BV6 m ρ c main_v2_2 = (dat0 (BV4 m ρ) c).arrAt 9 cfg0.N :=
  (B6_arr m ρ c 1).trans (((dat1 (BV5 m ρ) c).arrAt_in 1 rfl _).trans ((A_eq1 (BV5 m ρ) c 1).trans (B5_arr m ρ c 9)))
theorem BV6_v2_3 (c : Dev nD) : BV6 m ρ c main_v2_3 = (dat0 (BV4 m ρ) c).arrAt 10 cfg0.N :=
  (B6_of_ne m ρ c main_v2_3 (by decide)).trans (B5_arr m ρ c 10)
theorem BV7_v2_3 (c : Dev nD) : BV7 m ρ c main_v2_3 = (dat0 (BV4 m ρ) c).arrAt 10 cfg0.N :=
  (B7_arr m ρ c 1).trans (((dat2 (BV6 m ρ) c).arrAt_in 1 rfl _).trans ((A_eq2 (BV6 m ρ) c 1).trans (BV6_v2_3 m ρ c)))
theorem BV7_v2_4 (c : Dev nD) : BV7 m ρ c main_v2_4 = (dat0 (BV4 m ρ) c).arrAt 11 cfg0.N :=
  (B7_of_ne m ρ c main_v2_4 (by decide)).trans <| (B6_of_ne m ρ c main_v2_4 (by decide)).trans (B5_arr m ρ c 11)

/-- The forward region is entered with the first five arguments as launched, -/
theorem BV4_arg0 (c : Dev nD) : BV4 m ρ c main_arg0 = m ((c : Thread nD τ).loc main_arg0) := B4_arg m ρ c main_arg0 (by decide) (by decide) (by decide) (by decide)
theorem BV4_arg1 (c : Dev nD) : BV4 m ρ c main_arg1 = m ((c : Thread nD τ).loc main_arg1) := B4_arg m ρ c main_arg1 (by decide) (by decide) (by decide) (by decide)
theorem BV4_arg2 (c : Dev nD) : BV4 m ρ c main_arg2 = m ((c : Thread nD τ).loc main_arg2) := B4_arg m ρ c main_arg2 (by decide) (by decide) (by decide) (by decide)
theorem BV4_arg3 (c : Dev nD) : BV4 m ρ c main_arg3 = m ((c : Thread nD τ).loc main_arg3) := B4_arg m ρ c main_arg3 (by decide) (by decide) (by decide) (by decide)
theorem BV4_arg4 (c : Dev nD) : BV4 m ρ c main_arg4 = m ((c : Thread nD τ).loc main_arg4) := B4_arg m ρ c main_arg4 (by decide) (by decide) (by decide) (by decide)
/-- and with the classifier's weights and bias padded with some scalar to 1024 classes. -/
theorem BV4_v0 (c : Dev nD) : ∃ v, BV4 m ρ c main_v0
    = pad S1024x2048 ![0, 0] ![24, 0] ![0, 0] (m ((c : Thread nD τ).loc main_arg5)) v pads_S1000x2048_S1024x2048_0240_000 h_S_ := by
  refine ⟨sitofp .f32 (B1 m ρ c (Proc.devRef .tc main_c)), ?_⟩
  refine (B4_of m ρ c main_v0 (by decide)).trans <| (B3_of m ρ c main_v0 (by decide)).trans ?_
  show StableHlo.after hostOps0_1 _ (Proc.devRef .tc main_v0) = _
  after_results
  rfl
theorem BV4_v1 (c : Dev nD) : ∃ v, BV4 m ρ c main_v1
    = pad S1024 ![0] ![24] ![0] (m ((c : Thread nD τ).loc main_arg6)) v pads_S1000_S1024_0240 h_S_ := by
  refine ⟨sitofp .f32 (B3 m ρ c (Proc.devRef .tc main_c_0)), ?_⟩
  show StableHlo.after hostOps0_3 _ (Proc.devRef .tc main_v1) = _
  after_results
  rfl

end Cert.KernelIdeal.Run

end
-- ==== Proof.Frames.lean ====
/-
  The three frame claims and the idealization claim.  The kernel's program, at the word level and idealized alike,
  runs to the end with every unscoped buffer at the last boundary's contents, and there each argument array is what the
  launch memory held; the reference is a straight line of host operations, whose run states the same.  The idealizing
  pass rewrote nothing, so that claim is trivial.
-/
import proofs.«114003_j36704790511729_2_alg».proof.Defs
import proofs.«114003_j36704790511729_2_alg».proof.Proof.KEnds
import proofs.«114003_j36704790511729_2_alg».proof.Proof.KIEnds
import proofs.«114003_j36704790511729_2_alg».proof.Proof.Gen.ReferenceIdeal.Run
import proofs.«114003_j36704790511729_2_alg».proof.Proof.Gen.Kernel
import proofs.«114003_j36704790511729_2_alg».proof.Proof.Gen.KernelIdeal
import proofs.«114003_j36704790511729_2_alg».proof.Proof.Gen.ReferenceIdeal
import proofs.«114003_j36704790511729_2_alg».proof.Proof.Gen.Pre_finite_inputs

noncomputable section

namespace Cert.Proof.Parts

open Idealize.ShloMosaic Idealize.SL.Sem

theorem frame_k : Cert.frame_Kernel (hKernel := Cert.Kernel.Gen.facts) (hPre_finite_inputs := Cert.Pre_finite_inputs.Gen.facts) := fun m ρ _ =>
  (θ_run (Cert.Kernel.defs (F := Bits)) _ _).mono (fun r h c =>
    ⟨(h c _ (Cert.Kernel.Run.mem_uc Cert.Kernel.main_arg0 (by decide))).trans (Cert.Kernel.Run.B9_main_arg0 m ρ c),
     (h c _ (Cert.Kernel.Run.mem_uc Cert.Kernel.main_arg1 (by decide))).trans (Cert.Kernel.Run.B9_main_arg1 m ρ c),
     (h c _ (Cert.Kernel.Run.mem_uc Cert.Kernel.main_arg2 (by decide))).trans (Cert.Kernel.Run.B9_main_arg2 m ρ c),
     (h c _ (Cert.Kernel.Run.mem_uc Cert.Kernel.main_arg3 (by decide))).trans (Cert.Kernel.Run.B9_main_arg3 m ρ c),
     (h c _ (Cert.Kernel.Run.mem_uc Cert.Kernel.main_arg4 (by decide))).trans (Cert.Kernel.Run.B9_main_arg4 m ρ c),
     (h c _ (Cert.Kernel.Run.mem_uc Cert.Kernel.main_arg5 (by decide))).trans (Cert.Kernel.Run.B9_main_arg5 m ρ c),
     (h c _ (Cert.Kernel.Run.mem_uc Cert.Kernel.main_arg6 (by decide))).trans (Cert.Kernel.Run.B9_main_arg6 m ρ c)⟩)
    (Cert.Kernel.Run.run_all (F := Bits) m ρ)

/-- The idealized kernel's run with every unscoped buffer named: what the frame and the value claim both read. -/
theorem frame_ki : Cert.frame_KernelIdeal (hKernelIdeal := Cert.KernelIdeal.Gen.facts) (hPre_finite_inputs := Cert.Pre_finite_inputs.Gen.facts) := fun m ρ _ =>
  (θ_run (Cert.KernelIdeal.defs (F := Ideal)) _ _).mono (fun r h c =>
    ⟨(h c _ (Cert.KernelIdeal.Run.mem_uc Cert.KernelIdeal.main_arg0 (by decide))).trans (Cert.KernelIdeal.Run.B9_main_arg0 m ρ c),
     (h c _ (Cert.KernelIdeal.Run.mem_uc Cert.KernelIdeal.main_arg1 (by decide))).trans (Cert.KernelIdeal.Run.B9_main_arg1 m ρ c),
     (h c _ (Cert.KernelIdeal.Run.mem_uc Cert.KernelIdeal.main_arg2 (by decide))).trans (Cert.KernelIdeal.Run.B9_main_arg2 m ρ c),
     (h c _ (Cert.KernelIdeal.Run.mem_uc Cert.KernelIdeal.main_arg3 (by decide))).trans (Cert.KernelIdeal.Run.B9_main_arg3 m ρ c),
     (h c _ (Cert.KernelIdeal.Run.mem_uc Cert.KernelIdeal.main_arg4 (by decide))).trans (Cert.KernelIdeal.Run.B9_main_arg4 m ρ c),
     (h c _ (Cert.KernelIdeal.Run.mem_uc Cert.KernelIdeal.main_arg5 (by decide))).trans (Cert.KernelIdeal.Run.B9_main_arg5 m ρ c),
     (h c _ (Cert.KernelIdeal.Run.mem_uc Cert.KernelIdeal.main_arg6 (by decide))).trans (Cert.KernelIdeal.Run.B9_main_arg6 m ρ c)⟩)
    (Cert.KernelIdeal.Run.run_all (F := Ideal) m ρ)

theorem frame_ri : Cert.frame_ReferenceIdeal (hReferenceIdeal := Cert.ReferenceIdeal.Gen.facts) (hPre_finite_inputs := Cert.Pre_finite_inputs.Gen.facts) := fun m ρ _ =>
  (θ_run (Cert.ReferenceIdeal.defs (F := Ideal)) _ _).mono (fun _ h c => (h c).2.2.2.2) (Cert.ReferenceIdeal.Value.run (F := Ideal) m ρ)

theorem preserves : Cert.preserves_Kernel_KernelIdeal := trivial

end Cert.Proof.Parts

end
-- ==== Proof.Spec.lean ====
/-
  The network this certificate is about, as plain functions on the extended reals — no program is imported here.

  A batch of rows `x : Fin B → Fin D → EReal` goes through three dense layers, each weight matrix stored
  `[out, in]` and contracted on its second index:
      z₁ = x·W₁ᵀ + b₁,   z₂ = max(z₁,0)·W₂ᵀ + b₂,   logits = max(z₂,0)·W₃ᵀ + b₃,
  and at four places the 0/1 indicator of "entry > 0" is taken: of x, z₁, z₂ and the logits.  The three
  co-activation matrices count, over the batch, how often two indicators are 1 together:
      coact(a, b) i j = ∑ₛ a s i · b s j.
  Everything is curried over literal `Fin` coordinates; `arr2` / `cur2` / `cur1` pass between these functions
  and arrays indexed by a rank-2 or rank-1 shape's index.
-/
import Idealize.ShloMosaic.PureOps.Ideal
import Idealize.ShloMosaic.Lib.ValueIdx

noncomputable section

namespace Hebb

open Idealize.ShloMosaic Idealize.ShloMosaic.ValueIdx

/-- A matrix of extended reals by its two coordinates. -/
abbrev M2 (a b : ℕ) := Fin a → Fin b → EReal

/-- A matrix as an array over the rank-2 shape `[a, b]`. -/
def arr2 {a b : ℕ} (f : M2 a b) : (⟨2, ![a, b]⟩ : Shape).Idx → EReal := fun i => f (i 0) (i 1)

@[simp] theorem arr2_ix2 {a b : ℕ} (f : M2 a b) (p : Fin a) (q : Fin b) : arr2 f (ix2 p q) = f p q := rfl

/-- An array over `[a, b]` by its coordinates. -/
def cur2 {a b : ℕ} (x : (⟨2, ![a, b]⟩ : Shape).Idx → EReal) : M2 a b := fun p q => x (ix2 p q)

/-- An array over `[a]` by its coordinate. -/
def cur1 {a : ℕ} (x : (⟨1, ![a]⟩ : Shape).Idx → EReal) : Fin a → EReal := fun p => x (ix1 p)

theorem arr2_cur2 {a b : ℕ} (x : (⟨2, ![a, b]⟩ : Shape).Idx → EReal) : arr2 (cur2 x) = x := by
  funext i; exact congrArg x (eq_ix2 i).symm

/-- The indicator of `v > 0`: 1 or 0. -/
def ind (v : EReal) : EReal := (((Ideal.cmp .ogt v 0).toNat : ℝ) : EReal)

/-- One dense layer before its nonlinearity: row `p` of `x` against row `q` of `W`, plus the bias. -/
def lin {M K N : ℕ} (x : M2 M K) (W : M2 N K) (b : Fin N → EReal) : M2 M N :=
  fun p q => (∑ k : Fin K, x p k * W q k) + b q

/-- `max(·, 0)` entry by entry. -/
def relu {M N : ℕ} (z : M2 M N) : M2 M N := fun p q => max (z p q) 0

/-- The indicator entry by entry. -/
def act {M N : ℕ} (z : M2 M N) : M2 M N := fun p q => ind (z p q)

/-- Co-activation counts over the batch axis (the leading axis of both arguments). -/
def coact {B M N : ℕ} (a : M2 B M) (b : M2 B N) : M2 M N := fun i j => ∑ s : Fin B, a s i * b s j

section Net
variable {B D H1 H2 C : ℕ} (x : M2 B D) (W1 : M2 H1 D) (b1 : Fin H1 → EReal) (W2 : M2 H2 H1) (b2 : Fin H2 → EReal)
  (W3 : M2 C H2) (b3 : Fin C → EReal)

/-- First hidden pre-activation. -/
def z1 : M2 B H1 := lin x W1 b1
/-- Second hidden pre-activation. -/
def z2 : M2 B H2 := lin (relu (z1 x W1 b1)) W2 b2
/-- The logits. -/
def logits : M2 B C := lin (relu (z2 x W1 b1 W2 b2)) W3 b3
/-- Inputs against first hidden indicators. -/
def coact0 : M2 D H1 := coact (act x) (act (z1 x W1 b1))
/-- First against second hidden indicators. -/
def coact1 : M2 H1 H2 := coact (act (z1 x W1 b1)) (act (z2 x W1 b1 W2 b2))
/-- Second hidden against logit indicators. -/
def coact2 : M2 H2 C := coact (act (z2 x W1 b1 W2 b2)) (act (logits x W1 b1 W2 b2 W3 b3))
end Net

/-- A dense layer's row `p` depends on row `p` of its input only. -/
theorem lin_row {M M' K N : ℕ} (x : M2 M K) (x' : M2 M' K) (W : M2 N K) (b : Fin N → EReal) (p : Fin M) (p' : Fin M')
    (h : x p = x' p') : lin x W b p = lin x' W b p' := by
  funext q; unfold lin; rw [h]

end Hebb

end
-- ==== Proof.SpecLaws.lean ====
/-
  Laws of the specification's functions that do not mention any program.

  * A sum over the whole batch of 8192 rows is the sum of its four consecutive blocks of 2048 rows, taken in order
    starting from zero.  Only associativity and `0 + x = x` are used, so the law holds on the extended reals with
    their infinities.
  * The 0/1 indicator: a one-bit word widened to 32 bits and read as a signed integer is the bit itself, so the
    conversion of a widened comparison bit to a float is the indicator `ind`; and the conjunction of a comparison
    bit with a decided condition is the indicator or zero.
-/
import proofs.«114003_j36704790511729_2_alg».proof.Proof.Spec

noncomputable section

namespace Hebb

open Idealize.ShloMosaic Idealize.ShloMosaic.ValueIdx

/-- A sum over `Fin n` of a function of the value is the sum over `range n`, shifted by an offset. -/
theorem sum_fin_shift (g : ℕ → EReal) (off n : ℕ) :
    ∑ s : Fin n, g (off + s.val) = ∑ i ∈ Finset.range n, g (off + i) :=
  (Finset.sum_range fun i => g (off + i)).symm

/-- An accumulator started at zero and given four consecutive blocks of 2048 rows holds the sum over all 8192 rows. -/
theorem sum_blocks4 (f : Fin 8192 → EReal) :
    ((((0 : EReal) + ∑ s : Fin 2048, f ⟨s.val, by omega⟩) + ∑ s : Fin 2048, f ⟨2048 + s.val, by omega⟩)
        + ∑ s : Fin 2048, f ⟨4096 + s.val, by omega⟩) + ∑ s : Fin 2048, f ⟨6144 + s.val, by omega⟩
      = ∑ s : Fin 8192, f s := by
  let g : ℕ → EReal := fun n => if h : n < 8192 then f ⟨n, h⟩ else 0
  have hg : ∀ (n : ℕ) (h : n < 8192), f ⟨n, h⟩ = g n := fun n h => by
    show f ⟨n, h⟩ = dite (n < 8192) (fun h => f ⟨n, h⟩) (fun _ => 0)
    rw [dif_pos h]
  have h0 : ∑ s : Fin 2048, f ⟨s.val, by omega⟩ = ∑ i ∈ Finset.range 2048, g i := by
    rw [Finset.sum_range]; exact Finset.sum_congr rfl fun s _ => hg _ _
  have h1 : ∑ s : Fin 2048, f ⟨2048 + s.val, by omega⟩ = ∑ i ∈ Finset.range 2048, g (2048 + i) := by
    rw [← sum_fin_shift]; exact Finset.sum_congr rfl fun s _ => hg _ _
  have h2 : ∑ s : Fin 2048, f ⟨4096 + s.val, by omega⟩ = ∑ i ∈ Finset.range 2048, g (2048 + 2048 + i) := by
    rw [← sum_fin_shift]; exact Finset.sum_congr rfl fun s _ => hg _ _
  have h3 : ∑ s : Fin 2048, f ⟨6144 + s.val, by omega⟩ = ∑ i ∈ Finset.range 2048, g (2048 + 2048 + 2048 + i) := by
    rw [← sum_fin_shift]; exact Finset.sum_congr rfl fun s _ => hg _ _
  have h4 : ∑ s : Fin 8192, f s = ∑ i ∈ Finset.range (2048 + 2048 + 2048 + 2048), g i := by
    show _ = ∑ i ∈ Finset.range 8192, g i
    rw [Finset.sum_range]; exact Finset.sum_congr rfl fun s _ => hg _ _
  rw [h0, h1, h2, h3, h4, zero_add, Finset.sum_range_add, Finset.sum_range_add, Finset.sum_range_add]

/-- A one-bit word widened to 32 bits and read as a signed integer is the bit. -/
theorem setWidth32_toInt_bit (b : BitVec 1) : (b.setWidth 32).toInt = (b.toNat : ℤ) := by
  rcases BitVec.eq_zero_or_eq_one b with h | h <;> subst h <;> decide

/-- The float conversion of a widened comparison bit `v > 0` is the indicator of `v > 0`. -/
theorem ind_eq (v : EReal) : ((((Ideal.cmp .ogt v 0).setWidth 32).toInt : ℝ) : EReal) = ind v := by
  unfold ind
  rw [setWidth32_toInt_bit, Int.cast_natCast]

/-- The conjunction of a comparison bit with the bit `1` is the comparison bit … -/
theorem ind_and_one (v : EReal) :
    ((((IntOp.andi (Ideal.cmp .ogt v 0) 1#1).setWidth 32).toInt : ℝ) : EReal) = ind v := by
  have : IntOp.andi (Ideal.cmp .ogt v 0) 1#1 = Ideal.cmp .ogt v 0 := by
    rcases BitVec.eq_zero_or_eq_one (Ideal.cmp .ogt v 0) with h | h <;> rw [h] <;> decide
  rw [this, ind_eq]

/-- … and with the bit `0` it is zero. -/
theorem ind_and_zero (b : BitVec 1) : ((((IntOp.andi b 0#1).setWidth 32).toInt : ℝ) : EReal) = 0 := by
  have : IntOp.andi b 0#1 = 0#1 := by
    rcases BitVec.eq_zero_or_eq_one b with h | h <;> subst h <;> decide
  rw [this]
  show (((0 : ℤ) : ℝ) : EReal) = 0
  rw [Int.cast_zero, EReal.coe_zero]

/-- A column number below 1024, as a 32-bit word, is signed-less-than 1000 exactly when it is below 1000. -/
theorem slt_1000 (q : Fin 1024) :
    IntOp.cmpi .slt (BitVec.ofNat 32 q.val) 1000#32 = if q.val < 1000 then 1#1 else 0#1 := by
  have hq := q.isLt
  unfold IntOp.cmpi
  show BitVec.ofBool ((BitVec.ofNat 32 q.val).slt 1000#32) = _
  have hs : (BitVec.ofNat 32 q.val).slt 1000#32 = decide (q.val < 1000) := by
    rw [BitVec.slt_eq_decide]
    have h1 : (BitVec.ofNat 32 q.val).toInt = (q.val : ℤ) := by
      rw [BitVec.toInt_ofNat']
      exact Int.bmod_eq_of_le (by omega) (by omega)
    rw [h1]
    have h2 : (1000#32 : BitVec 32).toInt = 1000 := by decide
    rw [h2]
    exact decide_eq_decide.mpr (by omega)
  rw [hs]
  by_cases h : q.val < 1000
  · rw [if_pos h, decide_eq_true h]; rfl
  · rw [if_neg h, decide_eq_false h]; rfl

end Hebb

end
-- ==== Proof.LibTransposedDot.lean ====
/-
  A matrix product with the right operand contracted on its last axis, read at an index, over the extended reals.

  For the dimension numbers of an `M×K` by `N×K` product (contract the left operand's axis 1 with the right operand's
  axis 1, no batch axis) — a product with the transpose, as a query block against the rows of a key block — the
  contraction index is one coordinate `k < K`, the left operand is read at `(p, k)` and the right one at `(q, k)`. So a
  kernel's matmul into a zero accumulator and a host `dot_general` are, at `(p, q)`, the sum over `k : Fin K` of
  `lhs (p, k) * rhs (q, k)`.
-/
import Idealize.ShloMosaic.PureOps.Ideal
import Idealize.ShloMosaic.PureOps.Ideal.Laws
import Idealize.ShloMosaic.Lib.ValueIdx

noncomputable section

namespace Idealize.ShloMosaic.TransposedDot

open Idealize.ShloMosaic Idealize.ShloMosaic.ValueIdx

/-- The left operand's index at output `(p, q)` and contraction position `k` is `(p, k)`. -/
theorem lhsIdx_tr (M K N : ℕ) (p : Fin M) (q : Fin N) (k : Fin K) :
    (DotDims.transposedRhs M K N).lhsIdx (ix2 p q) ((contrEquiv1 (DotDims.transposedRhs M K N) K rfl rfl).symm k) = ix2 p k := by
  funext a
  apply Fin.ext
  match a with
  | ⟨0, _⟩ => rfl
  | ⟨1, _⟩ => rfl

/-- The right operand's index at output `(p, q)` and contraction position `k` is `(q, k)`. -/
theorem rhsIdx_tr (M K N : ℕ) (p : Fin M) (q : Fin N) (k : Fin K) :
    (DotDims.transposedRhs M K N).rhsIdx (ix2 p q) ((contrEquiv1 (DotDims.transposedRhs M K N) K rfl rfl).symm k) = ix2 q k := by
  funext a
  apply Fin.ext
  match a with
  | ⟨0, _⟩ => rfl
  | ⟨1, _⟩ => rfl

/-- The contraction sum, re-indexed by the one contracted coordinate. -/
theorem sum_tr (M K N : ℕ) (a : (⟨2, ![M, K]⟩ : Shape).Idx → EReal) (w : (⟨2, ![N, K]⟩ : Shape).Idx → EReal)
    (p : Fin M) (q : Fin N) :
    ∑ k : (DotDims.transposedRhs M K N).contr.Idx,
        a ((DotDims.transposedRhs M K N).lhsIdx (ix2 p q) k) * w ((DotDims.transposedRhs M K N).rhsIdx (ix2 p q) k)
      = ∑ k : Fin K, a (ix2 p k) * w (ix2 q k) := by
  rw [← Equiv.sum_comp (contrEquiv1 (DotDims.transposedRhs M K N) K rfl rfl).symm]
  exact Finset.sum_congr rfl fun k _ => by rw [lhsIdx_tr, rhsIdx_tr]

/-- A kernel's matmul into the zero accumulator, the right operand contracted on its last axis, read at `(p, q)`. -/
theorem matmul_zero_apply {M K N : ℕ} {φ₁ φ₂ : FTy} (d : DotDims ⟨2, ![M, K]⟩ ⟨2, ![N, K]⟩ ⟨2, ![M, N]⟩)
    (hd : d = DotDims.transposedRhs M K N) (prec : Option ContractPrecision)
    (lhs : FVec Ideal ⟨2, ![M, K]⟩ φ₁) (rhs : FVec Ideal ⟨2, ![N, K]⟩ φ₂) (p : Fin M) (q : Fin N) :
    FloatOps.matmul d prec lhs rhs (constant ⟨2, ![M, N]⟩ .f32 0x00000000#32) (ix2 p q)
      = ∑ k : Fin K, lhs (ix2 p k) * rhs (ix2 q k) := by
  subst hd
  rw [Ideal.matmul_constant_zero_apply]
  exact sum_tr M K N lhs rhs p q

/-- A host `dot_general` with the same dimension numbers read at `(p, q)`. -/
theorem dotGeneral_apply {M K N : ℕ} {φ₁ φ₂ : FTy} (d : DotDims ⟨2, ![M, K]⟩ ⟨2, ![N, K]⟩ ⟨2, ![M, N]⟩)
    (hd : d = DotDims.transposedRhs M K N) (prec : Option ContractPrecision) (sched : HostSchedule)
    (lhs : FVec Ideal ⟨2, ![M, K]⟩ φ₁) (rhs : FVec Ideal ⟨2, ![N, K]⟩ φ₂) (p : Fin M) (q : Fin N) :
    FloatOps.dotGeneral d prec sched lhs rhs (ix2 p q) = ∑ k : Fin K, lhs (ix2 p k) * rhs (ix2 q k) := by
  subst hd
  rw [Ideal.dotGeneral_apply]
  exact sum_tr M K N lhs rhs p q

end Idealize.ShloMosaic.TransposedDot

end
-- ==== Proof.LibDense.lean ====
/-
  Dense layers read at an index, over the extended reals.

  A bias vector `b : [N]` enters a dense layer as a row broadcast over `M` rows: in a kernel as a shape cast to
  `[1, N]` followed by a vector broadcast to `[M, N]`, on the host as two `broadcast_in_dim`s.  Either way the entry
  at `(p, q)` is `b q`.  With the plain matrix product read at an index this gives the three layers below as plain
  formulas, whatever the tiling of the rows:

    * `linRelu x w b (p, q) = max (∑ k, x (p, k) * w (k, q) + b q) 0`
    * `sageRelu agg h wl bl wr (p, q) = max ((∑ k, agg (p, k) * wl (k, q) + bl q) + ∑ k, h (p, k) * wr (k, q)) 0`
    * `mlpPre cat w1 b1 w2 b2 (p, u) = ∑ j, max (∑ k, cat (p, k) * w1 (k, j) + b1 j) 0 * w2 (j, u) + b2 u`
    * `mlpScore … = tanh (mlpPre …)`, entry by entry

  (`0` is kept as the float word `0x00000000` read at the ideal instance; it is the same word on every side and is
  never evaluated.)
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.DenseLayer

open Idealize.ShloMosaic Idealize.ShloMosaic.ValueIdx

variable {α : Type}

/-- A kernel's bias row: `b : [N]` cast to `[1, N]` and broadcast to `[M, N]` reads `b q` at `(p, q)`. -/
theorem castRow_apply {M N : ℕ} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_1b_ab_apply, shapeCast_a_1a_apply]

/-- The host's bias row: `b : [N]` broadcast to `[1, N]` along axis 1, then to `[M, N]`, reads `b q` at `(p, q)`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1])
    (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun a => by
    match a with
    | ⟨0, _⟩ =>
      show q.val = if N = 1 then 0 else q.val
      split
      · have := q.isLt; omega
      · rfl)

/-- The float word zero, read at the ideal instance. -/
abbrev zeroWord : EReal := Ideal.ofBits .f32 0x00000000#32

/-- `relu (x · w + b)`, entry by entry. -/
def linRelu {M K N : ℕ} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal := fun i =>
  max (∑ k : Fin K, x (ix2 (i 0) k) * w (ix2 k (i 1)) + b (ix1 (i 1))) zeroWord

/-- `relu ((agg · wl + bl) + h · wr)`, entry by entry. -/
def sageRelu {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) :
    (⟨2, ![M, N]⟩ : Shape).Idx → EReal := fun i =>
  max ((∑ k : Fin K, agg (ix2 (i 0) k) * wl (ix2 k (i 1)) + bl (ix1 (i 1)))
    + ∑ k : Fin K, h (ix2 (i 0) k) * wr (ix2 k (i 1))) zeroWord

/-- `relu (cat · w1 + b1) · w2 + b2`, entry by entry: the score before its `tanh`. -/
def mlpPre {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  ∑ j : Fin H, linRelu cat w1 b1 (ix2 (i 0) j) * w2 (ix2 j (i 1)) + b2 (ix1 (i 1))

/-- The score: `tanh` of `mlpPre`, entry by entry. -/
def mlpScore {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  Ideal.tanh (mlpPre cat w1 b1 w2 b2 i)

theorem linRelu_apply {M K N : ℕ} (x : (⟨2, ![M, K]⟩ : Shape).Idx → EReal) (w : (⟨2, ![K, N]⟩ : Shape).Idx → EReal)
    (b : (⟨1, ![N]⟩ : Shape).Idx → EReal) (p : Fin M) (q : Fin N) :
    linRelu x w b (ix2 p q) = max (∑ k : Fin K, x (ix2 p k) * w (ix2 k q) + b (ix1 q)) zeroWord := rfl

theorem sageRelu_apply {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) (p : Fin M) (q : Fin N) :
    sageRelu agg h wl bl wr (ix2 p q)
      = max ((∑ k : Fin K, agg (ix2 p k) * wl (ix2 k q) + bl (ix1 q)) + ∑ k : Fin K, h (ix2 p k) * wr (ix2 k q)) zeroWord := rfl

theorem mlpPre_apply {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) (p : Fin M) (u : Fin N) :
    mlpPre cat w1 b1 w2 b2 (ix2 p u)
      = ∑ j : Fin H, max (∑ k : Fin K, cat (ix2 p k) * w1 (ix2 k j) + b1 (ix1 j)) zeroWord * w2 (ix2 j u) + b2 (ix1 u) := rfl

end Idealize.ShloMosaic.DenseLayer

end
-- ==== Proof.PayForward.lean ====
/-
  What the forward kernel body stores for a block of 64 batch rows, at the extended reals.

  The body computes, for its 64 rows `x`, the three dense layers of the network — each weight matrix stored
  `[out, in]`, so each product contracts the second index of both operands — with the bias spread as one row over the
  64 rows, `max(·, 0)` between the layers, and at four places the 0/1 indicator of "entry > 0" (a comparison bit
  widened to 32 bits and converted to a float).  Entry by entry these are the specification's `lin`, `relu` and
  `act`.  The classifier is padded to 1024 columns; the indicator of the logits is kept on the first 1000 columns only
  (the comparison bit is and-ed with "column number < 1000") and is zero on the padding.
-/
import proofs.«114003_j36704790511729_2_alg».proof.Proof.Spec
import proofs.«114003_j36704790511729_2_alg».proof.Proof.SpecLaws
import proofs.«114003_j36704790511729_2_alg».proof.Proof.Gen.KernelIdeal.Skeleton
import proofs.«114003_j36704790511729_2_alg».proof.Proof.LibTransposedDot
import proofs.«114003_j36704790511729_2_alg».proof.Proof.LibDense
import Idealize.ShloMosaic.Lib.Pipeline.Value

noncomputable section

namespace Cert.KernelIdeal.PayValue

open Cert.KernelIdeal Cert.KernelIdeal.Gen Idealize.ShloMosaic Idealize.ShloMosaic.ValueIdx Hebb

/-- Reading an array built from a matrix gives the matrix back. -/
theorem cur2_arr2 {a b : ℕ} (f : M2 a b) : cur2 (arr2 f) = f := rfl

/-- One dense layer of the body: the product with the transposed weights into a zero accumulator, plus the bias
    spread as a row, is `lin`. -/
theorem dense_eq {M K N : ℕ} (d : DotDims ⟨2, ![M, K]⟩ ⟨2, ![N, K]⟩ ⟨2, ![M, N]⟩)
    (hd : d = DotDims.transposedRhs M K N) (prec : Option ContractPrecision)
    (h1 : (⟨1, ![N]⟩ : Shape).ShapeCasts ⟨2, ![1, N]⟩) (h2 : (⟨2, ![1, N]⟩ : Shape).Broadcasts ⟨2, ![M, N]⟩)
    (x : FVec Ideal ⟨2, ![M, K]⟩ .f32) (w : FVec Ideal ⟨2, ![N, K]⟩ .f32) (b : FVec Ideal ⟨1, ![N]⟩ .f32) :
    addf (F := Ideal) (φ := .f32)
        (matmul (F := Ideal) d prec x w (constant (F := Ideal) ⟨2, ![M, N]⟩ .f32 0x00000000#32))
        (broadcastTo ⟨2, ![M, N]⟩ (shapeCast ⟨2, ![1, N]⟩ b h1) h2)
      = arr2 (lin (cur2 x) (cur2 w) (cur1 b)) := by
  funext i
  obtain ⟨p, q, rfl⟩ : ∃ (p : Fin M) (q : Fin N), i = ix2 p q := ⟨i 0, i 1, eq_ix2 i⟩
  rw [addf_apply, arr2_ix2]
  exact congrArg₂ (· + ·) (TransposedDot.matmul_zero_apply d hd prec x w p q) (DenseLayer.castRow_apply b h1 h2 p q)

/-- The indicator of the body: the comparison "entry > 0" widened to 32 bits, converted to a float and narrowed, is
    `act`. -/
theorem ind_eq_act {M N : ℕ} (z : FVec Ideal ⟨2, ![M, N]⟩ .f32) (h32 : 1 < 32) (hb : FTy.bits .bf16 < FTy.bits .f32) :
    truncf (F := Ideal) .bf16 (sitofp (F := Ideal) .f32
        (extui 32 (cmpf .ogt z (broadcast ⟨2, ![M, N]⟩ (Scalar.ofBits (F := Ideal) .f32 0x00000000#32))) h32)) hb
      = arr2 (act (cur2 z)) := by
  funext i
  obtain ⟨p, q, rfl⟩ : ∃ (p : Fin M) (q : Fin N), i = ix2 p q := ⟨i 0, i 1, eq_ix2 i⟩
  show ((((Ideal.cmp .ogt (z (ix2 p q)) (Ideal.ofBits .f32 0x00000000#32)).setWidth 32).toInt : ℝ) : EReal) = ind (z (ix2 p q))
  rw [Ideal.ofBits_zero_f32]
  exact ind_eq _

/-- `max(·, 0)` of the body is `relu`. -/
theorem max_eq_relu {M N : ℕ} (z : FVec Ideal ⟨2, ![M, N]⟩ .f32) :
    maximumf (F := Ideal) z (broadcast ⟨2, ![M, N]⟩ (Scalar.ofBits (F := Ideal) .f32 0x00000000#32))
      = arr2 (relu (cur2 z)) := by
  funext i
  obtain ⟨p, q, rfl⟩ : ∃ (p : Fin M) (q : Fin N), i = ix2 p q := ⟨i 0, i 1, eq_ix2 i⟩
  show max (z (ix2 p q)) (Ideal.ofBits .f32 0x00000000#32) = max (z (ix2 p q)) 0
  rw [Ideal.ofBits_zero_f32]

section Part1
variable (x0 : Vec Ideal S64x1024 .f32) (w1 : Vec Ideal S2048x1024 .f32) (b1 : Vec Ideal S2048 .f32)
  (w2 : Vec Ideal S2048x2048 .f32) (b2 : Vec Ideal S2048 .f32)

theorem pay3_eq : k0_pay3 (F := Ideal) x0 = arr2 (act (cur2 x0)) :=
  ind_eq_act (M := 64) (N := 1024) x0 _ _

theorem pay4_eq : k0_pay4 (F := Ideal) x0 w1 b1 = arr2 (lin (cur2 x0) (cur2 w1) (cur1 b1)) :=
  dense_eq (M := 64) (K := 1024) (N := 2048) _ rfl _ _ _ x0 w1 b1

theorem pay5_eq : k0_pay5 (F := Ideal) x0 w1 b1 = arr2 (act (lin (cur2 x0) (cur2 w1) (cur1 b1))) := by
  refine (ind_eq_act (M := 64) (N := 2048) (k0_pay4 (F := Ideal) x0 w1 b1) _ _).trans ?_
  rw [pay4_eq, cur2_arr2]

theorem pay6_eq : k0_pay6 (F := Ideal) x0 w1 b1 w2 b2
    = arr2 (lin (relu (lin (cur2 x0) (cur2 w1) (cur1 b1))) (cur2 w2) (cur1 b2)) := by
  refine (dense_eq (M := 64) (K := 2048) (N := 2048) _ rfl _ _ _
    (maximumf (F := Ideal) (k0_pay4 (F := Ideal) x0 w1 b1)
      (broadcast S64x2048 (Scalar.ofBits (F := Ideal) .f32 0x00000000#32))) w2 b2).trans ?_
  rw [max_eq_relu, pay4_eq, cur2_arr2, cur2_arr2]

theorem pay7_eq : k0_pay7 (F := Ideal) x0 w1 b1 w2 b2
    = arr2 (act (lin (relu (lin (cur2 x0) (cur2 w1) (cur1 b1))) (cur2 w2) (cur1 b2))) := by
  refine (ind_eq_act (M := 64) (N := 2048) (k0_pay6 (F := Ideal) x0 w1 b1 w2 b2) _ _).trans ?_
  rw [pay6_eq, cur2_arr2]

theorem pay8_eq : k0_pay8 (F := Ideal) x0 w1 b1 w2 b2
    = arr2 (relu (lin (relu (lin (cur2 x0) (cur2 w1) (cur1 b1))) (cur2 w2) (cur1 b2))) := by
  refine (max_eq_relu (M := 64) (N := 2048) (k0_pay6 (F := Ideal) x0 w1 b1 w2 b2)).trans ?_
  rw [pay6_eq, cur2_arr2]

end Part1

section Classifier
variable (v34 : FVec Ideal S64x2048 .f32) (w3 : Vec Ideal S1024x2048 .f32) (b3 : Vec Ideal S1024 .f32)

theorem pay1_eq : k0_pay1 (F := Ideal) v34 w3 b3 = arr2 (lin (cur2 v34) (cur2 w3) (cur1 b3)) := by
  unfold k0_pay1
  rw [shapeCast_self, shapeCast_self]
  exact dense_eq (M := 64) (K := 2048) (N := 1024) _ rfl _ _ _ v34 w3 b3

/-- The indicator of the logits on the first 1000 columns, zero on the padding. -/
theorem pay2_eq : k0_pay2 (F := Ideal) v34 w3 b3
    = arr2 (fun p q => if q.val < 1000 then ind (lin (cur2 v34) (cur2 w3) (cur1 b3) p q) else 0) := by
  funext i
  obtain ⟨p, q, rfl⟩ : ∃ (p : Fin 64) (q : Fin 1024), i = ix2 p q := ⟨i 0, i 1, eq_ix2 i⟩
  show ((((IntOp.andi (Ideal.cmp .ogt (k0_pay1 (F := Ideal) v34 w3 b3 (ix2 p q)) (Ideal.ofBits .f32 0x00000000#32))
      (IntOp.cmpi .slt (iota .tc S64x1024 32 [1] Facts₀.iota_S64x1024_d1_w32 (ix2 p q)) 1000#32)).setWidth 32).toInt : ℝ) : EReal) = _
  rw [iota_single_apply, pay1_eq, Ideal.ofBits_zero_f32, arr2_ix2, arr2_ix2]
  show ((((IntOp.andi (Ideal.cmp .ogt (lin (cur2 v34) (cur2 w3) (cur1 b3) p q) 0)
      (IntOp.cmpi .slt (BitVec.ofNat 32 q.val) 1000#32)).setWidth 32).toInt : ℝ) : EReal) = _
  rw [slt_1000 q]
  by_cases h : q.val < 1000
  · rw [if_pos h, if_pos h]; exact ind_and_one _
  · rw [if_neg h, if_neg h]; exact ind_and_zero _

end Classifier

end Cert.KernelIdeal.PayValue

end
-- ==== Proof.KIValue0.lean ====
/-
  Region 0's five output arrays after the region, each as one function of the arrays the region is entered with.

  The grid has 128 points; point `t` reads rows 64·t … 64·t+63 of the batch and every weight matrix and bias whole,
  and writes back, into rows 64·t … 64·t+63 of each output array, a function of those 64 rows alone.  A dense layer's
  row depends only on the same row of its input, so does `max(·, 0)` and so does the indicator: row `p` of what
  point `t` computes from its block is row `64·t + p` of what the network computes from the whole batch.  Every
  row `r` of an output array lies in the block of point `r / 64`, and every point writes back; so each array ends
  holding the network's matrix: the padded logits, the indicators of the input and of the two hidden
  pre-activations, and the indicator of the logits on the first 1000 columns (zero on the padding).
-/
import proofs.«114003_j36704790511729_2_alg».proof.Proof.KIRegion0
import proofs.«114003_j36704790511729_2_alg».proof.Proof.Spec
import proofs.«114003_j36704790511729_2_alg».proof.Proof.PayForward
import Idealize.ShloMosaic.Lib.Pipeline.Value

noncomputable section

namespace Cert.KernelIdeal.Val0

open Cert.KernelIdeal Cert.KernelIdeal.Gen Idealize.ShloMosaic Idealize.ShloMosaic.TcCoe Idealize.ShloMosaic.ValueIdx Hebb
open Idealize.ShloMosaic.Pipeline (Dat)

/-! ## Rows of the network: a block's row is the batch's row -/

section Rows
variable {M M' D H1 H2 C N : ℕ}

theorem relu_row {z : M2 M N} {z' : M2 M' N} {p : Fin M} {p' : Fin M'} (h : z p = z' p') : relu z p = relu z' p' := by
  funext q; show max (z p q) 0 = max (z' p' q) 0; rw [h]

theorem act_row {z : M2 M N} {z' : M2 M' N} {p : Fin M} {p' : Fin M'} (h : z p = z' p') : act z p = act z' p' := by
  funext q; show ind (z p q) = ind (z' p' q); rw [h]

/-- First hidden pre-activation of a block's row, with the weights as the block's windows hold them. -/
theorem z1_of_block {x : M2 M D} {x' : M2 M' D} {W1 W1' : M2 H1 D} {b1 b1' : Fin H1 → EReal} {p : Fin M} {p' : Fin M'}
    (hx : x p = x' p') (hW1 : W1 = W1') (hb1 : b1 = b1') : lin x W1 b1 p = z1 x' W1' b1' p' := by
  subst hW1 hb1; exact lin_row _ _ _ _ _ _ hx

/-- Second hidden pre-activation of a block's row. -/
theorem z2_of_block {x : M2 M D} {x' : M2 M' D} {W1 W1' : M2 H1 D} {b1 b1' : Fin H1 → EReal}
    {W2 W2' : M2 H2 H1} {b2 b2' : Fin H2 → EReal} {p : Fin M} {p' : Fin M'}
    (hx : x p = x' p') (hW1 : W1 = W1') (hb1 : b1 = b1') (hW2 : W2 = W2') (hb2 : b2 = b2') :
    lin (relu (lin x W1 b1)) W2 b2 p = z2 x' W1' b1' W2' b2' p' := by
  subst hW2 hb2; exact lin_row _ _ _ _ _ _ (relu_row (z1_of_block hx hW1 hb1))

/-- The last layer of a block's row. -/
theorem out_of_block {x : M2 M D} {x' : M2 M' D} {W1 W1' : M2 H1 D} {b1 b1' : Fin H1 → EReal}
    {W2 W2' : M2 H2 H1} {b2 b2' : Fin H2 → EReal} {W3 W3' : M2 C H2} {b3 b3' : Fin C → EReal} {p : Fin M} {p' : Fin M'}
    (hx : x p = x' p') (hW1 : W1 = W1') (hb1 : b1 = b1') (hW2 : W2 = W2') (hb2 : b2 = b2') (hW3 : W3 = W3') (hb3 : b3 = b3') :
    lin (relu (lin (relu (lin x W1 b1)) W2 b2)) W3 b3 p = lin (relu (z2 x' W1' b1' W2' b2')) W3' b3' p' := by
  subst hW3 hb3; exact lin_row _ _ _ _ _ _ (relu_row (z2_of_block hx hW1 hb1 hW2 hb2))

end Rows

variable (V : (c : Dev nD) → (b : Ref sig .tc) → Buf (Elt Ideal) ((c : Thread nD τ).loc b)) (c : Dev nD)

/-! ## The grid and the windows' index maps -/

theorem hz2 : (![0, 0] : Fin 2 → Nat) = fun _ => 0 := funext fun a => by fin_cases a <;> rfl
theorem hz1 : (![0] : Fin 1 → Nat) = fun _ => 0 := funext fun a => by fin_cases a <;> rfl

theorem lt_N (t : Fin cfg0.N) : t.val < 128 := Nat.lt_of_lt_of_eq t.isLt (show cfg0.N = 128 from N_0)

/-- Row `p` of block `t` is row `64·t + p` of the batch. -/
def row (t : Fin cfg0.N) (p : Fin 64) : Fin 8192 := ⟨64 * t.val + p.val, by have := lt_N t; omega⟩

/-- The printed index maps, decided over the 128 points: the input batch and the five outputs move one block of rows per
    point and stay at column block 0; the weights and biases stay at block 0. -/
theorem index_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ win0_2.index t (0 : Fin 1) = 0
    ∧ (win0_3.index t (0 : Fin 2) = 0 ∧ win0_3.index t (1 : Fin 2) = 0)
    ∧ win0_4.index t (0 : Fin 1) = 0
    ∧ (win0_5.index t (0 : Fin 2) = 0 ∧ win0_5.index t (1 : Fin 2) = 0)
    ∧ win0_6.index t (0 : Fin 1) = 0
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-! ## The input blocks -/

/-- The batch block at point `t`: rows `64·t …` of the batch. -/
theorem x_block (t : Fin cfg0.N) (p : Fin 64) (k : Fin 1024) :
    (iblk0 V c 0 t : S64x1024.Idx → EReal) (ix2 p k) = V c main_arg0 (ix2 (row t p) k) := by
  obtain ⟨⟨e0, e1⟩, -⟩ := index_facts t
  unfold iblk0
  rw [View.read_apply]
  show V c main_arg0 _ = V c main_arg0 _
  refine congrArg (V c main_arg0) (funext fun a => Fin.ext ?_)
  match a with
  | ⟨0, _⟩ => show win0_0.index t (0 : Fin 2) * 64 + 1 * p.val = 64 * t.val + p.val; rw [e0]; omega
  | ⟨1, _⟩ => show win0_0.index t (1 : Fin 2) * 1024 + 1 * k.val = k.val; rw [e1]; omega

/-- Row `p` of the batch block is row `64·t + p` of the batch. -/
theorem x_rows (t : Fin cfg0.N) (p : Fin 64) :
    cur2 (iblk0 V c 0 t : S64x1024.Idx → EReal) p = cur2 (V c main_arg0) (row t p) :=
  funext fun k => x_block V c t p k

/-- The first weight matrix's block is the whole matrix, at every point. -/
theorem w1_block (t : Fin cfg0.N) : (iblk0 V c 1 t : S2048x1024.Idx → EReal) = V c main_arg1 := by
  obtain ⟨-, ⟨e0, e1⟩, -⟩ := index_facts t
  unfold iblk0
  funext y
  rw [View.read_apply]
  show V c main_arg1 _ = V c main_arg1 _
  refine congrArg (V c main_arg1) (funext fun a => Fin.ext ?_)
  match a with
  | ⟨0, _⟩ => show win0_1.index t (0 : Fin 2) * 2048 + 1 * (y 0).val = (y 0).val; rw [e0]; omega
  | ⟨1, _⟩ => show win0_1.index t (1 : Fin 2) * 1024 + 1 * (y 1).val = (y 1).val; rw [e1]; omega

/-- The first bias's block is the whole vector. -/
theorem b1_block (t : Fin cfg0.N) : (iblk0 V c 2 t : S2048.Idx → EReal) = V c main_arg2 := by
  obtain ⟨-, -, e0, -⟩ := index_facts t
  unfold iblk0
  funext y
  rw [View.read_apply]
  show V c main_arg2 _ = V c main_arg2 _
  refine congrArg (V c main_arg2) (funext fun a => Fin.ext ?_)
  match a with
  | ⟨0, _⟩ => show win0_2.index t (0 : Fin 1) * 2048 + 1 * (y 0).val = (y 0).val; rw [e0]; omega

/-- The second weight matrix's block is the whole matrix. -/
theorem w2_block (t : Fin cfg0.N) : (iblk0 V c 3 t : S2048x2048.Idx → EReal) = V c main_arg3 := by
  obtain ⟨-, -, -, ⟨e0, e1⟩, -⟩ := index_facts t
  unfold iblk0
  funext y
  rw [View.read_apply]
  show V c main_arg3 _ = V c main_arg3 _
  refine congrArg (V c main_arg3) (funext fun a => Fin.ext ?_)
  match a with
  | ⟨0, _⟩ => show win0_3.index t (0 : Fin 2) * 2048 + 1 * (y 0).val = (y 0).val; rw [e0]; omega
  | ⟨1, _⟩ => show win0_3.index t (1 : Fin 2) * 2048 + 1 * (y 1).val = (y 1).val; rw [e1]; omega

/-- The second bias's block is the whole vector. -/
theorem b2_block (t : Fin cfg0.N) : (iblk0 V c 4 t : S2048.Idx → EReal) = V c main_arg4 := by
  obtain ⟨-, -, -, -, e0, -⟩ := index_facts t
  unfold iblk0
  funext y
  rw [View.read_apply]
  show V c main_arg4 _ = V c main_arg4 _
  refine congrArg (V c main_arg4) (funext fun a => Fin.ext ?_)
  match a with
  | ⟨0, _⟩ => show win0_4.index t (0 : Fin 1) * 2048 + 1 * (y 0).val = (y 0).val; rw [e0]; omega

/-- The padded last weight matrix's block is the whole matrix. -/
theorem w3_block (t : Fin cfg0.N) : (iblk0 V c 5 t : S1024x2048.Idx → EReal) = V c main_v0 := by
  obtain ⟨-, -, -, -, -, ⟨e0, e1⟩, -⟩ := index_facts t
  unfold iblk0
  funext y
  rw [View.read_apply]
  show V c main_v0 _ = V c main_v0 _
  refine congrArg (V c main_v0) (funext fun a => Fin.ext ?_)
  match a with
  | ⟨0, _⟩ => show win0_5.index t (0 : Fin 2) * 1024 + 1 * (y 0).val = (y 0).val; rw [e0]; omega
  | ⟨1, _⟩ => show win0_5.index t (1 : Fin 2) * 2048 + 1 * (y 1).val = (y 1).val; rw [e1]; omega

/-- The padded last bias's block is the whole vector. -/
theorem b3_block (t : Fin cfg0.N) : (iblk0 V c 6 t : S1024.Idx → EReal) = V c main_v1 := by
  obtain ⟨-, -, -, -, -, -, e0, -⟩ := index_facts t
  unfold iblk0
  funext y
  rw [View.read_apply]
  show V c main_v1 _ = V c main_v1 _
  refine congrArg (V c main_v1) (funext fun a => Fin.ext ?_)
  match a with
  | ⟨0, _⟩ => show win0_6.index t (0 : Fin 1) * 1024 + 1 * (y 0).val = (y 0).val; rw [e0]; omega

/-! ## The output blocks inside their arrays -/

/-- A block of 64 rows whose row `p` is row `64·t + p` of `G`, as window 7 cuts it, is block `t` of `G` read through the window. -/
theorem block_read7 (t : Fin cfg0.N) (F : M2 64 1024) (G : M2 8192 1024) (h : ∀ (p : Fin 64) (q : Fin 1024), F p q = G (row t p) q) :
    (cfg0.win 7).cut (grid0.coords t) (arr2 F) = ((cfg0.win 7).blk t).view.read (Elt Ideal) (arr2 G) := by
  obtain ⟨-, -, -, -, -, -, -, ⟨e0, e1⟩, -⟩ := index_facts t
  funext j
  have h0 : (j 0).val < 64 := (j 0).isLt
  have h1 : (j 1).val < 1024 := (j 1).isLt
  rw [View.read_apply]
  show F ⟨(j 0).val, h0⟩ ⟨(j 1).val, h1⟩ = G ((((cfg0.win 7).blk t).view.emb j) 0) ((((cfg0.win 7).blk t).view.emb j) 1)
  rw [h]
  congr 1
  · apply Fin.ext
    show 64 * t.val + (j 0).val = win0_7.index t (0 : Fin 2) * 64 + 1 * (j 0).val
    rw [e0]; omega
  · apply Fin.ext
    show (j 1).val = win0_7.index t (1 : Fin 2) * 1024 + 1 * (j 1).val
    rw [e1]; omega

/-- An index of the array is in point `t`'s block of window 7 iff each coordinate is in the block's range on its axis. -/
theorem mem_block7 (t : Fin cfg0.N) (i : S8192x1024.Idx) :
    i ∈ ((cfg0.win 7).blk t).view.set ↔ ∀ a : Fin 2, win0_7.index t a * S64x1024.size a ≤ (i a).val ∧ (i a).val < win0_7.index t a * S64x1024.size a + S64x1024.size a := by
  show i ∈ ((View.whole main_v2_0).slice (win0_7.rect t)).set ↔ _
  rw [View.set_slice_whole, Rect.mem_set_unit]
  exact Iff.rfl

/-- Row `r` of window 7's array is in the block of point `r / 64`, which is written back. -/
theorem rows_covered7 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  let t : Fin cfg0.N := ⟨(i 0).val / 64, by rw [show cfg0.N = 128 from N_0]; omega⟩
  obtain ⟨-, -, -, -, -, -, -, ⟨e0, e1⟩, -⟩ := index_facts t
  refine ⟨t, flush0_7 t, ?_⟩
  rw [mem_block7]
  intro a
  match a with
  | ⟨0, _⟩ =>
    show win0_7.index t (0 : Fin 2) * 64 ≤ (i 0).val ∧ (i 0).val < win0_7.index t (0 : Fin 2) * 64 + 64
    rw [e0]
    show (i 0).val / 64 * 64 ≤ (i 0).val ∧ (i 0).val < (i 0).val / 64 * 64 + 64
    omega
  | ⟨1, _⟩ =>
    show win0_7.index t (1 : Fin 2) * 1024 ≤ (i 1).val ∧ (i 1).val < win0_7.index t (1 : Fin 2) * 1024 + 1024
    rw [e1]; omega

/-- A block of 64 rows whose row `p` is row `64·t + p` of `G`, as window 8 cuts it, is block `t` of `G` read through the window. -/
theorem block_read8 (t : Fin cfg0.N) (F : M2 64 1024) (G : M2 8192 1024) (h : ∀ (p : Fin 64) (q : Fin 1024), F p q = G (row t p) q) :
    (cfg0.win 8).cut (grid0.coords t) (arr2 F) = ((cfg0.win 8).blk t).view.read (Elt Ideal) (arr2 G) := by
  obtain ⟨-, -, -, -, -, -, -, -, ⟨e0, e1⟩, -⟩ := index_facts t
  funext j
  have h0 : (j 0).val < 64 := (j 0).isLt
  have h1 : (j 1).val < 1024 := (j 1).isLt
  rw [View.read_apply]
  show F ⟨(j 0).val, h0⟩ ⟨(j 1).val, h1⟩ = G ((((cfg0.win 8).blk t).view.emb j) 0) ((((cfg0.win 8).blk t).view.emb j) 1)
  rw [h]
  congr 1
  · apply Fin.ext
    show 64 * t.val + (j 0).val = win0_8.index t (0 : Fin 2) * 64 + 1 * (j 0).val
    rw [e0]; omega
  · apply Fin.ext
    show (j 1).val = win0_8.index t (1 : Fin 2) * 1024 + 1 * (j 1).val
    rw [e1]; omega

/-- An index of the array is in point `t`'s block of window 8 iff each coordinate is in the block's range on its axis. -/
theorem mem_block8 (t : Fin cfg0.N) (i : S8192x1024.Idx) :
    i ∈ ((cfg0.win 8).blk t).view.set ↔ ∀ a : Fin 2, win0_8.index t a * S64x1024.size a ≤ (i a).val ∧ (i a).val < win0_8.index t a * S64x1024.size a + S64x1024.size a := by
  show i ∈ ((View.whole main_v2_1).slice (win0_8.rect t)).set ↔ _
  rw [View.set_slice_whole, Rect.mem_set_unit]
  exact Iff.rfl

/-- Row `r` of window 8's array is in the block of point `r / 64`, which is written back. -/
theorem rows_covered8 (i : S8192x1024.Idx) : ∃ t : Fin cfg0.N, (cfg0.win 8).flush t = true ∧ i ∈ ((cfg0.win 8).blk t).view.set := by
  have hi0 : (i 0).val < 8192 := (i 0).isLt
  have hi1 : (i 1).val < 1024 := (i 1).isLt
  let t : Fin cfg0.N := ⟨(i 0).val / 64, by rw [show cfg0.N = 128 from N_0]; omega⟩
  obtain ⟨-, -, -, -, -, -, -, -, ⟨e0, e1⟩, -⟩ := index_facts t
  refine ⟨t, flush0_8 t, ?_⟩
  rw [mem_block8]
  intro a
  match a with
  | ⟨0, _⟩ =>
    show win0_8.index t (0 : Fin 2) * 64 ≤ (i 0).val ∧ (i 0).val < win0_8.index t (0 : Fin 2) * 64 + 64
    rw [e0]
    show (i 0).val / 64 * 64 ≤ (i 0).val ∧ (i 0).val < (i 0).val / 64 * 64 + 64
    omega
  | ⟨1, _⟩ =>
    show win0_8.index t (1 : Fin 2) * 1024 ≤ (i 1).val ∧ (i 1).val < win0_8.index t (1 : Fin 2) * 1024 + 1024
    rw [e1]; omega

/-- A block of 64 rows whose row `p` is row `64·t + p` of `G`, as window 9 cuts it, is block `t` of `G` read through the window. -/
theorem block_read9 (t : Fin cfg0.N) (F : M2 64 2048) (G : M2 8192 2048) (h : ∀ (p : Fin 64) (q : Fin 2048), F p q = G (row t p) q) :
    (cfg0.win 9).cut (grid0.coords t) (arr2 F) = ((cfg0.win 9).blk t).view.read (Elt Ideal) (arr2 G) := by
  obtain ⟨-, -, -, -, -, -, -, -, -, ⟨e0, e1⟩, -⟩ := index_facts t
  funext j
  have h0 : (j 0).val < 64 := (j 0).isLt
  have h1 : (j 1).val < 2048 := (j 1).isLt
  rw [View.read_apply]
  show F ⟨(j 0).val, h0⟩ ⟨(j 1).val, h1⟩ = G ((((cfg0.win 9).blk t).view.emb j) 0) ((((cfg0.win 9).blk t).view.emb j) 1)
  rw [h]
  congr 1
  · apply Fin.ext
    show 64 * t.val + (j 0).val = win0_9.index t (0 : Fin 2) * 64 + 1 * (j 0).val
    rw [e0]; omega
  · apply Fin.ext
    show (j 1).val = win0_9.index t (1 : Fin 2) * 2048 + 1 * (j 1).val
    rw [e1]; omega

/-- An index of the array is in point `t`'s block of window 9 iff each coordinate is in the block's range on its axis. -/
theorem mem_block9 (t : Fin cfg0.N) (i : S8192x2048.Idx) :
    i ∈ ((cfg0.win 9).blk t).view.set ↔ ∀ a : Fin 2, win0_9.index t a * S64x2048.size a ≤ (i a).val ∧ (i a).val < win0_9.index t a * S64x2048.size a + S64x2048.size a := by
  show i ∈ ((View.whole main_v2_2).slice (win0_9.rect t)).set ↔ _
  rw [View.set_slice_whole, Rect.mem_set_unit]
  exact Iff.rfl

/-- Row `r` of window 9's array is in the block of point `r / 64`, which is written back. -/
theorem rows_covered9 (i : S8192x2048.Idx) : ∃ t : Fin cfg0.N, (cfg0.win 9).flush t = true ∧ i ∈ ((cfg0.win 9).blk t).view.set := by
  have hi0 : (i 0).val < 8192 := (i 0).isLt
  have hi1 : (i 1).val < 2048 := (i 1).isLt
  let t : Fin cfg0.N := ⟨(i 0).val / 64, by rw [show cfg0.N = 128 from N_0]; omega⟩
  obtain ⟨-, -, -, -, -, -, -, -, -, ⟨e0, e1⟩, -⟩ := index_facts t
  refine ⟨t, flush0_9 t, ?_⟩
  rw [mem_block9]
  intro a
  match a with
  | ⟨0, _⟩ =>
    show win0_9.index t (0 : Fin 2) * 64 ≤ (i 0).val ∧ (i 0).val < win0_9.index t (0 : Fin 2) * 64 + 64
    rw [e0]
    show (i 0).val / 64 * 64 ≤ (i 0).val ∧ (i 0).val < (i 0).val / 64 * 64 + 64
    omega
  | ⟨1, _⟩ =>
    show win0_9.index t (1 : Fin 2) * 2048 ≤ (i 1).val ∧ (i 1).val < win0_9.index t (1 : Fin 2) * 2048 + 2048
    rw [e1]; omega

/-- A block of 64 rows whose row `p` is row `64·t + p` of `G`, as window 10 cuts it, is block `t` of `G` read through the window. -/
theorem block_read10 (t : Fin cfg0.N) (F : M2 64 2048) (G : M2 8192 2048) (h : ∀ (p : Fin 64) (q : Fin 2048), F p q = G (row t p) q) :
    (cfg0.win 10).cut (grid0.coords t) (arr2 F) = ((cfg0.win 10).blk t).view.read (Elt Ideal) (arr2 G) := by
  obtain ⟨-, -, -, -, -, -, -, -, -, -, ⟨e0, e1⟩, -⟩ := index_facts t
  funext j
  have h0 : (j 0).val < 64 := (j 0).isLt
  have h1 : (j 1).val < 2048 := (j 1).isLt
  rw [View.read_apply]
  show F ⟨(j 0).val, h0⟩ ⟨(j 1).val, h1⟩ = G ((((cfg0.win 10).blk t).view.emb j) 0) ((((cfg0.win 10).blk t).view.emb j) 1)
  rw [h]
  congr 1
  · apply Fin.ext
    show 64 * t.val + (j 0).val = win0_10.index t (0 : Fin 2) * 64 + 1 * (j 0).val
    rw [e0]; omega
  · apply Fin.ext
    show (j 1).val = win0_10.index t (1 : Fin 2) * 2048 + 1 * (j 1).val
    rw [e1]; omega

/-- An index of the array is in point `t`'s block of window 10 iff each coordinate is in the block's range on its axis. -/
theorem mem_block10 (t : Fin cfg0.N) (i : S8192x2048.Idx) :
    i ∈ ((cfg0.win 10).blk t).view.set ↔ ∀ a : Fin 2, win0_10.index t a * S64x2048.size a ≤ (i a).val ∧ (i a).val < win0_10.index t a * S64x2048.size a + S64x2048.size a := by
  show i ∈ ((View.whole main_v2_3).slice (win0_10.rect t)).set ↔ _
  rw [View.set_slice_whole, Rect.mem_set_unit]
  exact Iff.rfl

/-- Row `r` of window 10's array is in the block of point `r / 64`, which is written back. -/
theorem rows_covered10 (i : S8192x2048.Idx) : ∃ t : Fin cfg0.N, (cfg0.win 10).flush t = true ∧ i ∈ ((cfg0.win 10).blk t).view.set := by
  have hi0 : (i 0).val < 8192 := (i 0).isLt
  have hi1 : (i 1).val < 2048 := (i 1).isLt
  let t : Fin cfg0.N := ⟨(i 0).val / 64, by rw [show cfg0.N = 128 from N_0]; omega⟩
  obtain ⟨-, -, -, -, -, -, -, -, -, -, ⟨e0, e1⟩, -⟩ := index_facts t
  refine ⟨t, flush0_10 t, ?_⟩
  rw [mem_block10]
  intro a
  match a with
  | ⟨0, _⟩ =>
    show win0_10.index t (0 : Fin 2) * 64 ≤ (i 0).val ∧ (i 0).val < win0_10.index t (0 : Fin 2) * 64 + 64
    rw [e0]
    show (i 0).val / 64 * 64 ≤ (i 0).val ∧ (i 0).val < (i 0).val / 64 * 64 + 64
    omega
  | ⟨1, _⟩ =>
    show win0_10.index t (1 : Fin 2) * 2048 ≤ (i 1).val ∧ (i 1).val < win0_10.index t (1 : Fin 2) * 2048 + 2048
    rw [e1]; omega

/-- A block of 64 rows whose row `p` is row `64·t + p` of `G`, as window 11 cuts it, is block `t` of `G` read through the window. -/
theorem block_read11 (t : Fin cfg0.N) (F : M2 64 1024) (G : M2 8192 1024) (h : ∀ (p : Fin 64) (q : Fin 1024), F p q = G (row t p) q) :
    (cfg0.win 11).cut (grid0.coords t) (arr2 F) = ((cfg0.win 11).blk t).view.read (Elt Ideal) (arr2 G) := by
  obtain ⟨-, -, -, -, -, -, -, -, -, -, -, ⟨e0, e1⟩⟩ := index_facts t
  funext j
  have h0 : (j 0).val < 64 := (j 0).isLt
  have h1 : (j 1).val < 1024 := (j 1).isLt
  rw [View.read_apply]
  show F ⟨(j 0).val, h0⟩ ⟨(j 1).val, h1⟩ = G ((((cfg0.win 11).blk t).view.emb j) 0) ((((cfg0.win 11).blk t).view.emb j) 1)
  rw [h]
  congr 1
  · apply Fin.ext
    show 64 * t.val + (j 0).val = win0_11.index t (0 : Fin 2) * 64 + 1 * (j 0).val
    rw [e0]; omega
  · apply Fin.ext
    show (j 1).val = win0_11.index t (1 : Fin 2) * 1024 + 1 * (j 1).val
    rw [e1]; omega

/-- An index of the array is in point `t`'s block of window 11 iff each coordinate is in the block's range on its axis. -/
theorem mem_block11 (t : Fin cfg0.N) (i : S8192x1024.Idx) :
    i ∈ ((cfg0.win 11).blk t).view.set ↔ ∀ a : Fin 2, win0_11.index t a * S64x1024.size a ≤ (i a).val ∧ (i a).val < win0_11.index t a * S64x1024.size a + S64x1024.size a := by
  show i ∈ ((View.whole main_v2_4).slice (win0_11.rect t)).set ↔ _
  rw [View.set_slice_whole, Rect.mem_set_unit]
  exact Iff.rfl

/-- Row `r` of window 11's array is in the block of point `r / 64`, which is written back. -/
theorem rows_covered11 (i : S8192x1024.Idx) : ∃ t : Fin cfg0.N, (cfg0.win 11).flush t = true ∧ i ∈ ((cfg0.win 11).blk t).view.set := by
  have hi0 : (i 0).val < 8192 := (i 0).isLt
  have hi1 : (i 1).val < 1024 := (i 1).isLt
  let t : Fin cfg0.N := ⟨(i 0).val / 64, by rw [show cfg0.N = 128 from N_0]; omega⟩
  obtain ⟨-, -, -, -, -, -, -, -, -, -, -, ⟨e0, e1⟩⟩ := index_facts t
  refine ⟨t, flush0_11 t, ?_⟩
  rw [mem_block11]
  intro a
  match a with
  | ⟨0, _⟩ =>
    show win0_11.index t (0 : Fin 2) * 64 ≤ (i 0).val ∧ (i 0).val < win0_11.index t (0 : Fin 2) * 64 + 64
    rw [e0]
    show (i 0).val / 64 * 64 ≤ (i 0).val ∧ (i 0).val < (i 0).val / 64 * 64 + 64
    omega
  | ⟨1, _⟩ =>
    show win0_11.index t (1 : Fin 2) * 1024 ≤ (i 1).val ∧ (i 1).val < win0_11.index t (1 : Fin 2) * 1024 + 1024
    rw [e1]; omega

/-! ## What each point writes back is its block of the network's matrix -/

theorem flushed0_8 (t : Fin cfg0.N) :
    (dat0 V c).flushed 8 t = ((cfg0.win 8).blk t).view.read (Elt Ideal) (arr2 (act (cur2 (V c main_arg0)))) := by
  show (cfg0.win 8).cut (grid0.coords t) ((dat0 V c).after 8 t) = _
  rw [after0_8]
  unfold out0_8
  rw [View.canon_unit_zero hz2]
  simp only [View.ld_unit_zero (S := S64x1024) hz2]
  rw [PayValue.pay3_eq]
  exact block_read8 t _ _ fun p q => congrFun (act_row (x_rows V c t p)) q

theorem flushed0_9 (t : Fin cfg0.N) :
    (dat0 V c).flushed 9 t = ((cfg0.win 9).blk t).view.read (Elt Ideal) (arr2 (act (z1 (cur2 (V c main_arg0)) (cur2 (V c main_arg1)) (cur1 (V c main_arg2))))) := by
  show (cfg0.win 9).cut (grid0.coords t) ((dat0 V c).after 9 t) = _
  rw [after0_9]
  unfold out0_9
  rw [View.canon_unit_zero hz2]
  simp only [View.ld_unit_zero (S := S64x1024) hz2, View.ld_unit_zero (S := S2048x1024) hz2, View.ld_unit_zero (S := S2048) hz1, View.ld_unit_zero (S := S2048x2048) hz2, View.ld_unit_zero (S := S1024x2048) hz2, View.ld_unit_zero (S := S1024) hz1]
  rw [PayValue.pay5_eq]
  exact block_read9 t _ _ fun p q => congrFun (act_row (z1_of_block (x_rows V c t p) (congrArg cur2 (w1_block V c t)) (congrArg cur1 (b1_block V c t)))) q

theorem flushed0_10 (t : Fin cfg0.N) :
    (dat0 V c).flushed 10 t = ((cfg0.win 10).blk t).view.read (Elt Ideal) (arr2 (act (z2 (cur2 (V c main_arg0)) (cur2 (V c main_arg1)) (cur1 (V c main_arg2)) (cur2 (V c main_arg3)) (cur1 (V c main_arg4))))) := by
  show (cfg0.win 10).cut (grid0.coords t) ((dat0 V c).after 10 t) = _
  rw [after0_10]
  unfold out0_10
  rw [View.canon_unit_zero hz2]
  simp only [View.ld_unit_zero (S := S64x1024) hz2, View.ld_unit_zero (S := S2048x1024) hz2, View.ld_unit_zero (S := S2048) hz1, View.ld_unit_zero (S := S2048x2048) hz2, View.ld_unit_zero (S := S1024x2048) hz2, View.ld_unit_zero (S := S1024) hz1]
  rw [PayValue.pay7_eq]
  exact block_read10 t _ _ fun p q => congrFun (act_row (z2_of_block (x_rows V c t p) (congrArg cur2 (w1_block V c t)) (congrArg cur1 (b1_block V c t)) (congrArg cur2 (w2_block V c t)) (congrArg cur1 (b2_block V c t)))) q

theorem flushed0_7 (t : Fin cfg0.N) :
    (dat0 V c).flushed 7 t = ((cfg0.win 7).blk t).view.read (Elt Ideal) (arr2 (lin (relu (z2 (cur2 (V c main_arg0)) (cur2 (V c main_arg1)) (cur1 (V c main_arg2)) (cur2 (V c main_arg3)) (cur1 (V c main_arg4)))) (cur2 (V c main_v0)) (cur1 (V c main_v1)))) := by
  show (cfg0.win 7).cut (grid0.coords t) ((dat0 V c).after 7 t) = _
  rw [after0_7]
  unfold out0_7 hid0
  rw [View.canon_unit_zero hz2]
  simp only [View.ld_unit_zero (S := S64x1024) hz2, View.ld_unit_zero (S := S2048x1024) hz2, View.ld_unit_zero (S := S2048) hz1, View.ld_unit_zero (S := S2048x2048) hz2, View.ld_unit_zero (S := S1024x2048) hz2, View.ld_unit_zero (S := S1024) hz1]
  rw [PayValue.pay1_eq, PayValue.pay8_eq, PayValue.cur2_arr2]
  exact block_read7 t _ _ fun p q => congrFun (out_of_block (x_rows V c t p) (congrArg cur2 (w1_block V c t)) (congrArg cur1 (b1_block V c t)) (congrArg cur2 (w2_block V c t)) (congrArg cur1 (b2_block V c t)) (congrArg cur2 (w3_block V c t)) (congrArg cur1 (b3_block V c t))) q

theorem flushed0_11 (t : Fin cfg0.N) :
    (dat0 V c).flushed 11 t = ((cfg0.win 11).blk t).view.read (Elt Ideal)
      (arr2 (fun p q => if q.val < 1000 then ind (lin (relu (z2 (cur2 (V c main_arg0)) (cur2 (V c main_arg1)) (cur1 (V c main_arg2)) (cur2 (V c main_arg3)) (cur1 (V c main_arg4)))) (cur2 (V c main_v0)) (cur1 (V c main_v1)) p q) else 0)) := by
  show (cfg0.win 11).cut (grid0.coords t) ((dat0 V c).after 11 t) = _
  rw [after0_11]
  unfold out0_11 hid0
  rw [View.canon_unit_zero hz2]
  simp only [View.ld_unit_zero (S := S64x1024) hz2, View.ld_unit_zero (S := S2048x1024) hz2, View.ld_unit_zero (S := S2048) hz1, View.ld_unit_zero (S := S2048x2048) hz2, View.ld_unit_zero (S := S1024x2048) hz2, View.ld_unit_zero (S := S1024) hz1]
  rw [PayValue.pay2_eq, PayValue.pay8_eq, PayValue.cur2_arr2]
  exact block_read11 t _ _ fun p q =>
    congrArg (fun r : Fin 1024 → EReal => if q.val < 1000 then ind (r q) else 0) (out_of_block (x_rows V c t p) (congrArg cur2 (w1_block V c t)) (congrArg cur1 (b1_block V c t)) (congrArg cur2 (w2_block V c t)) (congrArg cur1 (b2_block V c t)) (congrArg cur2 (w3_block V c t)) (congrArg cur1 (b3_block V c t)))

/-! ## The arrays after the region -/

/-- The padded logits. -/
theorem final0_7 : (dat0 V c).arrAt 7 cfg0.N = arr2 (lin (relu (z2 (cur2 (V c main_arg0)) (cur2 (V c main_arg1)) (cur1 (V c main_arg2)) (cur2 (V c main_arg3)) (cur1 (V c main_arg4)))) (cur2 (V c main_v0)) (cur1 (V c main_v1))) :=
  (dat0 V c).arrAt_eq_of_cover 7 _ (fun t _ => flushed0_7 V c t) rows_covered7

/-- The indicator of the input batch. -/
theorem final0_8 : (dat0 V c).arrAt 8 cfg0.N = arr2 (act (cur2 (V c main_arg0))) :=
  (dat0 V c).arrAt_eq_of_cover 8 _ (fun t _ => flushed0_8 V c t) rows_covered8

/-- The indicator of the first hidden pre-activation. -/
theorem final0_9 : (dat0 V c).arrAt 9 cfg0.N = arr2 (act (z1 (cur2 (V c main_arg0)) (cur2 (V c main_arg1)) (cur1 (V c main_arg2)))) :=
  (dat0 V c).arrAt_eq_of_cover 9 _ (fun t _ => flushed0_9 V c t) rows_covered9

/-- The indicator of the second hidden pre-activation. -/
theorem final0_10 : (dat0 V c).arrAt 10 cfg0.N = arr2 (act (z2 (cur2 (V c main_arg0)) (cur2 (V c main_arg1)) (cur1 (V c main_arg2)) (cur2 (V c main_arg3)) (cur1 (V c main_arg4)))) :=
  (dat0 V c).arrAt_eq_of_cover 10 _ (fun t _ => flushed0_10 V c t) rows_covered10

/-- The indicator of the logits on the first 1000 columns, zero on the padding. -/
theorem final0_11 : (dat0 V c).arrAt 11 cfg0.N
    = arr2 (fun p q => if q.val < 1000 then ind (lin (relu (z2 (cur2 (V c main_arg0)) (cur2 (V c main_arg1)) (cur1 (V c main_arg2)) (cur2 (V c main_arg3)) (cur1 (V c main_arg4)))) (cur2 (V c main_v0)) (cur1 (V c main_v1)) p q) else 0) :=
  (dat0 V c).arrAt_eq_of_cover 11 _ (fun t _ => flushed0_11 V c t) rows_covered11

end Cert.KernelIdeal.Val0

end
-- ==== Proof.LibPadRead.lean ====
/-
  A padded array read at an index (`stablehlo.pad` with no interior padding).

  `pad t lo hi interior x v` holds, at a result index `j`, the operand `x` where `j` minus the low padding is an
  operand index on every axis, and the padding value `v` elsewhere. With no interior padding the two cases are
  plain intervals: `j` is inside when `lo a ≤ j a < lo a + size a` on every axis `a`, and then reads `x` at
  `j - lo`; it is outside as soon as ONE axis leaves its interval, and then reads the padding value.
  The caller names the operand index by its coordinates and owes one linear equation per axis.
-/
import Idealize.ShloMosaic.PureOps.Ideal

namespace Cert.Lib.PadRead

open Idealize.ShloMosaic

variable {s t u : Shape} {α : Type}

/-- INSIDE: if on every axis the result coordinate is the low padding plus an operand coordinate `k a` (and the
    axis has no interior padding), the padded array reads the operand at `k`. -/
theorem pad_apply_inside (lo hi interior : Fin s.rank → Nat) (x : s.Idx → α) (v : u.Idx → α)
    (h : s.Pads lo hi interior t) (hu : 0 < u.numel) (j : t.Idx) (k : s.Idx)
    (hint : ∀ a, interior a = 0)
    (hk : ∀ a : Fin s.rank, (j (a.cast h.1)).val = lo a + (k a).val) :
    pad t lo hi interior x v h hu j = x k := by
  unfold pad
  have hin : ∀ a : Fin s.rank, lo a ≤ (j (a.cast h.1)).val
      ∧ ((j (a.cast h.1)).val - lo a) % (interior a + 1) = 0
      ∧ ((j (a.cast h.1)).val - lo a) / (interior a + 1) < s.size a := fun a => by
    rw [hint a, hk a, Nat.add_sub_cancel_left, Nat.zero_add, Nat.mod_one, Nat.div_one]
    exact ⟨Nat.le_add_right _ _, rfl, (k a).isLt⟩
  rw [dif_pos hin]
  refine congrArg x (funext fun a => Fin.ext ?_)
  show ((j (a.cast h.1)).val - lo a) / (interior a + 1) = (k a).val
  rw [hint a, hk a, Nat.add_sub_cancel_left, Nat.zero_add, Nat.div_one]

/-- OUTSIDE: if on ONE axis (without interior padding) the result coordinate is below the low padding or at or
    past the low padding plus the operand's extent, the padded array reads the padding value. -/
theorem pad_apply_outside (lo hi interior : Fin s.rank → Nat) (x : s.Idx → α) (v : u.Idx → α)
    (h : s.Pads lo hi interior t) (hu : 0 < u.numel) (j : t.Idx) (a : Fin s.rank)
    (hint : interior a = 0)
    (ha : (j (a.cast h.1)).val < lo a ∨ lo a + s.size a ≤ (j (a.cast h.1)).val) :
    pad t lo hi interior x v h hu j = v (Shape.Idx.first hu) := by
  unfold pad
  rw [dif_neg]
  intro hin
  obtain ⟨h1, -, h3⟩ := hin a
  rw [hint, Nat.zero_add, Nat.div_one] at h3
  omega

end Cert.Lib.PadRead
-- ==== Proof.LayoutReads.lean ====
/-
  The host operations around the kernel's regions, read at an index.

  The last layer has 1000 outputs; the kernel's program pads the weight matrix and the bias with 24 trailing rows
  (entries) of a padding value up to 1024, and cuts the two results that carry that axis back to 1000 columns.
  Padding only at the high end leaves every original entry where it was: row `q < 1000` of the padded array is row
  `q` of the operand.  A slice that starts at the origin reads the operand at the same coordinates.
-/
import proofs.«114003_j36704790511729_2_alg».proof.KernelIdeal
import proofs.«114003_j36704790511729_2_alg».proof.Proof.LibPadRead
import Idealize.ShloMosaic.Lib.ValueIdx
import Idealize.ShloMosaic.Lib.Pipeline.Value

namespace Cert.KernelIdeal.LayoutReads

open Cert.KernelIdeal Idealize.ShloMosaic Idealize.ShloMosaic.ValueIdx
open Facts₀

variable [Facts₀]

/-- The padded last-layer weights at an original row: the weights there. -/
theorem pad_w3 (x : FVec Ideal S1000x2048 .f32) (v : FVec Ideal S_ .f32) (q : Fin 1000) (k : Fin 2048) :
    pad S1024x2048 ![0, 0] ![24, 0] ![0, 0] x v pads_S1000x2048_S1024x2048_0240_000 h_S_
        (ix2 (⟨q.val, by omega⟩ : Fin 1024) k) = x (ix2 q k) :=
  Cert.Lib.PadRead.pad_apply_inside _ _ _ x v _ _ _ (ix2 q k)
    (fun a => match a with | ⟨0, _⟩ => rfl | ⟨1, _⟩ => rfl)
    (fun a => match a with
      | ⟨0, _⟩ => by show q.val = 0 + q.val; omega
      | ⟨1, _⟩ => by show k.val = 0 + k.val; omega)

/-- The padded last-layer bias at an original entry: the bias there. -/
theorem pad_b3 (x : FVec Ideal S1000 .f32) (v : FVec Ideal S_ .f32) (q : Fin 1000) :
    pad S1024 ![0] ![24] ![0] x v pads_S1000_S1024_0240 h_S_ (ix1 (⟨q.val, by omega⟩ : Fin 1024)) = x (ix1 q) :=
  Cert.Lib.PadRead.pad_apply_inside _ _ _ x v _ _ _ (ix1 q)
    (fun a => match a with | ⟨0, _⟩ => rfl)
    (fun a => match a with | ⟨0, _⟩ => by show q.val = 0 + q.val; omega)

/-- The logits cut back to 1000 columns read the wide array at the same row and column. -/
theorem slice_logits (x : FVec Ideal S8192x1024 .f32) (p : Fin 8192) (q : Fin 1000) :
    extractStridedSlice S8192x1000 ![0, 0] x slices_S8192x1024_S8192x1000_0_0 (ix2 p q)
      = x (ix2 p (⟨q.val, by omega⟩ : Fin 1024)) :=
  extractStridedSlice_apply _ x _ (ix2 p q) _
    (fun a => match a with
      | ⟨0, _⟩ => by show p.val = 0 + p.val; omega
      | ⟨1, _⟩ => by show q.val = 0 + q.val; omega)

/-- The last co-activation matrix cut back to 1000 columns reads the wide array at the same row and column. -/
theorem slice_coact2 (x : FVec Ideal S2048x1024 .f32) (p : Fin 2048) (q : Fin 1000) :
    extractStridedSlice S2048x1000 ![0, 0] x slices_S2048x1024_S2048x1000_0_0 (ix2 p q)
      = x (ix2 p (⟨q.val, by omega⟩ : Fin 1024)) :=
  extractStridedSlice_apply _ x _ (ix2 p q) _
    (fun a => match a with
      | ⟨0, _⟩ => by show p.val = 0 + p.val; omega
      | ⟨1, _⟩ => by show q.val = 0 + q.val; omega)

end Cert.KernelIdeal.LayoutReads
-- ==== Proof.KIOut0.lean ====
/-
  The forward region's arrays in terms of the launch memory, and the program's first result.  The region is entered with
  the first five arguments as launched and the classifier's weights and bias padded to 1024 classes; its five output
  arrays are the padded logits and the four indicator matrices of the specification.  Cutting the padded logits back to
  1000 columns reads only rows of the padded weights and entries of the padded bias that the padding left in place, so
  the result is the specification's logits.
-/
import proofs.«114003_j36704790511729_2_alg».proof.Proof.KIEnds
import proofs.«114003_j36704790511729_2_alg».proof.Proof.KIValue0
import proofs.«114003_j36704790511729_2_alg».proof.Proof.LayoutReads
import proofs.«114003_j36704790511729_2_alg».proof.Proof.Spec

noncomputable section

namespace Cert.KernelIdeal.Run

open Cert.KernelIdeal Cert.KernelIdeal.Gen Hebb
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-- The padded classifier weights and bias the forward region is entered with, by coordinates. -/
abbrev W3p : M2 1024 2048 := cur2 (BV4 m ρ c main_v0)
abbrev B3p : Fin 1024 → EReal := cur1 (BV4 m ρ c main_v1)

/-- Below class 1000 the padded weights are the weights, -/
theorem W3p_eq (q : Fin 1000) (k : Fin 2048) : W3p m ρ c (⟨q.val, by omega⟩ : Fin 1024) k = cur2 (m ((c : Thread nD τ).loc main_arg5)) q k := by
  obtain ⟨v, hv⟩ := BV4_v0 m ρ c
  show BV4 m ρ c main_v0 (ix2 (⟨q.val, by omega⟩ : Fin 1024) k) = m ((c : Thread nD τ).loc main_arg5) (ix2 q k)
  rw [hv]; exact LayoutReads.pad_w3 _ _ q k
/-- and the padded bias is the bias. -/
theorem B3p_eq (q : Fin 1000) : B3p m ρ c (⟨q.val, by omega⟩ : Fin 1024) = cur1 (m ((c : Thread nD τ).loc main_arg6)) q := by
  obtain ⟨v, hv⟩ := BV4_v1 m ρ c
  show BV4 m ρ c main_v1 (ix1 (⟨q.val, by omega⟩ : Fin 1024)) = m ((c : Thread nD τ).loc main_arg6) (ix1 q)
  rw [hv]; exact LayoutReads.pad_b3 _ _ q

/-- The padded logits the forward region leaves. -/
theorem fwd_logits : (dat0 (BV4 m ρ) c).arrAt 7 cfg0.N = arr2 (lin (relu (z2 (cur2 (m ((c : Thread nD τ).loc main_arg0))) (cur2 (m ((c : Thread nD τ).loc main_arg1))) (cur1 (m ((c : Thread nD τ).loc main_arg2))) (cur2 (m ((c : Thread nD τ).loc main_arg3))) (cur1 (m ((c : Thread nD τ).loc main_arg4))))) (W3p m ρ c) (B3p m ρ c)) := by
  rw [Val0.final0_7 (BV4 m ρ) c, BV4_arg0 m ρ c, BV4_arg1 m ρ c, BV4_arg2 m ρ c, BV4_arg3 m ρ c, BV4_arg4 m ρ c]
/-- The indicator of the input. -/
theorem fwd_act0 : (dat0 (BV4 m ρ) c).arrAt 8 cfg0.N = arr2 (act (cur2 (m ((c : Thread nD τ).loc main_arg0)))) := by
  rw [Val0.final0_8 (BV4 m ρ) c, BV4_arg0 m ρ c]
/-- The indicator of the first hidden pre-activation. -/
theorem fwd_act1 : (dat0 (BV4 m ρ) c).arrAt 9 cfg0.N = arr2 (act (z1 (cur2 (m ((c : Thread nD τ).loc main_arg0))) (cur2 (m ((c : Thread nD τ).loc main_arg1))) (cur1 (m ((c : Thread nD τ).loc main_arg2))))) := by
  rw [Val0.final0_9 (BV4 m ρ) c, BV4_arg0 m ρ c, BV4_arg1 m ρ c, BV4_arg2 m ρ c]
/-- The indicator of the second hidden pre-activation. -/
theorem fwd_act2 : (dat0 (BV4 m ρ) c).arrAt 10 cfg0.N = arr2 (act (z2 (cur2 (m ((c : Thread nD τ).loc main_arg0))) (cur2 (m ((c : Thread nD τ).loc main_arg1))) (cur1 (m ((c : Thread nD τ).loc main_arg2))) (cur2 (m ((c : Thread nD τ).loc main_arg3))) (cur1 (m ((c : Thread nD τ).loc main_arg4))))) := by
  rw [Val0.final0_10 (BV4 m ρ) c, BV4_arg0 m ρ c, BV4_arg1 m ρ c, BV4_arg2 m ρ c, BV4_arg3 m ρ c, BV4_arg4 m ρ c]
/-- The indicator of the padded logits, zero from class 1000 on. -/
theorem fwd_act3 : (dat0 (BV4 m ρ) c).arrAt 11 cfg0.N
    = arr2 (fun p q => if q.val < 1000 then ind (lin (relu (z2 (cur2 (m ((c : Thread nD τ).loc main_arg0))) (cur2 (m ((c : Thread nD τ).loc main_arg1))) (cur1 (m ((c : Thread nD τ).loc main_arg2))) (cur2 (m ((c : Thread nD τ).loc main_arg3))) (cur1 (m ((c : Thread nD τ).loc main_arg4))))) (W3p m ρ c) (B3p m ρ c) p q) else 0) := by
  rw [Val0.final0_11 (BV4 m ρ) c, BV4_arg0 m ρ c, BV4_arg1 m ρ c, BV4_arg2 m ρ c, BV4_arg3 m ρ c, BV4_arg4 m ρ c]

/-- Below class 1000 the padded last layer is the last layer. -/
theorem padded_logits (p : Fin 8192) (q : Fin 1000) :
    lin (relu (z2 (cur2 (m ((c : Thread nD τ).loc main_arg0))) (cur2 (m ((c : Thread nD τ).loc main_arg1))) (cur1 (m ((c : Thread nD τ).loc main_arg2))) (cur2 (m ((c : Thread nD τ).loc main_arg3))) (cur1 (m ((c : Thread nD τ).loc main_arg4))))) (W3p m ρ c) (B3p m ρ c) p (⟨q.val, by omega⟩ : Fin 1024)
      = logits (cur2 (m ((c : Thread nD τ).loc main_arg0))) (cur2 (m ((c : Thread nD τ).loc main_arg1))) (cur1 (m ((c : Thread nD τ).loc main_arg2))) (cur2 (m ((c : Thread nD τ).loc main_arg3))) (cur1 (m ((c : Thread nD τ).loc main_arg4))) (cur2 (m ((c : Thread nD τ).loc main_arg5))) (cur1 (m ((c : Thread nD τ).loc main_arg6))) p q := by
  unfold logits lin
  rw [B3p_eq m ρ c q]
  refine congrArg (· + _) (Finset.sum_congr rfl fun k _ => ?_)
  rw [W3p_eq m ρ c q k]

/-- THE FIRST RESULT: the logits. -/
theorem kernel_logits : B9 m ρ c (Proc.devRef .tc main_v6) = arr2 (logits (cur2 (m ((c : Thread nD τ).loc main_arg0))) (cur2 (m ((c : Thread nD τ).loc main_arg1))) (cur1 (m ((c : Thread nD τ).loc main_arg2))) (cur2 (m ((c : Thread nD τ).loc main_arg3))) (cur1 (m ((c : Thread nD τ).loc main_arg4))) (cur2 (m ((c : Thread nD τ).loc main_arg5))) (cur1 (m ((c : Thread nD τ).loc main_arg6)))) := by
  funext i
  obtain ⟨p, q, rfl⟩ : ∃ (p : Fin 8192) (q : Fin 1000), i = ix2 p q := ⟨i 0, i 1, eq_ix2 i⟩
  rw [B9_v6, LayoutReads.slice_logits, B8_v2_0, fwd_logits]
  exact padded_logits m ρ c p q

end Cert.KernelIdeal.Run

end
-- ==== Proof.KIClosed1.lean ====
/-
  Region 1: each control case's contents in closed form.  Every load and store of the body is of a whole buffer, so
  the pieces a case ends with collapse: the accumulator tile after a first batch block is the block product added to
  the zero tile, after a later batch block the product added to the tile before it, and at the last batch block the
  output block receives that tile.
-/
import proofs.«114003_j36704790511729_2_alg».proof.Proof.KIFrame1
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.Sem

variable {F : FTy → Type} [FloatOps F]

/-- The offset of a whole-buffer access of a rank-2 buffer. -/
theorem zero_off1 : (![0, 0] : Fin 2 → ℕ) = fun _ => 0 := by
  funext a; match a with | ⟨0, _⟩ => rfl | ⟨1, _⟩ => rfl

theorem sout1_A_eq (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 x1 : Vec F S2048x1024 .bf16) :
    sout1_A c i arg3 harg3 arg4 harg4 arg5 harg5 arg6 harg6 hc0 hc1 x0 x1 = k1_pay2 x0 x1 (k1_pay1 (F := F)) := by
  unfold sout1_A
  rw [View.read_writes_eq_canon _ _ _ (scover1_A c i arg3 harg3 arg4 harg4 arg5 harg5 arg6 harg6 hc0 hc1 x0 x1)]
  unfold kernelRun1_A
  dsimp only
  sl_unfold_words
  simp only [View.readAt_eq_ld, Memref.IsWhole.read_unread]
  simp only [View.canon_cons_unit_zero (S := S1024x1024) zero_off1, View.readCov_unit_zero (S := S1024x1024) _ zero_off1, View.ld_unit_zero (S := S2048x1024) zero_off1, View.ld_unit_zero (S := S1024x1024) zero_off1]

theorem sout1_B_eq (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 x1 : Vec F S2048x1024 .bf16) (xs0 : Vec F S1024x1024 .f32) :
    sout1_B c i arg3 harg3 arg4 harg4 arg5 harg5 arg6 harg6 hc0 hc1 x0 x1 xs0 = k1_pay2 x0 x1 xs0 := by
  unfold sout1_B
  rw [View.read_writes_eq_canon _ _ _ (scover1_B c i arg3 harg3 arg4 harg4 arg5 harg5 arg6 harg6 hc0 hc1 x0 x1 xs0)]
  unfold kernelRun1_B
  dsimp only
  sl_unfold_words
  simp only [View.readAt_eq_ld, Memref.IsWhole.read_unread]
  simp only [View.canon_cons_unit_zero (S := S1024x1024) zero_off1, View.readCov_unit_zero (S := S1024x1024) _ zero_off1, View.ld_unit_zero (S := S2048x1024) zero_off1, View.ld_unit_zero (S := S1024x1024) zero_off1]

theorem sout1_C_eq (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 x1 : Vec F S2048x1024 .bf16) (xs0 : Vec F S1024x1024 .f32) :
    sout1_C c i arg3 harg3 arg4 harg4 arg5 harg5 arg6 harg6 hc0 hc1 x0 x1 xs0 = k1_pay2 x0 x1 xs0 := by
  unfold sout1_C
  rw [View.read_writes_eq_canon _ _ _ (scover1_C c i arg3 harg3 arg4 harg4 arg5 harg5 arg6 harg6 hc0 hc1 x0 x1 xs0)]
  unfold kernelRun1_C
  dsimp only
  sl_unfold_words
  simp only [View.readAt_eq_ld, Memref.IsWhole.read_unread]
  simp only [View.canon_cons_unit_zero (S := S1024x1024) zero_off1, View.readCov_unit_zero (S := S1024x1024) _ zero_off1, View.ld_unit_zero (S := S2048x1024) zero_off1, View.ld_unit_zero (S := S1024x1024) zero_off1]

theorem out1_C_2_eq (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 x1 : Vec F S2048x1024 .bf16) (xs0 : Vec F S1024x1024 .f32) :
    out1_C_2 c i arg3 harg3 arg4 harg4 arg5 harg5 arg6 harg6 hc0 hc1 x0 x1 xs0 = k1_pay2 x0 x1 xs0 := by
  unfold out1_C_2
  rw [View.read_writes_eq_canon _ _ _ (cover1_C_2 c i arg3 harg3 arg4 harg4 arg5 harg5 arg6 harg6 hc0 hc1 x0 x1 xs0)]
  unfold kernelRun1_C
  dsimp only
  sl_unfold_words
  simp only [View.readAt_eq_ld, Memref.IsWhole.read_unread]
  simp only [View.canon_cons_unit_zero (S := S1024x1024) zero_off1, View.readCov_unit_zero (S := S1024x1024) _ zero_off1, View.ld_unit_zero (S := S2048x1024) zero_off1, View.ld_unit_zero (S := S1024x1024) zero_off1]

end Cert.KernelIdeal.Gen

end
-- ==== Proof.SpecLawsCoact.lean ====
/-
  The co-activation sum taken block by block.

  For two arrays `A : [8192, M]` and `B : [8192, N]` and a result entry `(i, j)`, the batch of 8192 rows is cut into
  four consecutive blocks of 2048 rows.  `blockSum k` is the block's share `∑ₛ A (2048·k + s, i) · B (2048·k + s, j)`
  of the entry, and `partialSum k` is what an accumulator started at zero holds after blocks `0 … k`, the additions
  in that order.  After the fourth block it holds the whole batch's sum, which is the entry `coact A B i j`.
  Rows are addressed by a natural number (a row number past the batch reads zero) so that a block's rows need no
  bound proofs; every row actually read is below 8192.
-/
import proofs.«114003_j36704790511729_2_alg».proof.Proof.Spec
import proofs.«114003_j36704790511729_2_alg».proof.Proof.SpecLaws

noncomputable section

namespace Hebb

open Idealize.ShloMosaic Idealize.ShloMosaic.ValueIdx

variable {M N : ℕ} (A : (⟨2, ![8192, M]⟩ : Shape).Idx → EReal) (B : (⟨2, ![8192, N]⟩ : Shape).Idx → EReal)
  (i : Fin M) (j : Fin N)

/-- Row `r`'s product for the entry `(i, j)`; zero past the batch. -/
def term (r : ℕ) : EReal := if h : r < 8192 then A (ix2 ⟨r, h⟩ i) * B (ix2 ⟨r, h⟩ j) else 0

theorem term_eq (r : ℕ) (h : r < 8192) : term A B i j r = A (ix2 ⟨r, h⟩ i) * B (ix2 ⟨r, h⟩ j) := dif_pos h

/-- The same with the row number given up to an equation. -/
theorem term_eq_of (r r' : ℕ) (hr : r = r') (h : r' < 8192) :
    term A B i j r = A (ix2 ⟨r', h⟩ i) * B (ix2 ⟨r', h⟩ j) := by
  subst hr; exact dif_pos h

/-- Batch block `k`'s share of the entry. -/
def blockSum (k : ℕ) : EReal := ∑ s : Fin 2048, term A B i j (2048 * k + s.val)

/-- The accumulator after batch blocks `0 … k`, started at zero. -/
def partialSum : ℕ → EReal
  | 0 => 0 + blockSum A B i j 0
  | k + 1 => partialSum k + blockSum A B i j (k + 1)

theorem partialSum_zero : partialSum A B i j 0 = 0 + blockSum A B i j 0 := rfl
theorem partialSum_succ (k : ℕ) : partialSum A B i j (k + 1) = partialSum A B i j k + blockSum A B i j (k + 1) := rfl

/-- A block product read off two `[2048, ·]` blocks that hold rows `2048·k …` of `A` and `B` is the block's share. -/
theorem blockSum_of_blocks {m n : ℕ} (k : ℕ) (hk : k < 4)
    (x0 : (⟨2, ![2048, m]⟩ : Shape).Idx → EReal) (x1 : (⟨2, ![2048, n]⟩ : Shape).Idx → EReal) (i' : Fin m) (j' : Fin n)
    (h0 : ∀ s : Fin 2048, x0 (ix2 s i') = A (ix2 ⟨2048 * k + s.val, by omega⟩ i))
    (h1 : ∀ s : Fin 2048, x1 (ix2 s j') = B (ix2 ⟨2048 * k + s.val, by omega⟩ j)) :
    ∑ s : Fin 2048, x0 (ix2 s i') * x1 (ix2 s j') = blockSum A B i j k :=
  Finset.sum_congr rfl fun s _ => by rw [h0 s, h1 s, term_eq]

/-- After the fourth block the accumulator holds the entry of the co-activation matrix. -/
theorem partialSum_three : partialSum A B i j 3 = coact (cur2 A) (cur2 B) i j := by
  refine Eq.trans ?_ (sum_blocks4 fun s => A (ix2 s i) * B (ix2 s j))
  show (((0 + blockSum A B i j 0) + blockSum A B i j 1) + blockSum A B i j 2) + blockSum A B i j 3 = _
  have e0 : blockSum A B i j 0 = ∑ s : Fin 2048, (fun s : Fin 8192 => A (ix2 s i) * B (ix2 s j)) ⟨s.val, by omega⟩ :=
    Finset.sum_congr rfl fun s _ => term_eq_of A B i j _ _ (by omega) _
  have e1 : blockSum A B i j 1 = ∑ s : Fin 2048, (fun s : Fin 8192 => A (ix2 s i) * B (ix2 s j)) ⟨2048 + s.val, by omega⟩ :=
    Finset.sum_congr rfl fun s _ => term_eq_of A B i j _ _ (by omega) _
  have e2 : blockSum A B i j 2 = ∑ s : Fin 2048, (fun s : Fin 8192 => A (ix2 s i) * B (ix2 s j)) ⟨4096 + s.val, by omega⟩ :=
    Finset.sum_congr rfl fun s _ => term_eq_of A B i j _ _ (by omega) _
  have e3 : blockSum A B i j 3 = ∑ s : Fin 2048, (fun s : Fin 8192 => A (ix2 s i) * B (ix2 s j)) ⟨6144 + s.val, by omega⟩ :=
    Finset.sum_congr rfl fun s _ => term_eq_of A B i j _ _ (by omega) _
  rw [e0, e1, e2, e3]

end Hebb

end
-- ==== Proof.LibTransposedLhsDot.lean ====
/-
  A matrix product with BOTH operands contracted on their leading axis, read at an index, over the extended reals.

  For the dimension numbers of a `K×M` by `K×N` product (contract the left operand's axis 0 with the right operand's
  axis 0, no batch axis) — the product AᵀB of two blocks of rows — the contraction index is one coordinate `k < K`, the
  left operand is read at `(k, p)` and the right one at `(k, q)`. So a kernel's matmul into a zero accumulator is, at
  `(p, q)`, the sum over `k : Fin K` of `lhs (k, p) * rhs (k, q)`.
-/
import Idealize.ShloMosaic.PureOps.Ideal
import Idealize.ShloMosaic.PureOps.Ideal.Laws
import Idealize.ShloMosaic.Lib.ValueIdx

noncomputable section

namespace Idealize.ShloMosaic.TransposedLhsDot

open Idealize.ShloMosaic Idealize.ShloMosaic.ValueIdx

/-- The dimension numbers `<[0], [0], [1], [1]>`: `K×M` by `K×N`, both contracted on the leading axis. -/
def dims (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- The left operand's index at output `(p, q)` and contraction position `k` is `(k, p)`. -/
theorem lhsIdx_tl (K M N : ℕ) (p : Fin M) (q : Fin N) (k : Fin K) :
    (dims K M N).lhsIdx (ix2 p q) ((contrEquiv1 (dims K M N) K rfl rfl).symm k) = ix2 k p := by
  funext a
  apply Fin.ext
  match a with
  | ⟨0, _⟩ => rfl
  | ⟨1, _⟩ => rfl

/-- The right operand's index at output `(p, q)` and contraction position `k` is `(k, q)`. -/
theorem rhsIdx_tl (K M N : ℕ) (p : Fin M) (q : Fin N) (k : Fin K) :
    (dims K M N).rhsIdx (ix2 p q) ((contrEquiv1 (dims K M N) K rfl rfl).symm k) = ix2 k q := by
  funext a
  apply Fin.ext
  match a with
  | ⟨0, _⟩ => rfl
  | ⟨1, _⟩ => rfl

/-- The contraction sum, re-indexed by the one contracted coordinate. -/
theorem sum_tl (K M N : ℕ) (a : (⟨2, ![K, M]⟩ : Shape).Idx → EReal) (w : (⟨2, ![K, N]⟩ : Shape).Idx → EReal)
    (p : Fin M) (q : Fin N) :
    ∑ k : (dims K M N).contr.Idx,
        a ((dims K M N).lhsIdx (ix2 p q) k) * w ((dims K M N).rhsIdx (ix2 p q) k)
      = ∑ k : Fin K, a (ix2 k p) * w (ix2 k q) := by
  rw [← Equiv.sum_comp (contrEquiv1 (dims K M N) K rfl rfl).symm]
  exact Finset.sum_congr rfl fun k _ => by rw [lhsIdx_tl, rhsIdx_tl]

/-- A kernel's matmul into the zero accumulator, both operands contracted on the leading axis, read at `(p, q)`. -/
theorem matmul_zero_apply {K M N : ℕ} {φ₁ φ₂ : FTy} (d : DotDims ⟨2, ![K, M]⟩ ⟨2, ![K, N]⟩ ⟨2, ![M, N]⟩)
    (hd : d = dims K M N) (prec : Option ContractPrecision)
    (lhs : FVec Ideal ⟨2, ![K, M]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 k p) * rhs (ix2 k q) := by
  subst hd
  rw [Ideal.matmul_constant_zero_apply]
  exact sum_tl K M N lhs rhs p q

end Idealize.ShloMosaic.TransposedLhsDot

end
-- ==== Proof.PayCoact.lean ====
/-
  What the three co-activation kernel bodies store, at the extended reals.

  Each body has two stored values.  At the first step of the reduction axis it stores the zero matrix into its
  accumulator; at every step it stores the accumulator plus the product `AᵀB` of the two `[2048, 1024]` blocks of
  indicators it is given, both contracted on their leading (batch) axis:
      (acc + AᵀB) i j = acc i j + ∑ₛ A s i · B s j.
  The three bodies have the same text, so the three pairs of lemmas have the same proof.
-/
import proofs.«114003_j36704790511729_2_alg».proof.Proof.Spec
import proofs.«114003_j36704790511729_2_alg».proof.Proof.Gen.KernelIdeal.Skeleton
import proofs.«114003_j36704790511729_2_alg».proof.Proof.LibTransposedLhsDot
import Idealize.ShloMosaic.Lib.Pipeline.Value

noncomputable section

namespace Cert.KernelIdeal.PayValue

open Cert.KernelIdeal Cert.KernelIdeal.Gen Idealize.ShloMosaic Idealize.ShloMosaic.ValueIdx Hebb

/-- The zero word broadcast over a `[1024, 1024]` block and cast to its own shape is the zero matrix. -/
theorem zero_block (h : S1024x1024.ShapeCasts S1024x1024) :
    shapeCast S1024x1024 (broadcast S1024x1024 (Scalar.ofBits (F := Ideal) .f32 0x00000000#32)) h
      = arr2 (fun (_ : Fin 1024) (_ : Fin 1024) => (0 : EReal)) := by
  rw [shapeCast_self]
  funext i
  show Ideal.ofBits .f32 0x00000000#32 = 0
  exact Ideal.ofBits_zero_f32

/-- The accumulator plus `AᵀB`, entry by entry. -/
theorem acc_add_tdot (d : DotDims S2048x1024 S2048x1024 S1024x1024)
    (hd : d = TransposedLhsDot.dims 2048 1024 1024) (prec : Option ContractPrecision)
    (h1 : S2048x1024.ShapeCasts S2048x1024) (h2 : S1024x1024.ShapeCasts S1024x1024)
    (a b : FVec Ideal S2048x1024 .bf16) (acc : FVec Ideal S1024x1024 .f32) :
    shapeCast S1024x1024 (addf (F := Ideal) (φ := .f32) acc
        (matmul (F := Ideal) d prec (shapeCast S2048x1024 a h1) (shapeCast S2048x1024 b h1)
          (constant (F := Ideal) S1024x1024 .f32 0x00000000#32))) h2
      = arr2 (fun i j => acc (ix2 i j) + ∑ s : Fin 2048, a (ix2 s i) * b (ix2 s j)) := by
  rw [shapeCast_self, shapeCast_self, shapeCast_self]
  funext i
  obtain ⟨p, q, rfl⟩ : ∃ (p : Fin 1024) (q : Fin 1024), i = ix2 p q := ⟨i 0, i 1, eq_ix2 i⟩
  rw [addf_apply, arr2_ix2]
  exact congrArg (acc (ix2 p q) + ·) (TransposedLhsDot.matmul_zero_apply d hd prec a b p q)

theorem k1_pay1_eq : k1_pay1 (F := Ideal) = arr2 (fun (_ : Fin 1024) (_ : Fin 1024) => (0 : EReal)) :=
  zero_block _

theorem k1_pay2_eq (a b : Vec Ideal S2048x1024 .bf16) (acc : Vec Ideal S1024x1024 .f32) :
    k1_pay2 (F := Ideal) a b acc
      = arr2 (fun i j => acc (ix2 i j) + ∑ s : Fin 2048, a (ix2 s i) * b (ix2 s j)) :=
  acc_add_tdot _ rfl _ _ _ a b acc

theorem k2_pay1_eq : k2_pay1 (F := Ideal) = arr2 (fun (_ : Fin 1024) (_ : Fin 1024) => (0 : EReal)) :=
  zero_block _

theorem k2_pay2_eq (a b : Vec Ideal S2048x1024 .bf16) (acc : Vec Ideal S1024x1024 .f32) :
    k2_pay2 (F := Ideal) a b acc
      = arr2 (fun i j => acc (ix2 i j) + ∑ s : Fin 2048, a (ix2 s i) * b (ix2 s j)) :=
  acc_add_tdot _ rfl _ _ _ a b acc

theorem k3_pay1_eq : k3_pay1 (F := Ideal) = arr2 (fun (_ : Fin 1024) (_ : Fin 1024) => (0 : EReal)) :=
  zero_block _

theorem k3_pay2_eq (a b : Vec Ideal S2048x1024 .bf16) (acc : Vec Ideal S1024x1024 .f32) :
    k3_pay2 (F := Ideal) a b acc
      = arr2 (fun i j => acc (ix2 i j) + ∑ s : Fin 2048, a (ix2 s i) * b (ix2 s j)) :=
  acc_add_tdot _ rfl _ _ _ a b acc

end Cert.KernelIdeal.PayValue

end
-- ==== Proof.KIValue1.lean ====
/-
  Region 1: the result array of the co-activation product as one function of the two indicator arrays.

  The grid is (1 row block of the result) × (2 column blocks of the result) × (4 batch blocks), the batch axis
  innermost: point `t` works on batch block `t % 4` and result block `t / 4`.  Window 0 hands the body rows
  `2048·(t % 4) …` of `A` at the result block's 1024 columns of `A`, window 1 the same rows of `B` at the result block's
  1024 columns of `B`.  The accumulator tile after the body at `t` holds, entry `(i, j)`, the partial sum of the entry's
  products over batch blocks `0 … t % 4` (by induction on the point: a first batch block resets it, a later one adds
  to what the point before left).  At `t % 4 = 3` the output block receives the tile, which is then the whole batch's
  sum, and is written back; these blocks tile the result array, so the array ends holding `coact A B`.
-/
import proofs.«114003_j36704790511729_2_alg».proof.Proof.KIFrame1
import proofs.«114003_j36704790511729_2_alg».proof.Proof.KIClosed1
import proofs.«114003_j36704790511729_2_alg».proof.Proof.Spec
import proofs.«114003_j36704790511729_2_alg».proof.Proof.SpecLaws
import proofs.«114003_j36704790511729_2_alg».proof.Proof.SpecLawsCoact
import proofs.«114003_j36704790511729_2_alg».proof.Proof.PayCoact
import Idealize.ShloMosaic.Lib.Pipeline.Value

noncomputable section

namespace Cert.KernelIdeal.Val1

open Cert.KernelIdeal Cert.KernelIdeal.Gen Cert.KernelIdeal.PayValue Hebb
open Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b)) (c : Dev nD)

/-- The printed index maps, decided over the grid: the batch block is `t % 4`, the result block `t / 4`. -/
theorem idx_facts : ∀ t : Fin cfg1.N,
    win1_0.index t (0 : Fin 2) = t.val % 4 ∧ win1_0.index t (1 : Fin 2) = 0
  ∧ win1_1.index t (0 : Fin 2) = t.val % 4 ∧ win1_1.index t (1 : Fin 2) = t.val / 4
  ∧ win1_2.index t (0 : Fin 2) = 0 ∧ win1_2.index t (1 : Fin 2) = t.val / 4 :=
  (by decide +kernel : ∀ t : Fin grid1.N, _)

/-- The row of the result (a column of `A`) that tile row `i` stands for at position `n`. -/
def rowOf (n : ℕ) (i : Fin 1024) : Fin 1024 := ⟨(1024 * (0) + i.val) % 1024, Nat.mod_lt _ (by norm_num)⟩
/-- The column of the result (a column of `B`) that tile column `j` stands for at position `n`. -/
def colOf (n : ℕ) (j : Fin 1024) : Fin 2048 := ⟨(1024 * (n / 4) + j.val) % 2048, Nat.mod_lt _ (by norm_num)⟩

/-- Window 0's block at point `t` holds rows `2048·(t % 4) …` of `A` at the result block's columns of `A`. -/
theorem blk0 (t : Fin cfg1.N) (s : Fin 2048) (i : Fin 1024) :
    iblk1 V c 0 t (ix2 s i)
      = V c main_v2_1 (ix2 (⟨2048 * (t.val % 4) + s.val, by omega⟩ : Fin 8192) (rowOf t.val i)) := by
  obtain ⟨e0, e1, -⟩ := idx_facts t
  have hN : t.val < 8 := lt_of_lt_of_eq t.isLt N_1
  unfold iblk1
  rw [View.read_apply]
  show V c main_v2_1 _ = _
  refine congrArg (V c main_v2_1) (funext fun a => Fin.ext ?_)
  match a with
  | ⟨0, _⟩ => show win1_0.index t 0 * 2048 + 1 * s.val = 2048 * (t.val % 4) + s.val; rw [e0]; omega
  | ⟨1, _⟩ =>
    show win1_0.index t 1 * 1024 + 1 * i.val = (1024 * (0) + i.val) % 1024
    rw [e1, Nat.mod_eq_of_lt (by have := i.isLt; omega)]; omega

/-- Window 1's block at point `t` holds the same rows of `B` at the result block's columns of `B`. -/
theorem blk1 (t : Fin cfg1.N) (s : Fin 2048) (j : Fin 1024) :
    iblk1 V c 1 t (ix2 s j)
      = V c main_v2_2 (ix2 (⟨2048 * (t.val % 4) + s.val, by omega⟩ : Fin 8192) (colOf t.val j)) := by
  obtain ⟨-, -, e0, e1, -⟩ := idx_facts t
  have hN : t.val < 8 := lt_of_lt_of_eq t.isLt N_1
  unfold iblk1
  rw [View.read_apply]
  show V c main_v2_2 _ = _
  refine congrArg (V c main_v2_2) (funext fun a => Fin.ext ?_)
  match a with
  | ⟨0, _⟩ => show win1_1.index t 0 * 2048 + 1 * s.val = 2048 * (t.val % 4) + s.val; rw [e0]; omega
  | ⟨1, _⟩ =>
    show win1_1.index t 1 * 1024 + 1 * j.val = (1024 * (t.val / 4) + j.val) % 2048
    rw [e1, Nat.mod_eq_of_lt (by have := j.isLt; omega)]; omega

/-- The body's stored value at point `t`, on the point's two blocks and a tile `acc`, is entry by entry `acc` plus batch
    block `t % 4`'s share of the entry. -/
theorem pay2_at (t : Fin cfg1.N) (acc : Vec Ideal S1024x1024 .f32) (i j : Fin 1024) :
    k1_pay2 (F := Ideal) (iblk1 V c 0 t) (iblk1 V c 1 t) acc (ix2 i j)
      = acc (ix2 i j) + blockSum (V c main_v2_1) (V c main_v2_2) (rowOf t.val i) (colOf t.val j) (t.val % 4) := by
  rw [k1_pay2_eq, arr2_ix2]
  exact congrArg (acc (ix2 i j) + ·)
    (blockSum_of_blocks (V c main_v2_1) (V c main_v2_2) (rowOf t.val i) (colOf t.val j) (t.val % 4) (Nat.mod_lt _ (by norm_num))
      (iblk1 V c 0 t) (iblk1 V c 1 t) i j (fun s => blk0 V c t s i) (fun s => blk1 V c t s j))

/-- THE TILE after the body at position `n`: the entry's partial sum over batch blocks `0 … n % 4`. -/
theorem tile_eq : ∀ (n : ℕ) (hn : n < cfg1.N) (i j : Fin 1024),
    (outsAt1 V c n hn).2 (ix2 i j)
      = partialSum (V c main_v2_1) (V c main_v2_2) (rowOf n i) (colOf n j) (n % 4) := by
  intro n
  induction n using Nat.strong_induction_on with
  | _ n ih =>
    intro hn i j
    have hN : n < 8 := lt_of_lt_of_eq hn N_1
    by_cases h0 : n % 4 = 0
    · have h1 : ¬n % 4 = 3 := by omega
      rw [outsAt1_A V c ⟨n, hn⟩ h0 h1]
      dsimp only
      rw [sout1_A_eq, pay2_at V c ⟨n, hn⟩ _ i j, k1_pay1_eq, arr2_ix2]
      dsimp only
      rw [h0, partialSum_zero]
    · have hpos : 0 < n := Nat.pos_of_ne_zero fun e => h0 (by rw [e])
      have ih' := ih (n - 1) (by omega) (by omega) i j
      have hr : rowOf (n - 1) i = rowOf n i := by
        unfold rowOf; exact Fin.ext (by first | rfl | (dsimp only; omega))
      have hc : colOf (n - 1) j = colOf n j := by
        unfold colOf; exact Fin.ext (by first | rfl | (dsimp only; omega))
      have hk : n % 4 = (n - 1) % 4 + 1 := by omega
      by_cases h1 : n % 4 = 3
      · rw [outsAt1_C V c ⟨n, hn⟩ h0 h1]
        dsimp only
        rw [sout1_C_eq, pay2_at V c ⟨n, hn⟩ _ i j]
        dsimp only
        rw [ih', hr, hc, hk, partialSum_succ]
      · rw [outsAt1_B V c ⟨n, hn⟩ h0 h1]
        dsimp only
        rw [sout1_B_eq, pay2_at V c ⟨n, hn⟩ _ i j]
        dsimp only
        rw [ih', hr, hc, hk, partialSum_succ]

/-- At a last batch block the output block receives the tile. -/
theorem out_eq_tile (t : Fin cfg1.N) (h3 : t.val % 4 = 3) :
    (outsAt1 V c t.val t.isLt).1 = (outsAt1 V c t.val t.isLt).2 := by
  have h0 : ¬t.val % 4 = 0 := by omega
  rw [outsAt1_C V c t h0 h3]
  dsimp only
  rw [out1_C_2_eq, sout1_C_eq]

/-- The co-activation matrix of the two indicator arrays, as an array. -/
abbrev G : S1024x2048.Idx → EReal := arr2 (coact (cur2 (V c main_v2_1)) (cur2 (V c main_v2_2)))

/-- WHAT A LAST BATCH BLOCK WRITES BACK is its block of the co-activation matrix. -/
theorem flushed_eq (t : Fin cfg1.N) (hf : (cfg1.win 2).flush t = true) :
    (dat1 V c).flushed 2 t = ((cfg1.win 2).blk t).view.read (Elt Ideal) (G V c) := by
  have h3 : t.val % 4 = 3 := (flush1_2 t).mp hf
  have hN : t.val < 8 := lt_of_lt_of_eq t.isLt N_1
  obtain ⟨-, -, -, -, e4, e5⟩ := idx_facts t
  show (cfg1.win 2).cut (grid1.coords t) ((dat1 V c).after 2 t) = _
  rw [after1_2, out_eq_tile V c t h3]
  funext y
  obtain ⟨i, j, rfl⟩ : ∃ (i : Fin 1024) (j : Fin 1024), y = ix2 i j := ⟨y 0, y 1, eq_ix2 y⟩
  have hemb : ((cfg1.win 2).blk t).view.emb (ix2 i j) = (ix2 (rowOf t.val i) (colOf t.val j) : S1024x2048.Idx) := by
    funext a; apply Fin.ext
    match a with
    | ⟨0, _⟩ =>
      show win1_2.index t 0 * 1024 + 1 * i.val = (1024 * (0) + i.val) % 1024
      rw [e4, Nat.mod_eq_of_lt (by have := i.isLt; omega)]; omega
    | ⟨1, _⟩ =>
      show win1_2.index t 1 * 1024 + 1 * j.val = (1024 * (t.val / 4) + j.val) % 2048
      rw [e5, Nat.mod_eq_of_lt (by have := j.isLt; omega)]; omega
  rw [View.read_apply, hemb]
  show (outsAt1 V c t.val t.isLt).2 (ix2 i j) = coact (cur2 (V c main_v2_1)) (cur2 (V c main_v2_2)) (rowOf t.val i) (colOf t.val j)
  rw [tile_eq V c t.val t.isLt i j, h3, partialSum_three]

/-- THE RESULT ARRAY after the region: the co-activation matrix of the two indicator arrays. -/
theorem final1 : (dat1 V c).arrAt 2 cfg1.N = arr2 (coact (cur2 (V c main_v2_1)) (cur2 (V c main_v2_2))) :=
  (dat1 V c).arrAt_eq_of_cover 2 (G V c) (flushed_eq V c) fun x => by
    have hx0 : (x 0 : ℕ) < 1024 := (x 0).isLt
    have hx1 : (x 1 : ℕ) < 2048 := (x 1).isLt
    have hlt : 4 * ((x 1 : ℕ) / 1024) + 3 < cfg1.N := by rw [show cfg1.N = 8 from N_1]; omega
    refine ⟨⟨4 * ((x 1 : ℕ) / 1024) + 3, hlt⟩, (flush1_2 _).mpr (by dsimp only; omega), ?_⟩
    obtain ⟨-, -, -, -, e4, e5⟩ := idx_facts ⟨4 * ((x 1 : ℕ) / 1024) + 3, hlt⟩
    show x ∈ ((View.whole main_v3).slice (win1_2.rect ⟨4 * ((x 1 : ℕ) / 1024) + 3, hlt⟩)).set
    rw [View.set_slice_whole, Rect.mem_set_unit]
    intro a
    match a with
    | ⟨0, _⟩ =>
      show win1_2.index ⟨4 * ((x 1 : ℕ) / 1024) + 3, hlt⟩ 0 * 1024 ≤ (x 0 : ℕ) ∧ (x 0 : ℕ) < win1_2.index ⟨4 * ((x 1 : ℕ) / 1024) + 3, hlt⟩ 0 * 1024 + 1024
      rw [e4]; dsimp only; omega
    | ⟨1, _⟩ =>
      show win1_2.index ⟨4 * ((x 1 : ℕ) / 1024) + 3, hlt⟩ 1 * 1024 ≤ (x 1 : ℕ) ∧ (x 1 : ℕ) < win1_2.index ⟨4 * ((x 1 : ℕ) / 1024) + 3, hlt⟩ 1 * 1024 + 1024
      rw [e5]; dsimp only; omega

end Cert.KernelIdeal.Val1

end
-- ==== Proof.KIClosed2.lean ====
/-
  Region 2: each control case's contents in closed form.  Every load and store of the body is of a whole buffer, so
  the pieces a case ends with collapse: the accumulator tile after a first batch block is the block product added to
  the zero tile, after a later batch block the product added to the tile before it, and at the last batch block the
  output block receives that tile.
-/
import proofs.«114003_j36704790511729_2_alg».proof.Proof.KIFrame2
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.Sem

variable {F : FTy → Type} [FloatOps F]

/-- The offset of a whole-buffer access of a rank-2 buffer. -/
theorem zero_off2 : (![0, 0] : Fin 2 → ℕ) = fun _ => 0 := by
  funext a; match a with | ⟨0, _⟩ => rfl | ⟨1, _⟩ => rfl

theorem sout2_A_eq (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond2_0 i) (hc1 : ¬cond2_1 i)
    (x0 x1 : Vec F S2048x1024 .bf16) :
    sout2_A c i arg3 harg3 arg4 harg4 arg5 harg5 arg6 harg6 hc0 hc1 x0 x1 = k2_pay2 x0 x1 (k2_pay1 (F := F)) := by
  unfold sout2_A
  rw [View.read_writes_eq_canon _ _ _ (scover2_A c i arg3 harg3 arg4 harg4 arg5 harg5 arg6 harg6 hc0 hc1 x0 x1)]
  unfold kernelRun2_A
  dsimp only
  sl_unfold_words
  simp only [View.readAt_eq_ld, Memref.IsWhole.read_unread]
  simp only [View.canon_cons_unit_zero (S := S1024x1024) zero_off2, View.readCov_unit_zero (S := S1024x1024) _ zero_off2, View.ld_unit_zero (S := S2048x1024) zero_off2, View.ld_unit_zero (S := S1024x1024) zero_off2]

theorem sout2_B_eq (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : ¬cond2_1 i)
    (x0 x1 : Vec F S2048x1024 .bf16) (xs0 : Vec F S1024x1024 .f32) :
    sout2_B c i arg3 harg3 arg4 harg4 arg5 harg5 arg6 harg6 hc0 hc1 x0 x1 xs0 = k2_pay2 x0 x1 xs0 := by
  unfold sout2_B
  rw [View.read_writes_eq_canon _ _ _ (scover2_B c i arg3 harg3 arg4 harg4 arg5 harg5 arg6 harg6 hc0 hc1 x0 x1 xs0)]
  unfold kernelRun2_B
  dsimp only
  sl_unfold_words
  simp only [View.readAt_eq_ld, Memref.IsWhole.read_unread]
  simp only [View.canon_cons_unit_zero (S := S1024x1024) zero_off2, View.readCov_unit_zero (S := S1024x1024) _ zero_off2, View.ld_unit_zero (S := S2048x1024) zero_off2, View.ld_unit_zero (S := S1024x1024) zero_off2]

theorem sout2_C_eq (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 x1 : Vec F S2048x1024 .bf16) (xs0 : Vec F S1024x1024 .f32) :
    sout2_C c i arg3 harg3 arg4 harg4 arg5 harg5 arg6 harg6 hc0 hc1 x0 x1 xs0 = k2_pay2 x0 x1 xs0 := by
  unfold sout2_C
  rw [View.read_writes_eq_canon _ _ _ (scover2_C c i arg3 harg3 arg4 harg4 arg5 harg5 arg6 harg6 hc0 hc1 x0 x1 xs0)]
  unfold kernelRun2_C
  dsimp only
  sl_unfold_words
  simp only [View.readAt_eq_ld, Memref.IsWhole.read_unread]
  simp only [View.canon_cons_unit_zero (S := S1024x1024) zero_off2, View.readCov_unit_zero (S := S1024x1024) _ zero_off2, View.ld_unit_zero (S := S2048x1024) zero_off2, View.ld_unit_zero (S := S1024x1024) zero_off2]

theorem out2_C_2_eq (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (hc1 : cond2_1 i)
    (x0 x1 : Vec F S2048x1024 .bf16) (xs0 : Vec F S1024x1024 .f32) :
    out2_C_2 c i arg3 harg3 arg4 harg4 arg5 harg5 arg6 harg6 hc0 hc1 x0 x1 xs0 = k2_pay2 x0 x1 xs0 := by
  unfold out2_C_2
  rw [View.read_writes_eq_canon _ _ _ (cover2_C_2 c i arg3 harg3 arg4 harg4 arg5 harg5 arg6 harg6 hc0 hc1 x0 x1 xs0)]
  unfold kernelRun2_C
  dsimp only
  sl_unfold_words
  simp only [View.readAt_eq_ld, Memref.IsWhole.read_unread]
  simp only [View.canon_cons_unit_zero (S := S1024x1024) zero_off2, View.readCov_unit_zero (S := S1024x1024) _ zero_off2, View.ld_unit_zero (S := S2048x1024) zero_off2, View.ld_unit_zero (S := S1024x1024) zero_off2]

end Cert.KernelIdeal.Gen

end
-- ==== Proof.KIValue2.lean ====
/-
  Region 2's output array after the region: the co-activation matrix of its two input arrays.

  The grid has 2 × 2 × 4 points, the batch block innermost: point `t` works on result block (t / 8, t / 4 mod 2) and on
  batch block `t mod 4`, reading rows 2048·(t mod 4) … of both indicator arrays (columns 1024·(t / 8) … of the first,
  1024·(t / 4 mod 2) … of the second).  An accumulator tile is set to zero plus the block product at batch block 0 and
  gets the next block product added at batch blocks 1, 2 and 3; at batch block 3 the output block receives the tile and
  is written back.  So a written-back block holds, entry (i, j), the four block sums added in order starting from zero —
  the sum over the whole batch, which is the co-activation count.  Entry (p, q) of the result lies in the block of the
  point 8·(p / 1024) + 4·(q / 1024) + 3, a point that writes back.
-/
import proofs.«114003_j36704790511729_2_alg».proof.Proof.KIFrame2
import proofs.«114003_j36704790511729_2_alg».proof.Proof.KIClosed2
import proofs.«114003_j36704790511729_2_alg».proof.Proof.Spec
import proofs.«114003_j36704790511729_2_alg».proof.Proof.SpecLaws
import proofs.«114003_j36704790511729_2_alg».proof.Proof.SpecLawsCoact
import proofs.«114003_j36704790511729_2_alg».proof.Proof.PayCoact
import Idealize.ShloMosaic.Lib.Pipeline.Value

noncomputable section

namespace Cert.KernelIdeal.Val2

open Cert.KernelIdeal Cert.KernelIdeal.Gen Idealize.ShloMosaic Idealize.ShloMosaic.TcCoe Idealize.ShloMosaic.ValueIdx Hebb
open Idealize.ShloMosaic.Pipeline (Dat)

variable (V : (c : Dev nD) → (b : Ref sig .tc) → Buf (Elt Ideal) ((c : Thread nD τ).loc b)) (c : Dev nD)

/-! ## The grid and the windows' index maps -/

/-- The printed index maps, decided over the 16 points: both inputs are at batch block `t mod 4`, the first at the
    result's row block, the second at its column block; the output is at (row block, column block). -/
theorem index_facts : ∀ t : Fin cfg2.N,
    (win2_0.index t (0 : Fin 2) = t.val % 4 ∧ win2_0.index t (1 : Fin 2) = t.val / 8)
    ∧ (win2_1.index t (0 : Fin 2) = t.val % 4 ∧ win2_1.index t (1 : Fin 2) = t.val / 4 % 2)
    ∧ (win2_2.index t (0 : Fin 2) = t.val / 8 ∧ win2_2.index t (1 : Fin 2) = t.val / 4 % 2) :=
  (by decide +kernel : ∀ t : Fin grid2.N, _)

theorem lt_N (t : Fin cfg2.N) : t.val < 16 := Nat.lt_of_lt_of_eq t.isLt (show cfg2.N = 16 from N_2)

/-! ## The accumulator tile, step by step -/

/-- At batch block 0 the tile is zero plus the block product. -/
theorem tile_first (n : ℕ) (hn : n < cfg2.N) (h0 : n % 4 = 0) :
    (outsAt2 V c n hn).2 = k2_pay2 (F := Ideal) (iblk2 V c 0 ⟨n, hn⟩) (iblk2 V c 1 ⟨n, hn⟩) (k2_pay1 (F := Ideal)) := by
  have h1 : ¬ n % 4 = 3 := by omega
  rw [show outsAt2 V c n hn = _ from outsAt2_A V c ⟨n, hn⟩ h0 h1]
  dsimp only
  exact sout2_A_eq c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) scM2 (Memref.isWhole_whole _) ((hcond2_0 ⟨n, hn⟩).mpr h0) (fun h => h1 ((hcond2_1 ⟨n, hn⟩).mp h)) (iblk2 V c 0 ⟨n, hn⟩) (iblk2 V c 1 ⟨n, hn⟩)

/-- At a later batch block the tile is the tile before plus the block product. -/
theorem tile_next (n : ℕ) (hn : n < cfg2.N) (h0 : ¬ n % 4 = 0) :
    (outsAt2 V c n hn).2 = k2_pay2 (F := Ideal) (iblk2 V c 0 ⟨n, hn⟩) (iblk2 V c 1 ⟨n, hn⟩)
      (outsAt2 V c (n - 1) (Nat.lt_of_le_of_lt (Nat.sub_le _ _) hn)).2 := by
  by_cases h1 : n % 4 = 3
  · rw [show outsAt2 V c n hn = _ from outsAt2_C V c ⟨n, hn⟩ h0 h1]
    dsimp only
    exact sout2_C_eq c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) scM2 (Memref.isWhole_whole _) (fun h => h0 ((hcond2_0 ⟨n, hn⟩).mp h)) ((hcond2_1 ⟨n, hn⟩).mpr h1) (iblk2 V c 0 ⟨n, hn⟩) (iblk2 V c 1 ⟨n, hn⟩) _
  · rw [show outsAt2 V c n hn = _ from outsAt2_B V c ⟨n, hn⟩ h0 h1]
    dsimp only
    exact sout2_B_eq c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) scM2 (Memref.isWhole_whole _) (fun h => h0 ((hcond2_0 ⟨n, hn⟩).mp h)) (fun h => h1 ((hcond2_1 ⟨n, hn⟩).mp h)) (iblk2 V c 0 ⟨n, hn⟩) (iblk2 V c 1 ⟨n, hn⟩) _

/-- At batch block 3 the output block receives the tile before plus the block product. -/
theorem out_last (n : ℕ) (hn : n < cfg2.N) (h1 : n % 4 = 3) :
    (outsAt2 V c n hn).1 = k2_pay2 (F := Ideal) (iblk2 V c 0 ⟨n, hn⟩) (iblk2 V c 1 ⟨n, hn⟩)
      (outsAt2 V c (n - 1) (Nat.lt_of_le_of_lt (Nat.sub_le _ _) hn)).2 := by
  have h0 : ¬ n % 4 = 0 := by omega
  rw [show outsAt2 V c n hn = _ from outsAt2_C V c ⟨n, hn⟩ h0 h1]
  dsimp only
  exact out2_C_2_eq c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) scM2 (Memref.isWhole_whole _) (fun h => h0 ((hcond2_0 ⟨n, hn⟩).mp h)) ((hcond2_1 ⟨n, hn⟩).mpr h1) (iblk2 V c 0 ⟨n, hn⟩) (iblk2 V c 1 ⟨n, hn⟩) _

/-! ## The input blocks -/

/-- The first input's block at position `m`: rows `2048·(m mod 4) …`, columns `1024·(m / 8) …` of its array. -/
theorem a_block (m : ℕ) (hm : m < cfg2.N) (s : Fin 2048) (i : Fin 1024) (r : Fin 8192) (k : Fin 2048)
    (hr : r.val = 2048 * (m % 4) + s.val) (hk : k.val = 1024 * (m / 8) + i.val) :
    (iblk2 V c 0 ⟨m, hm⟩ : S2048x1024.Idx → EReal) (ix2 s i) = V c main_v2_2 (ix2 r k) := by
  obtain ⟨⟨e0, e1⟩, -⟩ := index_facts ⟨m, hm⟩
  have e0' : win2_0.index ⟨m, hm⟩ (0 : Fin 2) = m % 4 := e0
  have e1' : win2_0.index ⟨m, hm⟩ (1 : Fin 2) = m / 8 := e1
  unfold iblk2
  rw [View.read_apply]
  show V c main_v2_2 _ = V c main_v2_2 _
  refine congrArg (V c main_v2_2) (funext fun a => Fin.ext ?_)
  match a with
  | ⟨0, _⟩ => show win2_0.index ⟨m, hm⟩ (0 : Fin 2) * 2048 + 1 * s.val = r.val; rw [e0', hr]; omega
  | ⟨1, _⟩ => show win2_0.index ⟨m, hm⟩ (1 : Fin 2) * 1024 + 1 * i.val = k.val; rw [e1', hk]; omega

/-- The second input's block at position `m`: rows `2048·(m mod 4) …`, columns `1024·(m / 4 mod 2) …` of its array. -/
theorem b_block (m : ℕ) (hm : m < cfg2.N) (s : Fin 2048) (j : Fin 1024) (r : Fin 8192) (k : Fin 2048)
    (hr : r.val = 2048 * (m % 4) + s.val) (hk : k.val = 1024 * (m / 4 % 2) + j.val) :
    (iblk2 V c 1 ⟨m, hm⟩ : S2048x1024.Idx → EReal) (ix2 s j) = V c main_v2_3 (ix2 r k) := by
  obtain ⟨-, ⟨e0, e1⟩, -⟩ := index_facts ⟨m, hm⟩
  have e0' : win2_1.index ⟨m, hm⟩ (0 : Fin 2) = m % 4 := e0
  have e1' : win2_1.index ⟨m, hm⟩ (1 : Fin 2) = m / 4 % 2 := e1
  unfold iblk2
  rw [View.read_apply]
  show V c main_v2_3 _ = V c main_v2_3 _
  refine congrArg (V c main_v2_3) (funext fun a => Fin.ext ?_)
  match a with
  | ⟨0, _⟩ => show win2_1.index ⟨m, hm⟩ (0 : Fin 2) * 2048 + 1 * s.val = r.val; rw [e0', hr]; omega
  | ⟨1, _⟩ => show win2_1.index ⟨m, hm⟩ (1 : Fin 2) * 1024 + 1 * j.val = k.val; rw [e1', hk]; omega

/-! ## The output block inside its array -/

/-- A 1024 × 1024 block whose entry (p, q) is entry (1024·(t / 8) + p, 1024·(t / 4 mod 2) + q) of `G`, as the output
    window cuts it, is block `t` of `G` read through the window. -/
theorem block_read (t : Fin cfg2.N) (F : M2 1024 1024) (G : M2 2048 2048)
    (h : ∀ (p q : Fin 1024) (r k : Fin 2048), r.val = 1024 * (t.val / 8) + p.val → k.val = 1024 * (t.val / 4 % 2) + q.val →
      F p q = G r k) :
    (cfg2.win 2).cut (grid2.coords t) (arr2 F) = ((cfg2.win 2).blk t).view.read (Elt Ideal) (arr2 G) := by
  obtain ⟨-, -, ⟨e0, e1⟩⟩ := index_facts t
  funext j
  have h0 : (j 0).val < 1024 := (j 0).isLt
  have h1 : (j 1).val < 1024 := (j 1).isLt
  rw [View.read_apply]
  show F ⟨(j 0).val, h0⟩ ⟨(j 1).val, h1⟩ = G ((((cfg2.win 2).blk t).view.emb j) 0) ((((cfg2.win 2).blk t).view.emb j) 1)
  refine h _ _ _ _ ?_ ?_
  · show win2_2.index t (0 : Fin 2) * 1024 + 1 * (j 0).val = 1024 * (t.val / 8) + (j 0).val
    rw [e0]; omega
  · show win2_2.index t (1 : Fin 2) * 1024 + 1 * (j 1).val = 1024 * (t.val / 4 % 2) + (j 1).val
    rw [e1]; omega

/-- An index of the result is in point `t`'s block iff each coordinate is in the block's range on its axis. -/
theorem mem_block (t : Fin cfg2.N) (i : S2048x2048.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v4).slice (win2_2.rect t)).set ↔ _
  rw [View.set_slice_whole, Rect.mem_set_unit]
  exact Iff.rfl

/-- Entry (p, q) of the result is in the block of the point 8·(p / 1024) + 4·(q / 1024) + 3, which writes back. -/
theorem entries_covered (i : S2048x2048.Idx) : ∃ t : Fin cfg2.N, (cfg2.win 2).flush t = true ∧ i ∈ ((cfg2.win 2).blk t).view.set := by
  have hi0 : (i 0).val < 2048 := (i 0).isLt
  have hi1 : (i 1).val < 2048 := (i 1).isLt
  let t : Fin cfg2.N := ⟨8 * ((i 0).val / 1024) + 4 * ((i 1).val / 1024) + 3, by rw [show cfg2.N = 16 from N_2]; omega⟩
  have ht : t.val = 8 * ((i 0).val / 1024) + 4 * ((i 1).val / 1024) + 3 := rfl
  obtain ⟨-, -, ⟨e0, e1⟩⟩ := index_facts t
  refine ⟨t, (flush2_2 t).mpr (by rw [ht]; omega), ?_⟩
  rw [mem_block]
  intro a
  match a with
  | ⟨0, _⟩ =>
    show win2_2.index t (0 : Fin 2) * 1024 ≤ (i 0).val ∧ (i 0).val < win2_2.index t (0 : Fin 2) * 1024 + 1024
    rw [e0, ht]; omega
  | ⟨1, _⟩ =>
    show win2_2.index t (1 : Fin 2) * 1024 ≤ (i 1).val ∧ (i 1).val < win2_2.index t (1 : Fin 2) * 1024 + 1024
    rw [e1, ht]; omega

/-! ## What a writing point writes back, and the array after the region -/

/-- A point that writes back writes its block of the co-activation matrix. -/
theorem flushed2 (t : Fin cfg2.N) (hf : (cfg2.win 2).flush t = true) :
    (dat2 V c).flushed 2 t = ((cfg2.win 2).blk t).view.read (Elt Ideal)
      (arr2 (coact (cur2 (V c main_v2_2)) (cur2 (V c main_v2_3)))) := by
  have h3 : t.val % 4 = 3 := (flush2_2 t).mp hf
  have hN := lt_N t
  show (cfg2.win 2).cut (grid2.coords t) ((dat2 V c).after 2 t) = _
  rw [after2_2, out_last V c t.val t.isLt h3, tile_next V c (t.val - 1) _ (by omega), tile_next V c (t.val - 1 - 1) _ (by omega),
    tile_first V c (t.val - 1 - 1 - 1) _ (by omega),
    PayValue.k2_pay2_eq, PayValue.k2_pay2_eq, PayValue.k2_pay2_eq, PayValue.k2_pay2_eq, PayValue.k2_pay1_eq]
  simp only [arr2_ix2]
  refine block_read t _ _ fun p q r k hr hk => ?_
  rw [← partialSum_three]
  refine congrArg₂ (· + ·) (congrArg₂ (· + ·) (congrArg₂ (· + ·) (congrArg ((0 : EReal) + ·) ?_) ?_) ?_) ?_
  · exact blockSum_of_blocks (V c main_v2_2) (V c main_v2_3) r k 0 (by omega) _ _ p q
      (fun s => a_block V c _ _ s p _ r (by show 2048 * 0 + s.val = 2048 * ((t.val - 1 - 1 - 1) % 4) + s.val; omega) (by rw [hr]; omega))
      (fun s => b_block V c _ _ s q _ k (by show 2048 * 0 + s.val = 2048 * ((t.val - 1 - 1 - 1) % 4) + s.val; omega) (by rw [hk]; omega))
  · exact blockSum_of_blocks (V c main_v2_2) (V c main_v2_3) r k 1 (by omega) _ _ p q
      (fun s => a_block V c _ _ s p _ r (by show 2048 * 1 + s.val = 2048 * ((t.val - 1 - 1) % 4) + s.val; omega) (by rw [hr]; omega))
      (fun s => b_block V c _ _ s q _ k (by show 2048 * 1 + s.val = 2048 * ((t.val - 1 - 1) % 4) + s.val; omega) (by rw [hk]; omega))
  · exact blockSum_of_blocks (V c main_v2_2) (V c main_v2_3) r k 2 (by omega) _ _ p q
      (fun s => a_block V c _ _ s p _ r (by show 2048 * 2 + s.val = 2048 * ((t.val - 1) % 4) + s.val; omega) (by rw [hr]; omega))
      (fun s => b_block V c _ _ s q _ k (by show 2048 * 2 + s.val = 2048 * ((t.val - 1) % 4) + s.val; omega) (by rw [hk]; omega))
  · exact blockSum_of_blocks (V c main_v2_2) (V c main_v2_3) r k 3 (by omega) _ _ p q
      (fun s => a_block V c _ _ s p _ r (by show 2048 * 3 + s.val = 2048 * (t.val % 4) + s.val; omega) hr)
      (fun s => b_block V c _ _ s q _ k (by show 2048 * 3 + s.val = 2048 * (t.val % 4) + s.val; omega) hk)

/-- The result array after the region is the co-activation matrix of the two indicator arrays. -/
theorem final2 : (dat2 V c).arrAt 2 cfg2.N = arr2 (coact (cur2 (V c main_v2_2)) (cur2 (V c main_v2_3))) :=
  (dat2 V c).arrAt_eq_of_cover 2 _ (fun t hf => flushed2 V c t hf) entries_covered

end Cert.KernelIdeal.Val2

end
-- ==== Proof.KIClosed3.lean ====
/-
  Region 3: each control case's contents in closed form.  Every load and store of the body is of a whole buffer, so
  the pieces a case ends with collapse: the accumulator tile after a first batch block is the block product added to
  the zero tile, after a later batch block the product added to the tile before it, and at the last batch block the
  output block receives that tile.
-/
import proofs.«114003_j36704790511729_2_alg».proof.Proof.KIFrame3
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.Sem

variable {F : FTy → Type} [FloatOps F]

/-- The offset of a whole-buffer access of a rank-2 buffer. -/
theorem zero_off3 : (![0, 0] : Fin 2 → ℕ) = fun _ => 0 := by
  funext a; match a with | ⟨0, _⟩ => rfl | ⟨1, _⟩ => rfl

theorem sout3_A_eq (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (hc1 : ¬cond3_1 i)
    (x0 x1 : Vec F S2048x1024 .bf16) :
    sout3_A c i arg3 harg3 arg4 harg4 arg5 harg5 arg6 harg6 hc0 hc1 x0 x1 = k3_pay2 x0 x1 (k3_pay1 (F := F)) := by
  unfold sout3_A
  rw [View.read_writes_eq_canon _ _ _ (scover3_A c i arg3 harg3 arg4 harg4 arg5 harg5 arg6 harg6 hc0 hc1 x0 x1)]
  unfold kernelRun3_A
  dsimp only
  sl_unfold_words
  simp only [View.readAt_eq_ld, Memref.IsWhole.read_unread]
  simp only [View.canon_cons_unit_zero (S := S1024x1024) zero_off3, View.readCov_unit_zero (S := S1024x1024) _ zero_off3, View.ld_unit_zero (S := S2048x1024) zero_off3, View.ld_unit_zero (S := S1024x1024) zero_off3]

theorem sout3_B_eq (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : ¬cond3_1 i)
    (x0 x1 : Vec F S2048x1024 .bf16) (xs0 : Vec F S1024x1024 .f32) :
    sout3_B c i arg3 harg3 arg4 harg4 arg5 harg5 arg6 harg6 hc0 hc1 x0 x1 xs0 = k3_pay2 x0 x1 xs0 := by
  unfold sout3_B
  rw [View.read_writes_eq_canon _ _ _ (scover3_B c i arg3 harg3 arg4 harg4 arg5 harg5 arg6 harg6 hc0 hc1 x0 x1 xs0)]
  unfold kernelRun3_B
  dsimp only
  sl_unfold_words
  simp only [View.readAt_eq_ld, Memref.IsWhole.read_unread]
  simp only [View.canon_cons_unit_zero (S := S1024x1024) zero_off3, View.readCov_unit_zero (S := S1024x1024) _ zero_off3, View.ld_unit_zero (S := S2048x1024) zero_off3, View.ld_unit_zero (S := S1024x1024) zero_off3]

theorem sout3_C_eq (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 x1 : Vec F S2048x1024 .bf16) (xs0 : Vec F S1024x1024 .f32) :
    sout3_C c i arg3 harg3 arg4 harg4 arg5 harg5 arg6 harg6 hc0 hc1 x0 x1 xs0 = k3_pay2 x0 x1 xs0 := by
  unfold sout3_C
  rw [View.read_writes_eq_canon _ _ _ (scover3_C c i arg3 harg3 arg4 harg4 arg5 harg5 arg6 harg6 hc0 hc1 x0 x1 xs0)]
  unfold kernelRun3_C
  dsimp only
  sl_unfold_words
  simp only [View.readAt_eq_ld, Memref.IsWhole.read_unread]
  simp only [View.canon_cons_unit_zero (S := S1024x1024) zero_off3, View.readCov_unit_zero (S := S1024x1024) _ zero_off3, View.ld_unit_zero (S := S2048x1024) zero_off3, View.ld_unit_zero (S := S1024x1024) zero_off3]

theorem out3_C_2_eq (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 x1 : Vec F S2048x1024 .bf16) (xs0 : Vec F S1024x1024 .f32) :
    out3_C_2 c i arg3 harg3 arg4 harg4 arg5 harg5 arg6 harg6 hc0 hc1 x0 x1 xs0 = k3_pay2 x0 x1 xs0 := by
  unfold out3_C_2
  rw [View.read_writes_eq_canon _ _ _ (cover3_C_2 c i arg3 harg3 arg4 harg4 arg5 harg5 arg6 harg6 hc0 hc1 x0 x1 xs0)]
  unfold kernelRun3_C
  dsimp only
  sl_unfold_words
  simp only [View.readAt_eq_ld, Memref.IsWhole.read_unread]
  simp only [View.canon_cons_unit_zero (S := S1024x1024) zero_off3, View.readCov_unit_zero (S := S1024x1024) _ zero_off3, View.ld_unit_zero (S := S2048x1024) zero_off3, View.ld_unit_zero (S := S1024x1024) zero_off3]

end Cert.KernelIdeal.Gen

end
-- ==== Proof.KIValue3.lean ====
/-
  Region 3: the result array of the co-activation product as one function of the two indicator arrays.

  The grid is (2 row blocks of the result) × (1 column block of the result) × (4 batch blocks), the batch axis
  innermost: point `t` works on batch block `t % 4` and result block `t / 4`.  Window 0 hands the body rows
  `2048·(t % 4) …` of `A` at the result block's 1024 columns of `A`, window 1 the same rows of `B` at the result block's
  1024 columns of `B`.  The accumulator tile after the body at `t` holds, entry `(i, j)`, the partial sum of the entry's
  products over batch blocks `0 … t % 4` (by induction on the point: a first batch block resets it, a later one adds
  to what the point before left).  At `t % 4 = 3` the output block receives the tile, which is then the whole batch's
  sum, and is written back; these blocks tile the result array, so the array ends holding `coact A B`.
-/
import proofs.«114003_j36704790511729_2_alg».proof.Proof.KIFrame3
import proofs.«114003_j36704790511729_2_alg».proof.Proof.KIClosed3
import proofs.«114003_j36704790511729_2_alg».proof.Proof.Spec
import proofs.«114003_j36704790511729_2_alg».proof.Proof.SpecLaws
import proofs.«114003_j36704790511729_2_alg».proof.Proof.SpecLawsCoact
import proofs.«114003_j36704790511729_2_alg».proof.Proof.PayCoact
import Idealize.ShloMosaic.Lib.Pipeline.Value

noncomputable section

namespace Cert.KernelIdeal.Val3

open Cert.KernelIdeal Cert.KernelIdeal.Gen Cert.KernelIdeal.PayValue Hebb
open Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b)) (c : Dev nD)

/-- The printed index maps, decided over the grid: the batch block is `t % 4`, the result block `t / 4`. -/
theorem idx_facts : ∀ t : Fin cfg3.N,
    win3_0.index t (0 : Fin 2) = t.val % 4 ∧ win3_0.index t (1 : Fin 2) = t.val / 4
  ∧ win3_1.index t (0 : Fin 2) = t.val % 4 ∧ win3_1.index t (1 : Fin 2) = 0
  ∧ win3_2.index t (0 : Fin 2) = t.val / 4 ∧ win3_2.index t (1 : Fin 2) = 0 :=
  (by decide +kernel : ∀ t : Fin grid3.N, _)

/-- The row of the result (a column of `A`) that tile row `i` stands for at position `n`. -/
def rowOf (n : ℕ) (i : Fin 1024) : Fin 2048 := ⟨(1024 * (n / 4) + i.val) % 2048, Nat.mod_lt _ (by norm_num)⟩
/-- The column of the result (a column of `B`) that tile column `j` stands for at position `n`. -/
def colOf (n : ℕ) (j : Fin 1024) : Fin 1024 := ⟨(1024 * (0) + j.val) % 1024, Nat.mod_lt _ (by norm_num)⟩

/-- Window 0's block at point `t` holds rows `2048·(t % 4) …` of `A` at the result block's columns of `A`. -/
theorem blk0 (t : Fin cfg3.N) (s : Fin 2048) (i : Fin 1024) :
    iblk3 V c 0 t (ix2 s i)
      = V c main_v2_3 (ix2 (⟨2048 * (t.val % 4) + s.val, by omega⟩ : Fin 8192) (rowOf t.val i)) := by
  obtain ⟨e0, e1, -⟩ := idx_facts t
  have hN : t.val < 8 := lt_of_lt_of_eq t.isLt N_3
  unfold iblk3
  rw [View.read_apply]
  show V c main_v2_3 _ = _
  refine congrArg (V c main_v2_3) (funext fun a => Fin.ext ?_)
  match a with
  | ⟨0, _⟩ => show win3_0.index t 0 * 2048 + 1 * s.val = 2048 * (t.val % 4) + s.val; rw [e0]; omega
  | ⟨1, _⟩ =>
    show win3_0.index t 1 * 1024 + 1 * i.val = (1024 * (t.val / 4) + i.val) % 2048
    rw [e1, Nat.mod_eq_of_lt (by have := i.isLt; omega)]; omega

/-- Window 1's block at point `t` holds the same rows of `B` at the result block's columns of `B`. -/
theorem blk1 (t : Fin cfg3.N) (s : Fin 2048) (j : Fin 1024) :
    iblk3 V c 1 t (ix2 s j)
      = V c main_v2_4 (ix2 (⟨2048 * (t.val % 4) + s.val, by omega⟩ : Fin 8192) (colOf t.val j)) := by
  obtain ⟨-, -, e0, e1, -⟩ := idx_facts t
  have hN : t.val < 8 := lt_of_lt_of_eq t.isLt N_3
  unfold iblk3
  rw [View.read_apply]
  show V c main_v2_4 _ = _
  refine congrArg (V c main_v2_4) (funext fun a => Fin.ext ?_)
  match a with
  | ⟨0, _⟩ => show win3_1.index t 0 * 2048 + 1 * s.val = 2048 * (t.val % 4) + s.val; rw [e0]; omega
  | ⟨1, _⟩ =>
    show win3_1.index t 1 * 1024 + 1 * j.val = (1024 * (0) + j.val) % 1024
    rw [e1, Nat.mod_eq_of_lt (by have := j.isLt; omega)]; omega

/-- The body's stored value at point `t`, on the point's two blocks and a tile `acc`, is entry by entry `acc` plus batch
    block `t % 4`'s share of the entry. -/
theorem pay2_at (t : Fin cfg3.N) (acc : Vec Ideal S1024x1024 .f32) (i j : Fin 1024) :
    k3_pay2 (F := Ideal) (iblk3 V c 0 t) (iblk3 V c 1 t) acc (ix2 i j)
      = acc (ix2 i j) + blockSum (V c main_v2_3) (V c main_v2_4) (rowOf t.val i) (colOf t.val j) (t.val % 4) := by
  rw [k3_pay2_eq, arr2_ix2]
  exact congrArg (acc (ix2 i j) + ·)
    (blockSum_of_blocks (V c main_v2_3) (V c main_v2_4) (rowOf t.val i) (colOf t.val j) (t.val % 4) (Nat.mod_lt _ (by norm_num))
      (iblk3 V c 0 t) (iblk3 V c 1 t) i j (fun s => blk0 V c t s i) (fun s => blk1 V c t s j))

/-- THE TILE after the body at position `n`: the entry's partial sum over batch blocks `0 … n % 4`. -/
theorem tile_eq : ∀ (n : ℕ) (hn : n < cfg3.N) (i j : Fin 1024),
    (outsAt3 V c n hn).2 (ix2 i j)
      = partialSum (V c main_v2_3) (V c main_v2_4) (rowOf n i) (colOf n j) (n % 4) := by
  intro n
  induction n using Nat.strong_induction_on with
  | _ n ih =>
    intro hn i j
    have hN : n < 8 := lt_of_lt_of_eq hn N_3
    by_cases h0 : n % 4 = 0
    · have h1 : ¬n % 4 = 3 := by omega
      rw [outsAt3_A V c ⟨n, hn⟩ h0 h1]
      dsimp only
      rw [sout3_A_eq, pay2_at V c ⟨n, hn⟩ _ i j, k3_pay1_eq, arr2_ix2]
      dsimp only
      rw [h0, partialSum_zero]
    · have hpos : 0 < n := Nat.pos_of_ne_zero fun e => h0 (by rw [e])
      have ih' := ih (n - 1) (by omega) (by omega) i j
      have hr : rowOf (n - 1) i = rowOf n i := by
        unfold rowOf; exact Fin.ext (by first | rfl | (dsimp only; omega))
      have hc : colOf (n - 1) j = colOf n j := by
        unfold colOf; exact Fin.ext (by first | rfl | (dsimp only; omega))
      have hk : n % 4 = (n - 1) % 4 + 1 := by omega
      by_cases h1 : n % 4 = 3
      · rw [outsAt3_C V c ⟨n, hn⟩ h0 h1]
        dsimp only
        rw [sout3_C_eq, pay2_at V c ⟨n, hn⟩ _ i j]
        dsimp only
        rw [ih', hr, hc, hk, partialSum_succ]
      · rw [outsAt3_B V c ⟨n, hn⟩ h0 h1]
        dsimp only
        rw [sout3_B_eq, pay2_at V c ⟨n, hn⟩ _ i j]
        dsimp only
        rw [ih', hr, hc, hk, partialSum_succ]

/-- At a last batch block the output block receives the tile. -/
theorem out_eq_tile (t : Fin cfg3.N) (h3 : t.val % 4 = 3) :
    (outsAt3 V c t.val t.isLt).1 = (outsAt3 V c t.val t.isLt).2 := by
  have h0 : ¬t.val % 4 = 0 := by omega
  rw [outsAt3_C V c t h0 h3]
  dsimp only
  rw [out3_C_2_eq, sout3_C_eq]

/-- The co-activation matrix of the two indicator arrays, as an array. -/
abbrev G : S2048x1024.Idx → EReal := arr2 (coact (cur2 (V c main_v2_3)) (cur2 (V c main_v2_4)))

/-- WHAT A LAST BATCH BLOCK WRITES BACK is its block of the co-activation matrix. -/
theorem flushed_eq (t : Fin cfg3.N) (hf : (cfg3.win 2).flush t = true) :
    (dat3 V c).flushed 2 t = ((cfg3.win 2).blk t).view.read (Elt Ideal) (G V c) := by
  have h3 : t.val % 4 = 3 := (flush3_2 t).mp hf
  have hN : t.val < 8 := lt_of_lt_of_eq t.isLt N_3
  obtain ⟨-, -, -, -, e4, e5⟩ := idx_facts t
  show (cfg3.win 2).cut (grid3.coords t) ((dat3 V c).after 2 t) = _
  rw [after3_2, out_eq_tile V c t h3]
  funext y
  obtain ⟨i, j, rfl⟩ : ∃ (i : Fin 1024) (j : Fin 1024), y = ix2 i j := ⟨y 0, y 1, eq_ix2 y⟩
  have hemb : ((cfg3.win 2).blk t).view.emb (ix2 i j) = (ix2 (rowOf t.val i) (colOf t.val j) : S2048x1024.Idx) := by
    funext a; apply Fin.ext
    match a with
    | ⟨0, _⟩ =>
      show win3_2.index t 0 * 1024 + 1 * i.val = (1024 * (t.val / 4) + i.val) % 2048
      rw [e4, Nat.mod_eq_of_lt (by have := i.isLt; omega)]; omega
    | ⟨1, _⟩ =>
      show win3_2.index t 1 * 1024 + 1 * j.val = (1024 * (0) + j.val) % 1024
      rw [e5, Nat.mod_eq_of_lt (by have := j.isLt; omega)]; omega
  rw [View.read_apply, hemb]
  show (outsAt3 V c t.val t.isLt).2 (ix2 i j) = coact (cur2 (V c main_v2_3)) (cur2 (V c main_v2_4)) (rowOf t.val i) (colOf t.val j)
  rw [tile_eq V c t.val t.isLt i j, h3, partialSum_three]

/-- THE RESULT ARRAY after the region: the co-activation matrix of the two indicator arrays. -/
theorem final3 : (dat3 V c).arrAt 2 cfg3.N = arr2 (coact (cur2 (V c main_v2_3)) (cur2 (V c main_v2_4))) :=
  (dat3 V c).arrAt_eq_of_cover 2 (G V c) (flushed_eq V c) fun x => by
    have hx0 : (x 0 : ℕ) < 2048 := (x 0).isLt
    have hx1 : (x 1 : ℕ) < 1024 := (x 1).isLt
    have hlt : 4 * ((x 0 : ℕ) / 1024) + 3 < cfg3.N := by rw [show cfg3.N = 8 from N_3]; omega
    refine ⟨⟨4 * ((x 0 : ℕ) / 1024) + 3, hlt⟩, (flush3_2 _).mpr (by dsimp only; omega), ?_⟩
    obtain ⟨-, -, -, -, e4, e5⟩ := idx_facts ⟨4 * ((x 0 : ℕ) / 1024) + 3, hlt⟩
    show x ∈ ((View.whole main_v5).slice (win3_2.rect ⟨4 * ((x 0 : ℕ) / 1024) + 3, hlt⟩)).set
    rw [View.set_slice_whole, Rect.mem_set_unit]
    intro a
    match a with
    | ⟨0, _⟩ =>
      show win3_2.index ⟨4 * ((x 0 : ℕ) / 1024) + 3, hlt⟩ 0 * 1024 ≤ (x 0 : ℕ) ∧ (x 0 : ℕ) < win3_2.index ⟨4 * ((x 0 : ℕ) / 1024) + 3, hlt⟩ 0 * 1024 + 1024
      rw [e4]; dsimp only; omega
    | ⟨1, _⟩ =>
      show win3_2.index ⟨4 * ((x 0 : ℕ) / 1024) + 3, hlt⟩ 1 * 1024 ≤ (x 1 : ℕ) ∧ (x 1 : ℕ) < win3_2.index ⟨4 * ((x 0 : ℕ) / 1024) + 3, hlt⟩ 1 * 1024 + 1024
      rw [e5]; dsimp only; omega

end Cert.KernelIdeal.Val3

end
-- ==== Proof.KIOutC.lean ====
/-
  The program's three co-activation results.  Each co-activation region is entered with two of the forward region's
  indicator arrays and leaves their product over the batch; the third is then cut back to 1000 columns, where the
  indicator of the padded logits is the indicator of the logits.
-/
import proofs.«114003_j36704790511729_2_alg».proof.Proof.KIOut0
import proofs.«114003_j36704790511729_2_alg».proof.Proof.KIValue1
import proofs.«114003_j36704790511729_2_alg».proof.Proof.KIValue2
import proofs.«114003_j36704790511729_2_alg».proof.Proof.KIValue3

noncomputable section

namespace Cert.KernelIdeal.Run

open Cert.KernelIdeal Cert.KernelIdeal.Gen Hebb
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-- THE SECOND RESULT: input indicators against first hidden indicators. -/
theorem kernel_coact0 : B9 m ρ c (Proc.devRef .tc main_v3) = arr2 (coact0 (cur2 (m ((c : Thread nD τ).loc main_arg0))) (cur2 (m ((c : Thread nD τ).loc main_arg1))) (cur1 (m ((c : Thread nD τ).loc main_arg2)))) := by
  rw [B9_v3, Val1.final1 (BV5 m ρ) c, BV5_v2_1 m ρ c, BV5_v2_2 m ρ c, fwd_act0, fwd_act1]
  rfl

/-- THE THIRD RESULT: first against second hidden indicators. -/
theorem kernel_coact1 : B9 m ρ c (Proc.devRef .tc main_v4) = arr2 (coact1 (cur2 (m ((c : Thread nD τ).loc main_arg0))) (cur2 (m ((c : Thread nD τ).loc main_arg1))) (cur1 (m ((c : Thread nD τ).loc main_arg2))) (cur2 (m ((c : Thread nD τ).loc main_arg3))) (cur1 (m ((c : Thread nD τ).loc main_arg4)))) := by
  rw [B9_v4, Val2.final2 (BV6 m ρ) c, BV6_v2_2 m ρ c, BV6_v2_3 m ρ c, fwd_act1, fwd_act2]
  rfl

/-- THE FOURTH RESULT: second hidden indicators against the logits' indicators. -/
theorem kernel_coact2 : B9 m ρ c (Proc.devRef .tc main_v7) = arr2 (coact2 (cur2 (m ((c : Thread nD τ).loc main_arg0))) (cur2 (m ((c : Thread nD τ).loc main_arg1))) (cur1 (m ((c : Thread nD τ).loc main_arg2))) (cur2 (m ((c : Thread nD τ).loc main_arg3))) (cur1 (m ((c : Thread nD τ).loc main_arg4))) (cur2 (m ((c : Thread nD τ).loc main_arg5))) (cur1 (m ((c : Thread nD τ).loc main_arg6)))) := by
  funext i
  obtain ⟨p, q, rfl⟩ : ∃ (p : Fin 2048) (q : Fin 1000), i = ix2 p q := ⟨i 0, i 1, eq_ix2 i⟩
  rw [B9_v7, LayoutReads.slice_coact2, B8_v5, Val3.final3 (BV7 m ρ) c, BV7_v2_3 m ρ c, BV7_v2_4 m ρ c, fwd_act2, fwd_act3]
  show (∑ s : Fin 8192, act (z2 (cur2 (m ((c : Thread nD τ).loc main_arg0))) (cur2 (m ((c : Thread nD τ).loc main_arg1))) (cur1 (m ((c : Thread nD τ).loc main_arg2))) (cur2 (m ((c : Thread nD τ).loc main_arg3))) (cur1 (m ((c : Thread nD τ).loc main_arg4)))) s p
        * (if (⟨q.val, by omega⟩ : Fin 1024).val < 1000 then ind (lin (relu (z2 (cur2 (m ((c : Thread nD τ).loc main_arg0))) (cur2 (m ((c : Thread nD τ).loc main_arg1))) (cur1 (m ((c : Thread nD τ).loc main_arg2))) (cur2 (m ((c : Thread nD τ).loc main_arg3))) (cur1 (m ((c : Thread nD τ).loc main_arg4))))) (W3p m ρ c) (B3p m ρ c) s (⟨q.val, by omega⟩ : Fin 1024)) else 0))
      = ∑ s : Fin 8192, act (z2 (cur2 (m ((c : Thread nD τ).loc main_arg0))) (cur2 (m ((c : Thread nD τ).loc main_arg1))) (cur1 (m ((c : Thread nD τ).loc main_arg2))) (cur2 (m ((c : Thread nD τ).loc main_arg3))) (cur1 (m ((c : Thread nD τ).loc main_arg4)))) s p * act (logits (cur2 (m ((c : Thread nD τ).loc main_arg0))) (cur2 (m ((c : Thread nD τ).loc main_arg1))) (cur1 (m ((c : Thread nD τ).loc main_arg2))) (cur2 (m ((c : Thread nD τ).loc main_arg3))) (cur1 (m ((c : Thread nD τ).loc main_arg4))) (cur2 (m ((c : Thread nD τ).loc main_arg5))) (cur1 (m ((c : Thread nD τ).loc main_arg6)))) s q
  refine Finset.sum_congr rfl fun s _ => ?_
  rw [if_pos q.isLt, padded_logits m ρ c s q]
  rfl

end Cert.KernelIdeal.Run

end
-- ==== Proof.RefIsSpec.lean ====
/-
  The reference program computes the network of the specification.

  Stage by stage, each intermediate array of the reference is one of the specification's matrices read as an array:
  a transposed weight matrix contracted on its leading axis is the weight matrix contracted on its second index
  (x·Wᵀ); a bias broadcast first to one row and then down the batch reads the bias at the column; the maximum with
  a broadcast zero is max(·, 0); "compare greater than a broadcast zero, then read the bit as a number" is the 0/1
  indicator; and a contraction of two indicator arrays over their leading (batch) axis is the co-activation count.
  The zero word denotes 0 on the extended reals, so no literal is evaluated beyond that.
-/
import proofs.«114003_j36704790511729_2_alg».proof.Proof.Spec
import proofs.«114003_j36704790511729_2_alg».proof.Proof.Gen.ReferenceIdeal.Read

noncomputable section

namespace Cert.ReferenceIdeal.RefValue

open Cert.ReferenceIdeal Cert.ReferenceIdeal.Read Idealize.ShloMosaic Idealize.ShloMosaic.ValueIdx Hebb

/-- The maximum with the zero word is `max(·, 0)`. -/
theorem max_zero_word (v : EReal) :
    FloatOps.maximumf (F := Ideal) (φ := .f32) v (FloatOps.ofBits (F := Ideal) .f32 0x00000000#32) = max v 0 := by
  rw [Ideal.maximumf_def, Ideal.ofBits_def, Ideal.ofBits_zero_f32]

/-- "Greater than the zero word", read as an unsigned number, is the indicator of `v > 0`. -/
theorem ind_word (v : EReal) :
    FloatOps.uitofp (F := Ideal) .f32 (FloatOps.cmpf (F := Ideal) (φ := .f32) .ogt v (FloatOps.ofBits (F := Ideal) .f32 0x00000000#32))
      = ind v := by
  rw [Ideal.cmpf_def, Ideal.ofBits_def, Ideal.ofBits_zero_f32]
  rfl

/-- The indicator of the input batch. -/
theorem ref_act_x (x0 : (⟨S8192x1024, .f32⟩ : BufTy).Contents (Elt Ideal)) :
    val_main_v2 (F := Ideal) x0 = arr2 (act (cur2 x0)) := by
  funext i
  obtain ⟨p, q, rfl⟩ : ∃ (p : Fin 8192) (q : Fin 1024), i = ix2 p q := ⟨i 0, i 1, eq_ix2 i⟩
  rw [val_main_v2_apply, val_main_v1_apply, val_main_v0_apply, val_main_cst_apply]
  exact ind_word _

/-- The first hidden pre-activation: `x·W₁ᵀ + b₁`. -/
theorem ref_z1 (x0 : (⟨S8192x1024, .f32⟩ : BufTy).Contents (Elt Ideal)) (x1 : (⟨S2048x1024, .f32⟩ : BufTy).Contents (Elt Ideal)) (x2 : (⟨S2048, .f32⟩ : BufTy).Contents (Elt Ideal)) :
    val_main_v7 (F := Ideal) x0 x1 x2 = arr2 (z1 (cur2 x0) (cur2 x1) (cur1 x2)) := by
  funext i
  obtain ⟨p, q, rfl⟩ : ∃ (p : Fin 8192) (q : Fin 2048), i = ix2 p q := ⟨i 0, i 1, eq_ix2 i⟩
  rw [val_main_v7_apply, val_main_v4_apply, val_main_v6_apply, val_main_v5_apply]
  have e1 : ∀ k : Fin 1024, lidx_main_v4 (ix2 p q) k = ix2 p k := fun k => funext fun a => match a with | ⟨0, _⟩ => rfl | ⟨1, _⟩ => rfl
  have e2 : ∀ k : Fin 1024, idx_main_v3 (ridx_main_v4 (ix2 p q) k) = ix2 q k := fun k => funext fun a => match a with | ⟨0, _⟩ => rfl | ⟨1, _⟩ => rfl
  have e3 : idx_main_v5 (idx_main_v6 (ix2 p q)) = ix1 q := funext fun a => match a with | ⟨0, _⟩ => rfl
  simp only [val_main_v3_apply, e1, e2, e3]
  rfl

/-- The first hidden activation. -/
theorem ref_relu1 (x0 : (⟨S8192x1024, .f32⟩ : BufTy).Contents (Elt Ideal)) (x1 : (⟨S2048x1024, .f32⟩ : BufTy).Contents (Elt Ideal)) (x2 : (⟨S2048, .f32⟩ : BufTy).Contents (Elt Ideal)) :
    val_main_v8 (F := Ideal) x0 x1 x2 = arr2 (relu (z1 (cur2 x0) (cur2 x1) (cur1 x2))) := by
  funext i
  obtain ⟨p, q, rfl⟩ : ∃ (p : Fin 8192) (q : Fin 2048), i = ix2 p q := ⟨i 0, i 1, eq_ix2 i⟩
  rw [val_main_v8_apply, val_main_call0_v0_apply, val_main_call0_cst_apply, ref_z1, max_zero_word]
  rfl

/-- The first hidden indicator. -/
theorem ref_act1 (x0 : (⟨S8192x1024, .f32⟩ : BufTy).Contents (Elt Ideal)) (x1 : (⟨S2048x1024, .f32⟩ : BufTy).Contents (Elt Ideal)) (x2 : (⟨S2048, .f32⟩ : BufTy).Contents (Elt Ideal)) :
    val_main_v11 (F := Ideal) x0 x1 x2 = arr2 (act (z1 (cur2 x0) (cur2 x1) (cur1 x2))) := by
  funext i
  obtain ⟨p, q, rfl⟩ : ∃ (p : Fin 8192) (q : Fin 2048), i = ix2 p q := ⟨i 0, i 1, eq_ix2 i⟩
  rw [val_main_v11_apply, val_main_v10_apply, val_main_v9_apply, val_main_cst_0_apply, ref_z1]
  exact ind_word _

/-- Inputs against first hidden indicators, counted over the batch. -/
theorem ref_coact0 (x0 : (⟨S8192x1024, .f32⟩ : BufTy).Contents (Elt Ideal)) (x1 : (⟨S2048x1024, .f32⟩ : BufTy).Contents (Elt Ideal)) (x2 : (⟨S2048, .f32⟩ : BufTy).Contents (Elt Ideal)) :
    val_main_v12 (F := Ideal) x0 x1 x2 = arr2 (coact0 (cur2 x0) (cur2 x1) (cur1 x2)) := by
  funext i
  obtain ⟨p, q, rfl⟩ : ∃ (p : Fin 1024) (q : Fin 2048), i = ix2 p q := ⟨i 0, i 1, eq_ix2 i⟩
  rw [val_main_v12_apply, ref_act_x, ref_act1]
  have e1 : ∀ k : Fin 8192, lidx_main_v12 (ix2 p q) k = ix2 k p := fun k => funext fun a => match a with | ⟨0, _⟩ => rfl | ⟨1, _⟩ => rfl
  have e2 : ∀ k : Fin 8192, ridx_main_v12 (ix2 p q) k = ix2 k q := fun k => funext fun a => match a with | ⟨0, _⟩ => rfl | ⟨1, _⟩ => rfl
  simp only [e1, e2]
  rfl

/-- The second hidden pre-activation: `max(z₁,0)·W₂ᵀ + b₂`. -/
theorem ref_z2 (x0 : (⟨S8192x1024, .f32⟩ : BufTy).Contents (Elt Ideal)) (x1 : (⟨S2048x1024, .f32⟩ : BufTy).Contents (Elt Ideal)) (x2 : (⟨S2048, .f32⟩ : BufTy).Contents (Elt Ideal)) (x3 : (⟨S2048x2048, .f32⟩ : BufTy).Contents (Elt Ideal)) (x4 : (⟨S2048, .f32⟩ : BufTy).Contents (Elt Ideal)) :
    val_main_v17 (F := Ideal) x0 x1 x2 x3 x4 = arr2 (z2 (cur2 x0) (cur2 x1) (cur1 x2) (cur2 x3) (cur1 x4)) := by
  funext i
  obtain ⟨p, q, rfl⟩ : ∃ (p : Fin 8192) (q : Fin 2048), i = ix2 p q := ⟨i 0, i 1, eq_ix2 i⟩
  rw [val_main_v17_apply, val_main_v14_apply, val_main_v16_apply, val_main_v15_apply, ref_relu1]
  have e1 : ∀ k : Fin 2048, lidx_main_v14 (ix2 p q) k = ix2 p k := fun k => funext fun a => match a with | ⟨0, _⟩ => rfl | ⟨1, _⟩ => rfl
  have e2 : ∀ k : Fin 2048, idx_main_v13 (ridx_main_v14 (ix2 p q) k) = ix2 q k := fun k => funext fun a => match a with | ⟨0, _⟩ => rfl | ⟨1, _⟩ => rfl
  have e3 : idx_main_v15 (idx_main_v16 (ix2 p q)) = ix1 q := funext fun a => match a with | ⟨0, _⟩ => rfl
  simp only [val_main_v13_apply, e1, e2, e3]
  rfl

/-- The second hidden activation. -/
theorem ref_relu2 (x0 : (⟨S8192x1024, .f32⟩ : BufTy).Contents (Elt Ideal)) (x1 : (⟨S2048x1024, .f32⟩ : BufTy).Contents (Elt Ideal)) (x2 : (⟨S2048, .f32⟩ : BufTy).Contents (Elt Ideal)) (x3 : (⟨S2048x2048, .f32⟩ : BufTy).Contents (Elt Ideal)) (x4 : (⟨S2048, .f32⟩ : BufTy).Contents (Elt Ideal)) :
    val_main_v18 (F := Ideal) x0 x1 x2 x3 x4 = arr2 (relu (z2 (cur2 x0) (cur2 x1) (cur1 x2) (cur2 x3) (cur1 x4))) := by
  funext i
  obtain ⟨p, q, rfl⟩ : ∃ (p : Fin 8192) (q : Fin 2048), i = ix2 p q := ⟨i 0, i 1, eq_ix2 i⟩
  rw [val_main_v18_apply, val_main_call1_v0_apply, val_main_call1_cst_apply, ref_z2, max_zero_word]
  rfl

/-- The second hidden indicator. -/
theorem ref_act2 (x0 : (⟨S8192x1024, .f32⟩ : BufTy).Contents (Elt Ideal)) (x1 : (⟨S2048x1024, .f32⟩ : BufTy).Contents (Elt Ideal)) (x2 : (⟨S2048, .f32⟩ : BufTy).Contents (Elt Ideal)) (x3 : (⟨S2048x2048, .f32⟩ : BufTy).Contents (Elt Ideal)) (x4 : (⟨S2048, .f32⟩ : BufTy).Contents (Elt Ideal)) :
    val_main_v21 (F := Ideal) x0 x1 x2 x3 x4 = arr2 (act (z2 (cur2 x0) (cur2 x1) (cur1 x2) (cur2 x3) (cur1 x4))) := by
  funext i
  obtain ⟨p, q, rfl⟩ : ∃ (p : Fin 8192) (q : Fin 2048), i = ix2 p q := ⟨i 0, i 1, eq_ix2 i⟩
  rw [val_main_v21_apply, val_main_v20_apply, val_main_v19_apply, val_main_cst_1_apply, ref_z2]
  exact ind_word _

/-- First against second hidden indicators, counted over the batch. -/
theorem ref_coact1 (x0 : (⟨S8192x1024, .f32⟩ : BufTy).Contents (Elt Ideal)) (x1 : (⟨S2048x1024, .f32⟩ : BufTy).Contents (Elt Ideal)) (x2 : (⟨S2048, .f32⟩ : BufTy).Contents (Elt Ideal)) (x3 : (⟨S2048x2048, .f32⟩ : BufTy).Contents (Elt Ideal)) (x4 : (⟨S2048, .f32⟩ : BufTy).Contents (Elt Ideal)) :
    val_main_v22 (F := Ideal) x0 x1 x2 x3 x4 = arr2 (coact1 (cur2 x0) (cur2 x1) (cur1 x2) (cur2 x3) (cur1 x4)) := by
  funext i
  obtain ⟨p, q, rfl⟩ : ∃ (p : Fin 2048) (q : Fin 2048), i = ix2 p q := ⟨i 0, i 1, eq_ix2 i⟩
  rw [val_main_v22_apply, ref_act1, ref_act2]
  have e1 : ∀ k : Fin 8192, lidx_main_v22 (ix2 p q) k = ix2 k p := fun k => funext fun a => match a with | ⟨0, _⟩ => rfl | ⟨1, _⟩ => rfl
  have e2 : ∀ k : Fin 8192, ridx_main_v22 (ix2 p q) k = ix2 k q := fun k => funext fun a => match a with | ⟨0, _⟩ => rfl | ⟨1, _⟩ => rfl
  simp only [e1, e2]
  rfl

/-- The logits: `max(z₂,0)·W₃ᵀ + b₃`. -/
theorem ref_logits (x0 : (⟨S8192x1024, .f32⟩ : BufTy).Contents (Elt Ideal)) (x1 : (⟨S2048x1024, .f32⟩ : BufTy).Contents (Elt Ideal)) (x2 : (⟨S2048, .f32⟩ : BufTy).Contents (Elt Ideal)) (x3 : (⟨S2048x2048, .f32⟩ : BufTy).Contents (Elt Ideal)) (x4 : (⟨S2048, .f32⟩ : BufTy).Contents (Elt Ideal)) (x5 : (⟨S1000x2048, .f32⟩ : BufTy).Contents (Elt Ideal)) (x6 : (⟨S1000, .f32⟩ : BufTy).Contents (Elt Ideal)) :
    val_main_v27 (F := Ideal) x0 x1 x2 x3 x4 x5 x6 = arr2 (logits (cur2 x0) (cur2 x1) (cur1 x2) (cur2 x3) (cur1 x4) (cur2 x5) (cur1 x6)) := by
  funext i
  obtain ⟨p, q, rfl⟩ : ∃ (p : Fin 8192) (q : Fin 1000), i = ix2 p q := ⟨i 0, i 1, eq_ix2 i⟩
  rw [val_main_v27_apply, val_main_v24_apply, val_main_v26_apply, val_main_v25_apply, ref_relu2]
  have e1 : ∀ k : Fin 2048, lidx_main_v24 (ix2 p q) k = ix2 p k := fun k => funext fun a => match a with | ⟨0, _⟩ => rfl | ⟨1, _⟩ => rfl
  have e2 : ∀ k : Fin 2048, idx_main_v23 (ridx_main_v24 (ix2 p q) k) = ix2 q k := fun k => funext fun a => match a with | ⟨0, _⟩ => rfl | ⟨1, _⟩ => rfl
  have e3 : idx_main_v25 (idx_main_v26 (ix2 p q)) = ix1 q := funext fun a => match a with | ⟨0, _⟩ => rfl
  simp only [val_main_v23_apply, e1, e2, e3]
  rfl

/-- The logit indicator. -/
theorem ref_act3 (x0 : (⟨S8192x1024, .f32⟩ : BufTy).Contents (Elt Ideal)) (x1 : (⟨S2048x1024, .f32⟩ : BufTy).Contents (Elt Ideal)) (x2 : (⟨S2048, .f32⟩ : BufTy).Contents (Elt Ideal)) (x3 : (⟨S2048x2048, .f32⟩ : BufTy).Contents (Elt Ideal)) (x4 : (⟨S2048, .f32⟩ : BufTy).Contents (Elt Ideal)) (x5 : (⟨S1000x2048, .f32⟩ : BufTy).Contents (Elt Ideal)) (x6 : (⟨S1000, .f32⟩ : BufTy).Contents (Elt Ideal)) :
    val_main_v30 (F := Ideal) x0 x1 x2 x3 x4 x5 x6 = arr2 (act (logits (cur2 x0) (cur2 x1) (cur1 x2) (cur2 x3) (cur1 x4) (cur2 x5) (cur1 x6))) := by
  funext i
  obtain ⟨p, q, rfl⟩ : ∃ (p : Fin 8192) (q : Fin 1000), i = ix2 p q := ⟨i 0, i 1, eq_ix2 i⟩
  rw [val_main_v30_apply, val_main_v29_apply, val_main_v28_apply, val_main_cst_2_apply, ref_logits]
  exact ind_word _

/-- Second hidden against logit indicators, counted over the batch. -/
theorem ref_coact2 (x0 : (⟨S8192x1024, .f32⟩ : BufTy).Contents (Elt Ideal)) (x1 : (⟨S2048x1024, .f32⟩ : BufTy).Contents (Elt Ideal)) (x2 : (⟨S2048, .f32⟩ : BufTy).Contents (Elt Ideal)) (x3 : (⟨S2048x2048, .f32⟩ : BufTy).Contents (Elt Ideal)) (x4 : (⟨S2048, .f32⟩ : BufTy).Contents (Elt Ideal)) (x5 : (⟨S1000x2048, .f32⟩ : BufTy).Contents (Elt Ideal)) (x6 : (⟨S1000, .f32⟩ : BufTy).Contents (Elt Ideal)) :
    val_main_v31 (F := Ideal) x0 x1 x2 x3 x4 x5 x6 = arr2 (coact2 (cur2 x0) (cur2 x1) (cur1 x2) (cur2 x3) (cur1 x4) (cur2 x5) (cur1 x6)) := by
  funext i
  obtain ⟨p, q, rfl⟩ : ∃ (p : Fin 2048) (q : Fin 1000), i = ix2 p q := ⟨i 0, i 1, eq_ix2 i⟩
  rw [val_main_v31_apply, ref_act2, ref_act3]
  have e1 : ∀ k : Fin 8192, lidx_main_v31 (ix2 p q) k = ix2 k p := fun k => funext fun a => match a with | ⟨0, _⟩ => rfl | ⟨1, _⟩ => rfl
  have e2 : ∀ k : Fin 8192, ridx_main_v31 (ix2 p q) k = ix2 k q := fun k => funext fun a => match a with | ⟨0, _⟩ => rfl | ⟨1, _⟩ => rfl
  simp only [e1, e2]
  rfl

end Cert.ReferenceIdeal.RefValue

end
-- ==== Proof.lean ====
/-
  The certificate of a three-layer perceptron with co-activation counts.

  Both programs take a batch x of 8192 rows and the weights and biases of three dense layers, and return the logits
      z₁ = x·W₁ᵀ + b₁,  z₂ = max(z₁,0)·W₂ᵀ + b₂,  logits = max(z₂,0)·W₃ᵀ + b₃
  and three matrices counting, over the batch, how often the 0/1 indicators "entry > 0" of consecutive layers (x, z₁, z₂,
  logits) are 1 together.  The kernel's program pads the last layer to 1024 classes, runs the forward pass in blocks of 64
  rows, forms each co-activation matrix tile by tile with the batch summed in four blocks of 2048 rows into an accumulator,
  and cuts the padded results back to 1000 classes; the reference is a line of whole-array operations.  At the exact
  instance a change of float format is the identity, a product into a zero accumulator is the sum it names, a sum taken in
  four blocks is the whole sum, and the padding is never read below class 1000, so both programs compute the
  specification's four functions (Proof/Spec.lean) of the argument arrays — no finiteness of the inputs is used.
-/
import proofs.«114003_j36704790511729_2_alg».proof.Defs
import proofs.«114003_j36704790511729_2_alg».proof.Proof.Frames
import proofs.«114003_j36704790511729_2_alg».proof.Proof.KIOutC
import proofs.«114003_j36704790511729_2_alg».proof.Proof.RefIsSpec
import Idealize.ShloMosaic.Adequacy
import Idealize.ShloMosaic.Init

noncomputable section

namespace Cert.Proof

open Idealize.ShloMosaic Idealize.SL.Sem Hebb

/-- From memories agreeing on the arguments both idealized programs end with the specification's four arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => arr2 (logits (cur2 (m ((c.tc : Thread Cert.KernelIdeal.nD Cert.KernelIdeal.τ).loc Cert.KernelIdeal.main_arg0))) (cur2 (m ((c.tc : Thread Cert.KernelIdeal.nD Cert.KernelIdeal.τ).loc Cert.KernelIdeal.main_arg1))) (cur1 (m ((c.tc : Thread Cert.KernelIdeal.nD Cert.KernelIdeal.τ).loc Cert.KernelIdeal.main_arg2))) (cur2 (m ((c.tc : Thread Cert.KernelIdeal.nD Cert.KernelIdeal.τ).loc Cert.KernelIdeal.main_arg3))) (cur1 (m ((c.tc : Thread Cert.KernelIdeal.nD Cert.KernelIdeal.τ).loc Cert.KernelIdeal.main_arg4))) (cur2 (m ((c.tc : Thread Cert.KernelIdeal.nD Cert.KernelIdeal.τ).loc Cert.KernelIdeal.main_arg5))) (cur1 (m ((c.tc : Thread Cert.KernelIdeal.nD Cert.KernelIdeal.τ).loc Cert.KernelIdeal.main_arg6)))), fun c => arr2 (coact0 (cur2 (m ((c.tc : Thread Cert.KernelIdeal.nD Cert.KernelIdeal.τ).loc Cert.KernelIdeal.main_arg0))) (cur2 (m ((c.tc : Thread Cert.KernelIdeal.nD Cert.KernelIdeal.τ).loc Cert.KernelIdeal.main_arg1))) (cur1 (m ((c.tc : Thread Cert.KernelIdeal.nD Cert.KernelIdeal.τ).loc Cert.KernelIdeal.main_arg2)))), fun c => arr2 (coact1 (cur2 (m ((c.tc : Thread Cert.KernelIdeal.nD Cert.KernelIdeal.τ).loc Cert.KernelIdeal.main_arg0))) (cur2 (m ((c.tc : Thread Cert.KernelIdeal.nD Cert.KernelIdeal.τ).loc Cert.KernelIdeal.main_arg1))) (cur1 (m ((c.tc : Thread Cert.KernelIdeal.nD Cert.KernelIdeal.τ).loc Cert.KernelIdeal.main_arg2))) (cur2 (m ((c.tc : Thread Cert.KernelIdeal.nD Cert.KernelIdeal.τ).loc Cert.KernelIdeal.main_arg3))) (cur1 (m ((c.tc : Thread Cert.KernelIdeal.nD Cert.KernelIdeal.τ).loc Cert.KernelIdeal.main_arg4)))), fun c => arr2 (coact2 (cur2 (m ((c.tc : Thread Cert.KernelIdeal.nD Cert.KernelIdeal.τ).loc Cert.KernelIdeal.main_arg0))) (cur2 (m ((c.tc : Thread Cert.KernelIdeal.nD Cert.KernelIdeal.τ).loc Cert.KernelIdeal.main_arg1))) (cur1 (m ((c.tc : Thread Cert.KernelIdeal.nD Cert.KernelIdeal.τ).loc Cert.KernelIdeal.main_arg2))) (cur2 (m ((c.tc : Thread Cert.KernelIdeal.nD Cert.KernelIdeal.τ).loc Cert.KernelIdeal.main_arg3))) (cur1 (m ((c.tc : Thread Cert.KernelIdeal.nD Cert.KernelIdeal.τ).loc Cert.KernelIdeal.main_arg4))) (cur2 (m ((c.tc : Thread Cert.KernelIdeal.nD Cert.KernelIdeal.τ).loc Cert.KernelIdeal.main_arg5))) (cur1 (m ((c.tc : Thread Cert.KernelIdeal.nD Cert.KernelIdeal.τ).loc Cert.KernelIdeal.main_arg6)))), ?_, ?_⟩
  · exact (θ_run (Cert.KernelIdeal.defs (F := Ideal)) _ _).mono (fun r h c =>
      ⟨(h c _ (Cert.KernelIdeal.Run.mem_uc Cert.KernelIdeal.main_v6 (by decide))).trans (Cert.KernelIdeal.Run.kernel_logits m ρ c),
       (h c _ (Cert.KernelIdeal.Run.mem_uc Cert.KernelIdeal.main_v3 (by decide))).trans (Cert.KernelIdeal.Run.kernel_coact0 m ρ c),
       (h c _ (Cert.KernelIdeal.Run.mem_uc Cert.KernelIdeal.main_v4 (by decide))).trans (Cert.KernelIdeal.Run.kernel_coact1 m ρ c),
       (h c _ (Cert.KernelIdeal.Run.mem_uc Cert.KernelIdeal.main_v7 (by decide))).trans (Cert.KernelIdeal.Run.kernel_coact2 m ρ c),
       (h c _ (Cert.KernelIdeal.Run.mem_uc Cert.KernelIdeal.main_arg0 (by decide))).trans (Cert.KernelIdeal.Run.B9_main_arg0 m ρ c),
       (h c _ (Cert.KernelIdeal.Run.mem_uc Cert.KernelIdeal.main_arg1 (by decide))).trans (Cert.KernelIdeal.Run.B9_main_arg1 m ρ c),
       (h c _ (Cert.KernelIdeal.Run.mem_uc Cert.KernelIdeal.main_arg2 (by decide))).trans (Cert.KernelIdeal.Run.B9_main_arg2 m ρ c),
       (h c _ (Cert.KernelIdeal.Run.mem_uc Cert.KernelIdeal.main_arg3 (by decide))).trans (Cert.KernelIdeal.Run.B9_main_arg3 m ρ c),
       (h c _ (Cert.KernelIdeal.Run.mem_uc Cert.KernelIdeal.main_arg4 (by decide))).trans (Cert.KernelIdeal.Run.B9_main_arg4 m ρ c),
       (h c _ (Cert.KernelIdeal.Run.mem_uc Cert.KernelIdeal.main_arg5 (by decide))).trans (Cert.KernelIdeal.Run.B9_main_arg5 m ρ c),
       (h c _ (Cert.KernelIdeal.Run.mem_uc Cert.KernelIdeal.main_arg6 (by decide))).trans (Cert.KernelIdeal.Run.B9_main_arg6 m ρ c)⟩)
      (Cert.KernelIdeal.Run.run_all (F := Ideal) m ρ)
  · refine (θ_run (Cert.ReferenceIdeal.defs (F := Ideal)) _ _).mono (fun r h c => ?_) (Cert.ReferenceIdeal.Value.run (F := Ideal) m' ρ')
    obtain ⟨h27, h12, h22, h31, hargs⟩ := h c
    obtain ⟨e0, e1, e2, e3, e4, e5, e6⟩ := hagree c
    refine ⟨h27.trans ?_, h12.trans ?_, h22.trans ?_, h31.trans ?_, hargs⟩
    · rw [e0, e1, e2, e3, e4, e5, e6]
      exact (Cert.ReferenceIdeal.Read.val_main_v27_eq _ _ _ _ _ _ _).trans (Cert.ReferenceIdeal.RefValue.ref_logits _ _ _ _ _ _ _)
    · rw [e0, e1, e2]
      exact (Cert.ReferenceIdeal.Read.val_main_v12_eq _ _ _).trans (Cert.ReferenceIdeal.RefValue.ref_coact0 _ _ _)
    · rw [e0, e1, e2, e3, e4]
      exact (Cert.ReferenceIdeal.Read.val_main_v22_eq _ _ _ _ _).trans (Cert.ReferenceIdeal.RefValue.ref_coact1 _ _ _ _ _)
    · rw [e0, e1, e2, e3, e4, e5, e6]
      exact (Cert.ReferenceIdeal.Read.val_main_v31_eq _ _ _ _ _ _ _).trans (Cert.ReferenceIdeal.RefValue.ref_coact2 _ _ _ _ _ _ _)

theorem claim : Cert.Claim :=
  ⟨Cert.Kernel.Gen.facts, Cert.KernelIdeal.Gen.facts, Cert.ReferenceIdeal.Gen.facts, Cert.Pre_finite_inputs.Gen.facts,
    Cert.Proof.Parts.frame_k, Cert.Proof.Parts.frame_ki, Cert.Proof.Parts.frame_ri, Cert.Proof.Parts.preserves, algebraic⟩

end Cert.Proof

end
